-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S100000x3 : Shape := ⟨2, ![100000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S128x3 : Shape := ⟨2, ![128, 3]⟩
abbrev S3 : Shape := ⟨1, ![3]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S257x128 : S_.BroadcastsInDim S257x128 (![] : Fin 0 → Fin S257x128.rank)
  reducesTo_S257x128_S_d0_1 : S257x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S256x128 : S_.BroadcastsInDim S256x128 (![] : Fin 0 → Fin S256x128.rank)
  reducesTo_S256x128_S_d0_1 : S256x128.ReducesTo [0, 1] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part6 {F : FTy → Type} [FloatOps F] (main_arg22 : FVec F S3 .f32) (main_v98 : IVec S_ 1) (main_v101 : IVec S128x3 1) (main_c_39 : IVec S_ 1) : IVec S_ 1 :=
  let main_v102 : IVec S_ 1 := (fun x v => Host.reduce IntOp.andi x v reducesTo_S128x3_S_d0_1 h_S_) main_v101 main_c_39
  let main_v103 : IVec S_ 1 := andi main_v98 main_v102
  let main_v104 : FVec F S3 .f32 := Host.absf main_arg22
  let main_cst_40 : FVec F S_ .f32 := constant S_ .f32 0x7F800000#32
  let main_v105 : FVec F S3 .f32 := broadcastInDim S3 ![] bcast_S_S3 main_cst_40
  let main_v106 : IVec S3 1 := cmpf .olt main_v104 main_v105
  let main_c_41 : IVec S_ 1 := constantI S_ 1 1#1
  let main_v107 : IVec S_ 1 := (fun x v => Host.reduce IntOp.andi x v reducesTo_S3_S_d0 h_S_) main_v106 main_c_41
  let main_v108 : IVec S_ 1 := andi main_v103 main_v107
  main_v108

def fn_part5 {F : FTy → Type} [FloatOps F] (main_arg19 : FVec F S128x128 .f32) (main_arg20 : FVec F S128 .f32) (main_arg21 : FVec F S128x3 .f32) (main_arg22 : FVec F S3 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x128 .f32 := Host.absf main_arg19
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128 .f32 := Host.absf main_arg20
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128x3 .f32 := Host.absf main_arg21
  let main_cst_38 : FVec F S_ .f32 := constant S_ .f32 0x7F800000#32
  let main_v100 : FVec F S128x3 .f32 := broadcastInDim S128x3 ![] bcast_S_S128x3 main_cst_38
  let main_v101 : IVec S128x3 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x3 .f32) (main_arg22 : FVec F S3 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x3 .f32) (main_arg22 : FVec F S3 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S1 .f32) (main_arg9 : FVec F S256x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x3 .f32) (main_arg22 : FVec F S3 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S128x128 .f32) (main_arg6 : FVec F S128 .f32) (main_arg7 : FVec F S128x1 .f32) (main_arg8 : FVec F S1 .f32) (main_arg9 : FVec F S256x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x3 .f32) (main_arg22 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x1 .f32 := Host.absf main_arg7
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S100000x128 .f32) (main_arg1 : FVec F S100000x3 .f32) (main_arg2 : IVec S2x600000 32) (main_arg3 : FVec F S257x128 .f32) (main_arg4 : FVec F S128 .f32) (main_arg5 : FVec F S128x128 .f32) (main_arg6 : FVec F S128 .f32) (main_arg7 : FVec F S128x1 .f32) (main_arg8 : FVec F S1 .f32) (main_arg9 : FVec F S256x128 .f32) (main_arg10 : FVec F S128 .f32) (main_arg11 : FVec F S128x128 .f32) (main_arg12 : FVec F S128 .f32) (main_arg13 : FVec F S128x128 .f32) (main_arg14 : FVec F S128 .f32) (main_arg15 : FVec F S128x128 .f32) (main_arg16 : FVec F S128 .f32) (main_arg17 : FVec F S128x128 .f32) (main_arg18 : FVec F S128 .f32) (main_arg19 : FVec F S128x128 .f32) (main_arg20 : FVec F S128 .f32) (main_arg21 : FVec F S128x3 .f32) (main_arg22 : FVec F S3 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S257x128 .f32 := Host.absf main_arg3
  let main_cst_2 : FVec F S_ .f32 := constant S_ .f32 0x7F800000#32
  let main_v10 : FVec F S257x128 .f32 := broadcastInDim S257x128 ![] bcast_S_S257x128 main_cst_2
  let main_v11 : IVec S257x128 1 := cmpf .olt main_v9 main_v10
  let main_c_3 : IVec S_ 1 := constantI S_ 1 1#1
  let main_v12 : IVec S_ 1 := (fun x v => Host.reduce IntOp.andi x v reducesTo_S257x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S100000x128 : Shape := ⟨2, ![100000, 128]⟩
abbrev S100000x3 : Shape := ⟨2, ![100000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S128x3 : Shape := ⟨2, ![128, 3]⟩
abbrev S3 : Shape := ⟨1, ![3]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x3 : Shape := ⟨2, ![600000, 3]⟩
abbrev S600000x128 : Shape := ⟨2, ![600000, 128]⟩
abbrev S1x128 : Shape := ⟨2, ![1, 128]⟩
abbrev S4000x128 : Shape := ⟨2, ![4000, 128]⟩
abbrev S4000x1 : Shape := ⟨2, ![4000, 1]⟩
abbrev S1x1 : Shape := ⟨2, ![1, 1]⟩
abbrev S5000x128 : Shape := ⟨2, ![5000, 128]⟩
abbrev S5000x3 : Shape := ⟨2, ![5000, 3]⟩
abbrev S5000x256 : Shape := ⟨2, ![5000, 256]⟩
abbrev S1x3 : Shape := ⟨2, ![1, 3]⟩

abbrev nBuf : Space → Nat
  | .hbm => 80
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S100000x3, .f32⟩
  | .hbm, ⟨2, _⟩ => ⟨S2x600000, .i32⟩
  | .hbm, ⟨3, _⟩ => ⟨S257x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S256x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128x3, .f32⟩
  | .hbm, ⟨22, _⟩ => ⟨S3, .f32⟩
  | .hbm, ⟨23, _⟩ => ⟨S1x600000, .i32⟩
  | .hbm, ⟨24, _⟩ => ⟨S600000, .i32⟩
  | .hbm, ⟨25, _⟩ => ⟨S1x600000, .i32⟩
  | .hbm, ⟨26, _⟩ => ⟨S600000, .i32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x3, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x3, .f32⟩
  | .hbm, ⟨45, _⟩ => ⟨S600000x3, .f32⟩
  | .hbm, ⟨46, _⟩ => ⟨S600000x3, .f32⟩
  | .hbm, ⟨47, _⟩ => ⟨S600000x3, .f32⟩
  | .hbm, ⟨48, _⟩ => ⟨S_, .f32⟩
  | .hbm, ⟨49, _⟩ => ⟨S600000, .f32⟩
  | .hbm, ⟨50, _⟩ => ⟨S600000x1, .f32⟩
  | .hbm, ⟨51, _⟩ => ⟨S600000x1, .f32⟩
  | .hbm, ⟨52, _⟩ => ⟨S100000x128, .bf16⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x128, .bf16⟩
  | .hbm, ⟨62, _⟩ => ⟨S_, .i32⟩
  | .hbm, ⟨63, _⟩ => ⟨S600000, .i32⟩
  | .hbm, ⟨64, _⟩ => ⟨S600000, .i1⟩
  | .hbm, ⟨65, _⟩ => ⟨S_, .i32⟩
  | .hbm, ⟨66, _⟩ => ⟨S600000, .i32⟩
  | .hbm, ⟨67, _⟩ => ⟨S600000, .i32⟩
  | .hbm, ⟨68, _⟩ => ⟨S600000, .i32⟩
  | .hbm, ⟨69, _⟩ => ⟨S600000x1, .i32⟩
  | .hbm, ⟨70, _⟩ => ⟨S600000x128, .bf16⟩
  | .hbm, ⟨71, _⟩ => ⟨S128x128, .f32⟩
  | .hbm, ⟨72, _⟩ => ⟨S128x128, .f32⟩
  | .hbm, ⟨73, _⟩ => ⟨S1x128, .f32⟩
  | .hbm, ⟨74, _⟩ => ⟨S600000x128, .f32⟩
  | .hbm, ⟨75, _⟩ => ⟨S_, .f32⟩
  | .hbm, ⟨76, _⟩ => ⟨S100000x128, .f32⟩
  | .hbm, ⟨77, _⟩ => ⟨S600000x1, .i32⟩
  | .hbm, ⟨78, _⟩ => ⟨S100000x128, .f32⟩
  | .hbm, ⟨79, _⟩ => ⟨S100000x3, .f32⟩
  | .local _ .vmem, ⟨0, _⟩ => ⟨S4000x128, .bf16⟩
  | .local _ .vmem, ⟨1, _⟩ => ⟨S4000x128, .bf16⟩
  | .local _ .vmem, ⟨2, _⟩ => ⟨S4000x128, .bf16⟩
  | .local _ .vmem, ⟨3, _⟩ => ⟨S4000x128, .bf16⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S128x1, .f32⟩
  | .local _ .vmem, ⟨13, _⟩ => ⟨S1, .f32⟩
  | .local _ .vmem, ⟨14, _⟩ => ⟨S4000x128, .f32⟩
  | .local _ .vmem, ⟨15, _⟩ => ⟨S4000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S256x128, .f32⟩
  | .local _ .vmem, ⟨21, _⟩ => ⟨S128, .f32⟩
  | .local _ .vmem, ⟨22, _⟩ => ⟨S128x128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S128x128, .f32⟩
  | .local _ .vmem, ⟨27, _⟩ => ⟨S128, .f32⟩
  | .local _ .vmem, ⟨28, _⟩ => ⟨S128x128, .f32⟩
  | .local _ .vmem, ⟨29, _⟩ => ⟨S128, .f32⟩
  | .local _ .vmem, ⟨30, _⟩ => ⟨S128x128, .f32⟩
  | .local _ .vmem, ⟨31, _⟩ => ⟨S128, .f32⟩
  | .local _ .vmem, ⟨32, _⟩ => ⟨S128x3, .f32⟩
  | .local _ .vmem, ⟨33, _⟩ => ⟨S3, .f32⟩
  | .local _ .vmem, ⟨34, _⟩ => ⟨S5000x3, .f32⟩
  | .local _ .vmem, ⟨35, _⟩ => ⟨S5000x3, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_call0_v0 : Ref sig .tc := ⟨.hbm, 47, rfl⟩
abbrev main_call0_cst : Ref sig .tc := ⟨.hbm, 48, rfl⟩
abbrev main_call0_v1 : Ref sig .tc := ⟨.hbm, 49, rfl⟩
abbrev main_call0_v2 : Ref sig .tc := ⟨.hbm, 50, rfl⟩
abbrev main_v20 : Ref sig .tc := ⟨.hbm, 51, rfl⟩
abbrev main_v21 : Ref sig .tc := ⟨.hbm, 52, rfl⟩
abbrev main_c_3 : Ref sig .tc := ⟨.hbm, 53, rfl⟩
abbrev main_v22 : Ref sig .tc := ⟨.hbm, 54, rfl⟩
abbrev main_v23 : Ref sig .tc := ⟨.hbm, 55, rfl⟩
abbrev main_c_4 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_c_5 : Ref sig .tc := ⟨.hbm, 62, rfl⟩
abbrev main_v29 : Ref sig .tc := ⟨.hbm, 63, rfl⟩
abbrev main_v30 : Ref sig .tc := ⟨.hbm, 64, rfl⟩
abbrev main_c_6 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg10_0 : Ref sig .tc := ⟨.vmem, 28, rfl⟩
abbrev cc1_stg11_0 : Ref sig .tc := ⟨.vmem, 29, rfl⟩
abbrev cc1_stg12_0 : Ref sig .tc := ⟨.vmem, 30, rfl⟩
abbrev cc1_stg13_0 : Ref sig .tc := ⟨.vmem, 31, rfl⟩
abbrev cc1_stg14_0 : Ref sig .tc := ⟨.vmem, 32, rfl⟩
abbrev cc1_stg15_0 : Ref sig .tc := ⟨.vmem, 33, rfl⟩
abbrev cc1_stg16_0 : Ref sig .tc := ⟨.vmem, 34, rfl⟩
abbrev cc1_stg16_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem10_0 : DmaSem sig := 28
abbrev cc1_sem11_0 : DmaSem sig := 29
abbrev cc1_sem12_0 : DmaSem sig := 30
abbrev cc1_sem13_0 : DmaSem sig := 31
abbrev cc1_sem14_0 : DmaSem sig := 32
abbrev cc1_sem15_0 : DmaSem sig := 33
abbrev cc1_sem16_0 : DmaSem sig := 34
abbrev cc1_sem16_1 : DmaSem sig := 35

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4000x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S128 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S128x3 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S3 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 2 → Memref sig .tc .vmem S5000x3 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  reducesTo_S600000x3_S600000_d1 : S600000x3.ReducesTo [1] S600000
  h_S_ : 0 < S_.numel
  bitsLt_bf16_f32 : FTy.bits .bf16 < FTy.bits .f32
  slices_S257x128_S128x128_0_0 : S257x128.Slices ![0, 0] S128x128
  slices_S257x128_S128x128_128_0 : S257x128.Slices ![128, 0] S128x128
  slices_S257x128_S1x128_256_0 : S257x128.Slices ![256, 0] S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S4000x1_S4000x128 : S4000x1.Broadcasts S4000x128
  broadcasts_S1x128_S4000x128 : S1x128.Broadcasts S4000x128
  inb_S128_S128_0 : ∀ a, (![0] : Fin 1 → Nat) a + S128.size a ≤ S128.size a
  h_S128 : 0 < S128.numel
  shapeCasts_S128_S1x128 : S128.ShapeCasts S1x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S4000x1 : S1x1.Broadcasts S4000x1
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  broadcasts_S1x128_S5000x128 : S1x128.Broadcasts S5000x128
  inb_S128x3_S128x3_0_0 : ∀ a, (![0, 0] : Fin 2 → Nat) a + S128x3.size a ≤ S128x3.size a
  h_S128x3 : 0 < S128x3.numel
  inb_S3_S3_0 : ∀ a, (![0] : Fin 1 → Nat) a + S3.size a ≤ S3.size a
  h_S3 : 0 < S3.numel
  shapeCasts_S3_S1x3 : S3.ShapeCasts S1x3
  broadcasts_S1x3_S5000x3 : S1x3.Broadcasts S5000x3
  inb_S5000x3_S5000x3_0_0 : ∀ a, (![0, 0] : Fin 2 → Nat) a + S5000x3.size a ≤ S5000x3.size a
  h_S5000x3 : 0 < S5000x3.numel
  gather_S100000x3_S600000x1_S600000x3_1_0_n_n_0_1_13_wf : GatherDims.WF S100000x3 S600000x1 S600000x3 [1] [0] [] [0] [] 1 ![1, 3]
  gather_S100000x128_S600000x1_S600000x128_1_0_n_n_0_1_1128_wf : GatherDims.WF S100000x128 S600000x1 S600000x128 [1] [0] [] [0] [] 1 ![1, 128]
  dot_S4000x128_S128x128_S4000x128_1_0_0_1_n_n_wf : DotDims.WF S4000x128 S128x128 S4000x128 [1] [0] [0] [1] [] []
  dot_S4000x128_S128x1_S4000x1_1_0_0_1_n_n_wf : DotDims.WF S4000x128 S128x1 S4000x1 [1] [0] [0] [1] [] []
  scatter_S100000x128_S600000x1_S600000x128_1_0_0_1_wf : ScatterDims.WF S100000x128 S600000x1 S600000x128 [1] [0] [0] 1
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  dot_S5000x128_S128x3_S5000x3_1_0_0_1_n_n_wf : DotDims.WF S5000x128 S128x3 S5000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S600000x128.size a
  hwx0_0 : ∀ i : grid0.Coords, EltTy.bits .bf16 = 32 ∨ (Rect.block (s := S600000x128) S4000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S600000x128.size a
  hwx0_1 : ∀ i : grid0.Coords, EltTy.bits .bf16 = 32 ∨ (Rect.block (s := S600000x128) S4000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S600000x1.size a
  hwx0_2 : ∀ i : grid0.Coords, EltTy.bits .f32 = 32 ∨ (Rect.block (s := S600000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x1.size a ≤ S128x1.size a
  hwx0_9 : ∀ i : grid0.Coords, EltTy.bits .f32 = 32 ∨ (Rect.block (s := S128x1) S128x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4000x128.size a ≤ S600000x128.size a
  hwx0_11 : ∀ i : grid0.Coords, EltTy.bits .f32 = 32 ∨ (Rect.block (s := S600000x128) S4000x128.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S128x128.size a ≤ S128x128.size a
  hwx1_10 : ∀ i : grid1.Coords, EltTy.bits .f32 = 32 ∨ (Rect.block (s := S128x128) S128x128.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S128.size a ≤ S128.size a
  hwx1_11 : ∀ i : grid1.Coords, EltTy.bits .f32 = 32 ∨ (Rect.block (s := S128) S128.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128x128.size a ≤ S128x128.size a
  hwx1_12 : ∀ i : grid1.Coords, EltTy.bits .f32 = 32 ∨ (Rect.block (s := S128x128) S128x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S128.size a ≤ S128.size a
  hwx1_13 : ∀ i : grid1.Coords, EltTy.bits .f32 = 32 ∨ (Rect.block (s := S128) S128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S128x3.size a ≤ S128x3.size a
  hwx1_14 : ∀ i : grid1.Coords, EltTy.bits .f32 = 32 ∨ (Rect.block (s := S128x3) S128x3.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S3.size a ≤ S3.size a
  hwx1_15 : ∀ i : grid1.Coords, EltTy.bits .f32 = 32 ∨ (Rect.block (s := S3) S3.size (cc1_transform_15 i) (hinb1_15 i)).WholeWords (EltTy.packing .f32)
  hstage1_16 : ∀ j, (stage1_16 j).IsWhole
  nbuf1_16 : grid1.bufCount reads1_16 false = 2
  hreads1_16 : ∀ i i' : grid1.Coords, (∀ a, reads1_16 a = true → i a = i' a) → cc1_transform_16 i = cc1_transform_16 i'
  hinb1_16 : ∀ (i : grid1.Coords) a, (cc1_transform_16 i a + 1) * S5000x3.size a ≤ S100000x3.size a
  hwx1_16 : ∀ i : grid1.Coords, EltTy.bits .f32 = 32 ∨ (Rect.block (s := S100000x3) S5000x3.size (cc1_transform_16 i) (hinb1_16 i)).WholeWords (EltTy.packing .f32)

variable [Facts₀]

def gather_S100000x3_S600000x1_S600000x3_1_0_n_n_0_1_13 : GatherDims S100000x3 S600000x1 S600000x3 where
  offsetDims := [1]
  collapsedSliceDims := [0]
  operandBatchingDims := []
  startIndicesBatchingDims := []
  startIndexMap := [0]
  indexVectorDim := 1
  sliceSizes := ![1, 3]
  wf := gather_S100000x3_S600000x1_S600000x3_1_0_n_n_0_1_13_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x3_S5000x3_1_0_0_1_n_n : DotDims S5000x128 S128x3 S5000x3 where
  lhsContracting := [1]
  rhsContracting := [0]
  lhsNonContracting := [0]
  rhsNonContracting := [1]
  lhsBatch := []
  rhsBatch := []
  wf := dot_S5000x128_S128x3_S5000x3_1_0_0_1_n_n_wf

abbrev win0_0 : Pipeline.Window sig grid0 :=
  Pipeline.Window.ofSpec (Memref.whole main_v28) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v36) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S128x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v39) S4000x128.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg16) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg17) S128x128.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_arg18) S128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg19) S128x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg20) S128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg21) S128x3.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg22) S3.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v43) S5000x3.size cc1_transform_16 reads1_16 true false 2 stage1_16 sem1_16
    hrank1 hreads1_16 hinb1_16 nbuf1_16 (Memref.isWhole_whole _) hwx1_16 hstage1_16

abbrev win1 : Fin 17 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | ⟨_ + 17, h⟩ => absurd h (Nat.not_lt.2 (Nat.le_add_left _ _))
abbrev spec1 : Fin 17 → Pipeline.WinSpec sig grid1.rank := fun w => (win1 w).toWinSpec

class Facts : Prop extends Facts₀ where

variable [Facts]
-- ==== ReferenceIdeal.lean ====
abbrev S100000x128 : Shape := ⟨2, ![100000, 128]⟩
abbrev S100000x3 : Shape := ⟨2, ![100000, 3]⟩
abbrev S2x600000 : Shape := ⟨2, ![2, 600000]⟩
abbrev S257x128 : Shape := ⟨2, ![257, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S256x128 : Shape := ⟨2, ![256, 128]⟩
abbrev S128x3 : Shape := ⟨2, ![128, 3]⟩
abbrev S3 : Shape := ⟨1, ![3]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x3 : Shape := ⟨2, ![600000, 3]⟩
abbrev S600000x128 : Shape := ⟨2, ![600000, 128]⟩
abbrev S600000x257 : Shape := ⟨2, ![600000, 257]⟩
abbrev S1x128 : Shape := ⟨2, ![1, 128]⟩
abbrev S1x1 : Shape := ⟨2, ![1, 1]⟩
abbrev S100000x256 : Shape := ⟨2, ![100000, 256]⟩
abbrev S1x3 : Shape := ⟨2, ![1, 3]⟩

abbrev nBuf : Space → Nat
  | .hbm => 155
  | .vmem => 0
  | .smem => 0
  | _ => 0

abbrev hbmTy0_0 (i : Nat) : BufTy := match i % 128 with
  | 0 => ⟨S100000x128, .f32⟩
  | 1 => ⟨S100000x3, .f32⟩
  | 2 => ⟨S2x600000, .i32⟩
  | 3 => ⟨S257x128, .f32⟩
  | 4 => ⟨S128, .f32⟩
  | 5 => ⟨S128x128, .f32⟩
  | 6 => ⟨S128, .f32⟩
  | 7 => ⟨S128x1, .f32⟩
  | 8 => ⟨S1, .f32⟩
  | 9 => ⟨S256x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128x3, .f32⟩
  | 22 => ⟨S3, .f32⟩
  | 23 => ⟨S1x600000, .i32⟩
  | 24 => ⟨S600000, .i32⟩
  | 25 => ⟨S1x600000, .i32⟩
  | 26 => ⟨S600000, .i32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000x3, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000x3, .f32⟩
  | 45 => ⟨S600000x3, .f32⟩
  | 46 => ⟨S600000x3, .f32⟩
  | 47 => ⟨S600000x3, .f32⟩
  | 48 => ⟨S_, .f32⟩
  | 49 => ⟨S600000, .f32⟩
  | 50 => ⟨S600000x1, .f32⟩
  | 51 => ⟨S600000x1, .f32⟩
  | 52 => ⟨S_, .i32⟩
  | 53 => ⟨S600000, .i32⟩
  | 54 => ⟨S600000, .i1⟩
  | 55 => ⟨S_, .i32⟩
  | 56 => ⟨S600000, .i32⟩
  | 57 => ⟨S600000, .i32⟩
  | 58 => ⟨S600000, .i32⟩
  | 59 => ⟨S600000x1, .i32⟩
  | 60 => ⟨S600000x128, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S600000x257, .f32⟩
  | 71 => ⟨S600000x128, .f32⟩
  | 72 => ⟨S1x128, .f32⟩
  | 73 => ⟨S600000x128, .f32⟩
  | 74 => ⟨S600000x128, .f32⟩
  | 75 => ⟨S600000x128, .f32⟩
  | 76 => ⟨S600000x128, .f32⟩
  | 77 => ⟨S1x128, .f32⟩
  | 78 => ⟨S600000x128, .f32⟩
  | 79 => ⟨S600000x128, .f32⟩
  | 80 => ⟨S600000x128, .f32⟩
  | 81 => ⟨S600000x1, .f32⟩
  | 82 => ⟨S1x1, .f32⟩
  | 83 => ⟨S600000x1, .f32⟩
  | 84 => ⟨S600000x1, .f32⟩
  | 85 => ⟨S600000x1, .f32⟩
  | 86 => ⟨S600000x128, .f32⟩
  | 87 => ⟨S600000x128, .f32⟩
  | 88 => ⟨S_, .f32⟩
  | 89 => ⟨S100000x128, .f32⟩
  | 90 => ⟨S600000x1, .i32⟩
  | 91 => ⟨S100000x128, .f32⟩
  | 92 => ⟨S100000x256, .f32⟩
  | 93 => ⟨S100000x128, .f32⟩
  | 94 => ⟨S1x128, .f32⟩
  | 95 => ⟨S100000x128, .f32⟩
  | 96 => ⟨S100000x128, .f32⟩
  | 97 => ⟨S100000x128, .f32⟩
  | 98 => ⟨S100000x128, .f32⟩
  | 99 => ⟨S1x128, .f32⟩
  | 100 => ⟨S100000x128, .f32⟩
  | 101 => ⟨S100000x128, .f32⟩
  | 102 => ⟨S100000x128, .f32⟩
  | 103 => ⟨S100000x128, .f32⟩
  | 104 => ⟨S1x128, .f32⟩
  | 105 => ⟨S100000x128, .f32⟩
  | 106 => ⟨S100000x128, .f32⟩
  | 107 => ⟨S_, .f32⟩
  | 108 => ⟨S_, .f32⟩
  | 109 => ⟨S100000x128, .f32⟩
  | 110 => ⟨S100000x128, .i1⟩
  | 111 => ⟨S_, .f32⟩
  | 112 => ⟨S100000x128, .f32⟩
  | 113 => ⟨S100000x128, .f32⟩
  | 114 => ⟨S100000x128, .f32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S_, .f32⟩
  | 121 => ⟨S100000x128, .f32⟩
  | 122 => ⟨S100000x128, .i1⟩
  | 123 => ⟨S_, .f32⟩
  | 124 => ⟨S100000x128, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S_, .f32⟩
  | 5 => ⟨S100000x128, .f32⟩
  | 6 => ⟨S100000x128, .i1⟩
  | 7 => ⟨S_, .f32⟩
  | 8 => ⟨S100000x128, .f32⟩
  | 9 => ⟨S100000x128, .f32⟩
  | 10 => ⟨S100000x128, .f32⟩
  | 11 => ⟨S100000x128, .f32⟩
  | 12 => ⟨S1x128, .f32⟩
  | 13 => ⟨S100000x128, .f32⟩
  | 14 => ⟨S100000x128, .f32⟩
  | 15 => ⟨S_, .f32⟩
  | 16 => ⟨S_, .f32⟩
  | 17 => ⟨S100000x128, .f32⟩
  | 18 => ⟨S100000x128, .i1⟩
  | 19 => ⟨S_, .f32⟩
  | 20 => ⟨S100000x128, .f32⟩
  | 21 => ⟨S100000x128, .f32⟩
  | 22 => ⟨S100000x128, .f32⟩
  | 23 => ⟨S100000x3, .f32⟩
  | 24 => ⟨S1x3, .f32⟩
  | 25 => ⟨S100000x3, .f32⟩
  | 26 => ⟨S100000x3, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_1 : Ref sig .tc := ⟨.hbm, 36, rfl⟩
abbrev main_v11 : Ref sig .tc := ⟨.hbm, 37, rfl⟩
abbrev main_v12 : Ref sig .tc := ⟨.hbm, 38, rfl⟩
abbrev main_c_2 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_call0_v0 : Ref sig .tc := ⟨.hbm, 47, rfl⟩
abbrev main_call0_cst : Ref sig .tc := ⟨.hbm, 48, rfl⟩
abbrev main_call0_v1 : Ref sig .tc := ⟨.hbm, 49, rfl⟩
abbrev main_call0_v2 : Ref sig .tc := ⟨.hbm, 50, rfl⟩
abbrev main_v20 : Ref sig .tc := ⟨.hbm, 51, rfl⟩
abbrev main_c_3 : Ref sig .tc := ⟨.hbm, 52, rfl⟩
abbrev main_v21 : Ref sig .tc := ⟨.hbm, 53, rfl⟩
abbrev main_v22 : Ref sig .tc := ⟨.hbm, 54, rfl⟩
abbrev main_c_4 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_c_5 : Ref sig .tc := ⟨.hbm, 61, rfl⟩
abbrev main_v28 : Ref sig .tc := ⟨.hbm, 62, rfl⟩
abbrev main_v29 : Ref sig .tc := ⟨.hbm, 63, rfl⟩
abbrev main_c_6 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_7 : Ref sig .tc := ⟨.hbm, 107, rfl⟩
abbrev main_call1_cst : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_call1_v3 : Ref sig .tc := ⟨.hbm, 112, rfl⟩
abbrev main_call1_v4 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_8 : Ref sig .tc := ⟨.hbm, 119, rfl⟩
abbrev main_call2_cst : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_call2_v3 : Ref sig .tc := ⟨.hbm, 124, rfl⟩
abbrev main_call2_v4 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_cst_9 : Ref sig .tc := ⟨.hbm, 131, rfl⟩
abbrev main_call3_cst : Ref sig .tc := ⟨.hbm, 132, rfl⟩
abbrev main_call3_v0 : Ref sig .tc := ⟨.hbm, 133, rfl⟩
abbrev main_call3_v1 : Ref sig .tc := ⟨.hbm, 134, rfl⟩
abbrev main_call3_v2 : Ref sig .tc := ⟨.hbm, 135, rfl⟩
abbrev main_call3_v3 : Ref sig .tc := ⟨.hbm, 136, rfl⟩
abbrev main_call3_v4 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_cst_10 : Ref sig .tc := ⟨.hbm, 143, rfl⟩
abbrev main_call4_cst : Ref sig .tc := ⟨.hbm, 144, rfl⟩
abbrev main_call4_v0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_v86 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  reducesTo_S600000x3_S600000_d1 : S600000x3.ReducesTo [1] S600000
  h_S_ : 0 < S_.numel
  concatenates_S600000x128_S600000x128_S600000x1_S600000x257_d1 : Shape.Concatenates [S600000x128, S600000x128, S600000x1] S600000x257 1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S1x128_S100000x128_0_1 : S1x128.BroadcastsInDim S100000x128 (![0, 1] : Fin 2 → Fin S100000x128.rank)
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  gather_S100000x3_S600000x1_S600000x3_1_0_n_n_0_1_13_wf : GatherDims.WF S100000x3 S600000x1 S600000x3 [1] [0] [] [0] [] 1 ![1, 3]
  gather_S100000x128_S600000x1_S600000x128_1_0_n_n_0_1_1128_wf : GatherDims.WF S100000x128 S600000x1 S600000x128 [1] [0] [] [0] [] 1 ![1, 128]
  dot_S600000x257_S257x128_S600000x128_1_0_0_1_n_n_wf : DotDims.WF S600000x257 S257x128 S600000x128 [1] [0] [0] [1] [] []
  dot_S600000x128_S128x128_S600000x128_1_0_0_1_n_n_wf : DotDims.WF S600000x128 S128x128 S600000x128 [1] [0] [0] [1] [] []
  dot_S600000x128_S128x1_S600000x1_1_0_0_1_n_n_wf : DotDims.WF S600000x128 S128x1 S600000x1 [1] [0] [0] [1] [] []
  scatter_S100000x128_S600000x1_S600000x128_1_0_0_1_wf : ScatterDims.WF S100000x128 S600000x1 S600000x128 [1] [0] [0] 1
  dot_S100000x256_S256x128_S100000x128_1_0_0_1_n_n_wf : DotDims.WF S100000x256 S256x128 S100000x128 [1] [0] [0] [1] [] []
  dot_S100000x128_S128x128_S100000x128_1_0_0_1_n_n_wf : DotDims.WF S100000x128 S128x128 S100000x128 [1] [0] [0] [1] [] []
  dot_S100000x128_S128x3_S100000x3_1_0_0_1_n_n_wf : DotDims.WF S100000x128 S128x3 S100000x3 [1] [0] [0] [1] [] []

variable [Facts₀]

def gather_S100000x3_S600000x1_S600000x3_1_0_n_n_0_1_13 : GatherDims S100000x3 S600000x1 S600000x3 where
  offsetDims := [1]
  collapsedSliceDims := [0]
  operandBatchingDims := []
  startIndicesBatchingDims := []
  startIndexMap := [0]
  indexVectorDim := 1
  sliceSizes := ![1, 3]
  wf := gather_S100000x3_S600000x1_S600000x3_1_0_n_n_0_1_13_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def dot_S600000x257_S257x128_S600000x128_1_0_0_1_n_n : DotDims S600000x257 S257x128 S600000x128 where
  lhsContracting := [1]
  rhsContracting := [0]
  lhsNonContracting := [0]
  rhsNonContracting := [1]
  lhsBatch := []
  rhsBatch := []
  wf := dot_S600000x257_S257x128_S600000x128_1_0_0_1_n_n_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S600000x128_S128x1_S600000x1_1_0_0_1_n_n : DotDims S600000x128 S128x1 S600000x1 where
  lhsContracting := [1]
  rhsContracting := [0]
  lhsNonContracting := [0]
  rhsNonContracting := [1]
  lhsBatch := []
  rhsBatch := []
  wf := dot_S600000x128_S128x1_S600000x1_1_0_0_1_n_n_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf

class Facts : Prop extends Facts₀ where

variable [Facts]
-- ==== Proof.KernelRun.lean ====
import proofs.«155820_j38044820308174_2_alg».proof.Proof.Gen.KernelIdeal.Frame

/-! # The kernel program's run with its buffers named

The kernel program is three stretches of host operations, a first grid region (one step per block of edges), one
more host stretch (a scatter-add of the edge messages into the nodes), and a second grid region (one step per block
of nodes). This file states its run keeping the result buffer, names that buffer as the second region's output array
after its last step, and reads the contents the two regions are entered with as closed terms of the launch arrays. -/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run
variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- The run, keeping the result: from any memory with zero counters every weakly fair execution of the program on the
    TensorCores terminates, and every final state holds, at the result buffer, the last boundary's contents of that
    buffer, and at each argument its launch contents. -/
theorem run_all : θ_run defs (onTc (τ := τ) (main (F := F))) ⟨m, fun _ => 0, ρ⟩ (fun r => ∀ c : Dev nD,
      r.2.mem ((c.tc : Thread nD τ).loc main_v43) = W6 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v43 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c)⟩)

/-- The result buffer at the last boundary is the second region's output array after its last step. -/
theorem out_eq (c : Dev nD) :
    W6 m ρ c (Proc.devRef .tc main_v43) = (dat1 (V5 m ρ) c).arrAt 16 cfg1.N :=
  W6_arr m ρ c 16

end Run

section Entry
variable {F : FTy → Type} [FloatOps F]
variable (m : (ℓ : Loc nD τ sig) → Buf (Elt F) ℓ) (ρ : Dev nD → PrngReg)

/-! ## The host terms, spelled as the program's operations spell them -/

/-- The edges' source indices: row 0 of the edge-index array, as a vector. -/
def idxS (a2 : Vec F S2x600000 .i32) : Vec F S600000 .i32 :=
  fun i => shapeCast S600000 (extractStridedSlice S1x600000 ![0, 0] a2 slices_S2x600000_S1x600000_0_0) shapeCasts_S1x600000_S600000 i
/-- The edges' target indices: row 1 of the edge-index array, as a vector. -/
def idxE (a2 : Vec F S2x600000 .i32) : Vec F S600000 .i32 :=
  fun i => shapeCast S600000 (extractStridedSlice S1x600000 ![1, 0] a2 slices_S2x600000_S1x600000_1_0) shapeCasts_S1x600000_S600000 i
/-- An index vector made a one-column index array, a negative index first wrapped around by the node count. -/
def wrapIdx (v : Vec F S600000 .i32) : Vec F S600000x1 .i32 :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 100000#32))) v)
/-- Per edge, the difference of its two endpoints' positions. -/
def relPos (a1 : Vec F S100000x3 .f32) (a2 : Vec F S2x600000 .i32) : Vec F S600000x3 .f32 :=
  subf (Host.gather gather_S100000x3_S600000x1_S600000x3_1_0_n_n_0_1_13 a1 (wrapIdx (idxS a2)))
    (Host.gather gather_S100000x3_S600000x1_S600000x3_1_0_n_n_0_1_13 a1 (wrapIdx (idxE a2)))
/-- Its coordinates squared. -/
def sqPos (a1 : Vec F S100000x3 .f32) (a2 : Vec F S2x600000 .i32) : Vec F S600000x3 .f32 :=
  mulf (relPos a1 a2) (relPos a1 a2)
/-- The norm function's body: the root of the sum over the coordinates of the squares, as a column. -/
def normOf (x : Vec F S600000x3 .f32) : Vec F S600000x1 .f32 :=
  Host.sqrt (broadcastInDim S600000x1 ![0] bcast_S600000_S600000x1_0
    (Host.reduceAdd (mulf x x) (constant S_ .f32 0x00000000#32) reducesTo_S600000x3_S600000_d1 h_S_))
/-- The edge-length column the first region reads. -/
def dist (a1 : Vec F S100000x3 .f32) (a2 : Vec F S2x600000 .i32) : Vec F S600000x1 .f32 :=
  normOf (sqPos a1 a2)

/-! ## Each stretch of host operations, from any contents -/
section Stretches
variable (V : Valuation τ sig (Elt F))

theorem ops0_main_v1 : StableHlo.after hostOps0 V (Proc.devRef .tc main_v1) = idxS (V (Proc.devRef .tc main_arg2)) := by
  dsimp only [hostOps0]; after_results; rfl
theorem ops0_main_v3 : StableHlo.after hostOps0 V (Proc.devRef .tc main_v3) = idxE (V (Proc.devRef .tc main_arg2)) := by
  dsimp only [hostOps0]; after_results; rfl
theorem ops0_main_v19 : StableHlo.after hostOps0 V (Proc.devRef .tc main_v19)
    = sqPos (V (Proc.devRef .tc main_arg1)) (V (Proc.devRef .tc main_arg2)) := by
  dsimp only [hostOps0]; after_results_simp; rfl
theorem ops0_1_main_v20 : StableHlo.after hostOps0_1 V (Proc.devRef .tc main_v20) = normOf (V (Proc.devRef .tc main_v19)) := by
  dsimp only [hostOps0_1]; after_results; rfl
theorem ops0_2_main_v28 : StableHlo.after hostOps0_2 V (Proc.devRef .tc main_v28)
    = Host.gather gather_S100000x128_S600000x1_S600000x128_1_0_n_n_0_1_1128
        (truncf .bf16 (V (Proc.devRef .tc main_arg0)) bitsLt_bf16_f32) (wrapIdx (V (Proc.devRef .tc main_v1))) := by
  dsimp only [hostOps0_2]; after_results_simp; rfl
theorem ops0_2_main_v35 : StableHlo.after hostOps0_2 V (Proc.devRef .tc main_v35)
    = Host.gather gather_S100000x128_S600000x1_S600000x128_1_0_n_n_0_1_1128
        (truncf .bf16 (V (Proc.devRef .tc main_arg0)) bitsLt_bf16_f32) (wrapIdx (V (Proc.devRef .tc main_v3))) := by
  dsimp only [hostOps0_2]; after_results_simp; rfl
theorem ops0_2_main_v36 : StableHlo.after hostOps0_2 V (Proc.devRef .tc main_v36)
    = extractStridedSlice S128x128 ![0, 0] (V (Proc.devRef .tc main_arg3)) slices_S257x128_S128x128_0_0 := by
  dsimp only [hostOps0_2]; after_results_simp
theorem ops0_2_main_v37 : StableHlo.after hostOps0_2 V (Proc.devRef .tc main_v37)
    = extractStridedSlice S128x128 ![128, 0] (V (Proc.devRef .tc main_arg3)) slices_S257x128_S128x128_128_0 := by
  dsimp only [hostOps0_2]; after_results_simp
theorem ops0_2_main_v38 : StableHlo.after hostOps0_2 V (Proc.devRef .tc main_v38)
    = extractStridedSlice S1x128 ![256, 0] (V (Proc.devRef .tc main_arg3)) slices_S257x128_S1x128_256_0 := by
  dsimp only [hostOps0_2]; after_results_simp
theorem ops1_main_v42 : StableHlo.after hostOps1 V (Proc.devRef .tc main_v42)
    = Host.scatterAdd scatter_S100000x128_S600000x1_S600000x128_1_0_0_1
        (broadcastInDim S100000x128 ![] bcast_S_S100000x128 (constant S_ .f32 0x00000000#32))
        (broadcastInDim S600000x1 ![0] bcast_S600000_S600000x1_0 (V (Proc.devRef .tc main_v1)))
        (V (Proc.devRef .tc main_v39)) := by
  dsimp only [hostOps1]; after_results_simp
end Stretches

/-! ## Reading a buffer back through the boundaries -/

/-- No operation of the stretch writes the reference. -/
local macro "unwritten" ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

/-- A buffer none of the three first stretches writes holds its launch contents when the first region is entered. -/
theorem W3_launch (c : Dev nD) (b : Ref sig .tc)
    (h0 : ∀ op ∈ (hostOps0 : List (HloOp τ sig (Elt F))), Proc.devRef .tc b ∉ op.writes)
    (h1 : ∀ op ∈ (hostOps0_1 : List (HloOp τ sig (Elt F))), Proc.devRef .tc b ∉ op.writes)
    (h2 : ∀ op ∈ (hostOps0_2 : List (HloOp τ sig (Elt F))), Proc.devRef .tc b ∉ op.writes) :
    W3 m ρ c (Proc.devRef .tc b) = m ((c.tc : Thread nD τ).loc b) :=
  (StableHlo.after_of_forall_not_mem (b := Proc.devRef .tc b) _ _ h2).trans
    ((StableHlo.after_of_forall_not_mem (b := Proc.devRef .tc b) _ _ h1).trans
      ((StableHlo.after_of_forall_not_mem (b := Proc.devRef .tc b) _ _ h0).trans rfl))

/-- A buffer that moreover is no array of the first region and that the fourth stretch does not write holds its
    launch contents when the second region is entered. -/
theorem W5_launch (c : Dev nD) (b : Ref sig .tc)
    (h0 : ∀ op ∈ (hostOps0 : List (HloOp τ sig (Elt F))), Proc.devRef .tc b ∉ op.writes)
    (h1 : ∀ op ∈ (hostOps0_1 : List (HloOp τ sig (Elt F))), Proc.devRef .tc b ∉ op.writes)
    (h2 : ∀ op ∈ (hostOps0_2 : List (HloOp τ sig (Elt F))), Proc.devRef .tc b ∉ op.writes)
    (hb : ∀ w, Pipeline.arrRef spec0 w ≠ b)
    (h3 : ∀ op ∈ (hostOps1 : List (HloOp τ sig (Elt F))), Proc.devRef .tc b ∉ op.writes) :
    W5 m ρ c (Proc.devRef .tc b) = m ((c.tc : Thread nD τ).loc b) :=
  (StableHlo.after_of_forall_not_mem (b := Proc.devRef .tc b) _ _ h3).trans
    ((W4_of_ne m ρ c b hb).trans (W3_launch m ρ c b h0 h1 h2))

/-- A buffer neither of the two first stretches writes holds its launch contents after them. -/
theorem W2_launch (c : Dev nD) (b : Ref sig .tc)
    (h0 : ∀ op ∈ (hostOps0 : List (HloOp τ sig (Elt F))), Proc.devRef .tc b ∉ op.writes)
    (h1 : ∀ op ∈ (hostOps0_1 : List (HloOp τ sig (Elt F))), Proc.devRef .tc b ∉ op.writes) :
    W2 m ρ c (Proc.devRef .tc b) = m ((c.tc : Thread nD τ).loc b) :=
  (StableHlo.after_of_forall_not_mem (b := Proc.devRef .tc b) _ _ h1).trans
    ((StableHlo.after_of_forall_not_mem (b := Proc.devRef .tc b) _ _ h0).trans rfl)

/-! ### The index vectors and the squared differences, once written, stay -/

theorem W1_main_v1 (c : Dev nD) : W1 m ρ c (Proc.devRef .tc main_v1) = idxS (m ((c.tc : Thread nD τ).loc main_arg2)) :=
  ops0_main_v1 (W0 m ρ c)
theorem W1_main_v3 (c : Dev nD) : W1 m ρ c (Proc.devRef .tc main_v3) = idxE (m ((c.tc : Thread nD τ).loc main_arg2)) :=
  ops0_main_v3 (W0 m ρ c)
theorem W1_main_v19 (c : Dev nD) : W1 m ρ c (Proc.devRef .tc main_v19) = sqPos (m ((c.tc : Thread nD τ).loc main_arg1)) (m ((c.tc : Thread nD τ).loc main_arg2)) :=
  ops0_main_v19 (W0 m ρ c)
theorem W2_main_v1 (c : Dev nD) : W2 m ρ c (Proc.devRef .tc main_v1) = idxS (m ((c.tc : Thread nD τ).loc main_arg2)) :=
  (StableHlo.after_of_forall_not_mem (b := Proc.devRef .tc main_v1) _ _ (by unwritten hostOps0_1)).trans (W1_main_v1 m ρ c)
theorem W2_main_v3 (c : Dev nD) : W2 m ρ c (Proc.devRef .tc main_v3) = idxE (m ((c.tc : Thread nD τ).loc main_arg2)) :=
  (StableHlo.after_of_forall_not_mem (b := Proc.devRef .tc main_v3) _ _ (by unwritten hostOps0_1)).trans (W1_main_v3 m ρ c)
theorem W3_main_v1 (c : Dev nD) : W3 m ρ c (Proc.devRef .tc main_v1) = idxS (m ((c.tc : Thread nD τ).loc main_arg2)) :=
  (StableHlo.after_of_forall_not_mem (b := Proc.devRef .tc main_v1) _ _ (by unwritten hostOps0_2)).trans (W2_main_v1 m ρ c)
theorem W4_main_v1 (c : Dev nD) : W4 m ρ c (Proc.devRef .tc main_v1) = idxS (m ((c.tc : Thread nD τ).loc main_arg2)) :=
  (W4_of_ne m ρ c main_v1 (by decide)).trans (W3_main_v1 m ρ c)
/-- The first region's output array holds, at its exit, what the pipeline leaves after its last step. -/
theorem W4_main_v39 (c : Dev nD) : W4 m ρ c (Proc.devRef .tc main_v39) = (dat0 (V3 m ρ) c).arrAt 11 cfg0.N :=
  W4_arr m ρ c 11
theorem W2_main_arg0 (c : Dev nD) : W2 m ρ c (Proc.devRef .tc main_arg0) = m ((c.tc : Thread nD τ).loc main_arg0) :=
  W2_launch m ρ c main_arg0 (by unwritten hostOps0) (by unwritten hostOps0_1)
theorem W2_main_arg3 (c : Dev nD) : W2 m ρ c (Proc.devRef .tc main_arg3) = m ((c.tc : Thread nD τ).loc main_arg3) :=
  W2_launch m ρ c main_arg3 (by unwritten hostOps0) (by unwritten hostOps0_1)

/-! ## The second region's entry contents -/
theorem V5_main_arg0 (c : Dev nD) : V5 m ρ c main_arg0 = m ((c.tc : Thread nD τ).loc main_arg0) :=
  W5_launch m ρ c main_arg0 (by unwritten hostOps0) (by unwritten hostOps0_1) (by unwritten hostOps0_2) (by decide) (by unwritten hostOps1)
theorem V5_main_arg9 (c : Dev nD) : V5 m ρ c main_arg9 = m ((c.tc : Thread nD τ).loc main_arg9) :=
  W5_launch m ρ c main_arg9 (by unwritten hostOps0) (by unwritten hostOps0_1) (by unwritten hostOps0_2) (by decide) (by unwritten hostOps1)
theorem V5_main_arg10 (c : Dev nD) : V5 m ρ c main_arg10 = m ((c.tc : Thread nD τ).loc main_arg10) :=
  W5_launch m ρ c main_arg10 (by unwritten hostOps0) (by unwritten hostOps0_1) (by unwritten hostOps0_2) (by decide) (by unwritten hostOps1)
theorem V5_main_arg11 (c : Dev nD) : V5 m ρ c main_arg11 = m ((c.tc : Thread nD τ).loc main_arg11) :=
  W5_launch m ρ c main_arg11 (by unwritten hostOps0) (by unwritten hostOps0_1) (by unwritten hostOps0_2) (by decide) (by unwritten hostOps1)
theorem V5_main_arg12 (c : Dev nD) : V5 m ρ c main_arg12 = m ((c.tc : Thread nD τ).loc main_arg12) :=
  W5_launch m ρ c main_arg12 (by unwritten hostOps0) (by unwritten hostOps0_1) (by unwritten hostOps0_2) (by decide) (by unwritten hostOps1)
theorem V5_main_arg13 (c : Dev nD) : V5 m ρ c main_arg13 = m ((c.tc : Thread nD τ).loc main_arg13) :=
  W5_launch m ρ c main_arg13 (by unwritten hostOps0) (by unwritten hostOps0_1) (by unwritten hostOps0_2) (by decide) (by unwritten hostOps1)
theorem V5_main_arg14 (c : Dev nD) : V5 m ρ c main_arg14 = m ((c.tc : Thread nD τ).loc main_arg14) :=
  W5_launch m ρ c main_arg14 (by unwritten hostOps0) (by unwritten hostOps0_1) (by unwritten hostOps0_2) (by decide) (by unwritten hostOps1)
theorem V5_main_arg15 (c : Dev nD) : V5 m ρ c main_arg15 = m ((c.tc : Thread nD τ).loc main_arg15) :=
  W5_launch m ρ c main_arg15 (by unwritten hostOps0) (by unwritten hostOps0_1) (by unwritten hostOps0_2) (by decide) (by unwritten hostOps1)
theorem V5_main_arg16 (c : Dev nD) : V5 m ρ c main_arg16 = m ((c.tc : Thread nD τ).loc main_arg16) :=
  W5_launch m ρ c main_arg16 (by unwritten hostOps0) (by unwritten hostOps0_1) (by unwritten hostOps0_2) (by decide) (by unwritten hostOps1)
theorem V5_main_arg17 (c : Dev nD) : V5 m ρ c main_arg17 = m ((c.tc : Thread nD τ).loc main_arg17) :=
  W5_launch m ρ c main_arg17 (by unwritten hostOps0) (by unwritten hostOps0_1) (by unwritten hostOps0_2) (by decide) (by unwritten hostOps1)
theorem V5_main_arg18 (c : Dev nD) : V5 m ρ c main_arg18 = m ((c.tc : Thread nD τ).loc main_arg18) :=
  W5_launch m ρ c main_arg18 (by unwritten hostOps0) (by unwritten hostOps0_1) (by unwritten hostOps0_2) (by decide) (by unwritten hostOps1)
theorem V5_main_arg19 (c : Dev nD) : V5 m ρ c main_arg19 = m ((c.tc : Thread nD τ).loc main_arg19) :=
  W5_launch m ρ c main_arg19 (by unwritten hostOps0) (by unwritten hostOps0_1) (by unwritten hostOps0_2) (by decide) (by unwritten hostOps1)
theorem V5_main_arg20 (c : Dev nD) : V5 m ρ c main_arg20 = m ((c.tc : Thread nD τ).loc main_arg20) :=
  W5_launch m ρ c main_arg20 (by unwritten hostOps0) (by unwritten hostOps0_1) (by unwritten hostOps0_2) (by decide) (by unwritten hostOps1)
theorem V5_main_arg21 (c : Dev nD) : V5 m ρ c main_arg21 = m ((c.tc : Thread nD τ).loc main_arg21) :=
  W5_launch m ρ c main_arg21 (by unwritten hostOps0) (by unwritten hostOps0_1) (by unwritten hostOps0_2) (by decide) (by unwritten hostOps1)
theorem V5_main_arg22 (c : Dev nD) : V5 m ρ c main_arg22 = m ((c.tc : Thread nD τ).loc main_arg22) :=
  W5_launch m ρ c main_arg22 (by unwritten hostOps0) (by unwritten hostOps0_1) (by unwritten hostOps0_2) (by decide) (by unwritten hostOps1)

/-- The node features the second region aggregates over: the scatter-add, into zeros, of the first region's output
    rows at the edges' source indices. -/
theorem V5_main_v42 (c : Dev nD) : V5 m ρ c main_v42
    = Host.scatterAdd scatter_S100000x128_S600000x1_S600000x128_1_0_0_1
        (broadcastInDim S100000x128 ![] bcast_S_S100000x128 (constant S_ .f32 0x00000000#32))
        (broadcastInDim S600000x1 ![0] bcast_S600000_S600000x1_0 (idxS (m ((c.tc : Thread nD τ).loc main_arg2))))
        ((dat0 (V3 m ρ) c).arrAt 11 cfg0.N) := by
  rw [show V5 m ρ c main_v42 = _ from ops1_main_v42 (W4 m ρ c), W4_main_v1, W4_main_v39]

/-! ## The first region's entry contents -/
theorem V3_main_arg4 (c : Dev nD) : V3 m ρ c main_arg4 = m ((c.tc : Thread nD τ).loc main_arg4) :=
  W3_launch m ρ c main_arg4 (by unwritten hostOps0) (by unwritten hostOps0_1) (by unwritten hostOps0_2)
theorem V3_main_arg5 (c : Dev nD) : V3 m ρ c main_arg5 = m ((c.tc : Thread nD τ).loc main_arg5) :=
  W3_launch m ρ c main_arg5 (by unwritten hostOps0) (by unwritten hostOps0_1) (by unwritten hostOps0_2)
theorem V3_main_arg6 (c : Dev nD) : V3 m ρ c main_arg6 = m ((c.tc : Thread nD τ).loc main_arg6) :=
  W3_launch m ρ c main_arg6 (by unwritten hostOps0) (by unwritten hostOps0_1) (by unwritten hostOps0_2)
theorem V3_main_arg7 (c : Dev nD) : V3 m ρ c main_arg7 = m ((c.tc : Thread nD τ).loc main_arg7) :=
  W3_launch m ρ c main_arg7 (by unwritten hostOps0) (by unwritten hostOps0_1) (by unwritten hostOps0_2)
theorem V3_main_arg8 (c : Dev nD) : V3 m ρ c main_arg8 = m ((c.tc : Thread nD τ).loc main_arg8) :=
  W3_launch m ρ c main_arg8 (by unwritten hostOps0) (by unwritten hostOps0_1) (by unwritten hostOps0_2)

theorem V3_main_v20 (c : Dev nD) : V3 m ρ c main_v20 = dist (m ((c.tc : Thread nD τ).loc main_arg1)) (m ((c.tc : Thread nD τ).loc main_arg2)) :=
  (StableHlo.after_of_forall_not_mem (b := Proc.devRef .tc main_v20) _ _ (by unwritten hostOps0_2)).trans
    ((ops0_1_main_v20 (W1 m ρ c)).trans (congrArg normOf (W1_main_v19 m ρ c)))
theorem V3_main_v28 (c : Dev nD) : V3 m ρ c main_v28
    = Host.gather gather_S100000x128_S600000x1_S600000x128_1_0_n_n_0_1_1128
        (truncf .bf16 (m ((c.tc : Thread nD τ).loc main_arg0)) bitsLt_bf16_f32) (wrapIdx (idxS (m ((c.tc : Thread nD τ).loc main_arg2)))) := by
  rw [show V3 m ρ c main_v28 = _ from ops0_2_main_v28 (W2 m ρ c), W2_main_arg0, W2_main_v1]
theorem V3_main_v35 (c : Dev nD) : V3 m ρ c main_v35
    = Host.gather gather_S100000x128_S600000x1_S600000x128_1_0_n_n_0_1_1128
        (truncf .bf16 (m ((c.tc : Thread nD τ).loc main_arg0)) bitsLt_bf16_f32) (wrapIdx (idxE (m ((c.tc : Thread nD τ).loc main_arg2)))) := by
  rw [show V3 m ρ c main_v35 = _ from ops0_2_main_v35 (W2 m ρ c), W2_main_arg0, W2_main_v3]
theorem V3_main_v36 (c : Dev nD) : V3 m ρ c main_v36
    = extractStridedSlice S128x128 ![0, 0] (m ((c.tc : Thread nD τ).loc main_arg3)) slices_S257x128_S128x128_0_0 := by
  rw [show V3 m ρ c main_v36 = _ from ops0_2_main_v36 (W2 m ρ c), W2_main_arg3]
theorem V3_main_v37 (c : Dev nD) : V3 m ρ c main_v37
    = extractStridedSlice S128x128 ![128, 0] (m ((c.tc : Thread nD τ).loc main_arg3)) slices_S257x128_S128x128_128_0 := by
  rw [show V3 m ρ c main_v37 = _ from ops0_2_main_v37 (W2 m ρ c), W2_main_arg3]
theorem V3_main_v38 (c : Dev nD) : V3 m ρ c main_v38
    = extractStridedSlice S1x128 ![256, 0] (m ((c.tc : Thread nD τ).loc main_arg3)) slices_S257x128_S1x128_256_0 := by
  rw [show V3 m ρ c main_v38 = _ from ops0_2_main_v38 (W2 m ρ c), W2_main_arg3]

end Entry

end Cert.KernelIdeal.KRun

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«155820_j38044820308174_2_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.Layer.lean ====
/-
  Dense layers on the rows of a matrix and the leaky rectifier, over the extended reals, each in the two spellings a row-tiled
  kernel body and a host program give them.

  A dense layer sends the rows of `X : [A, K]` to `X·W + b`: entry `(r, j)` is `Σ_k X(r,k)·W(k,j) + b(j)`. A kernel body
  writes it as the matrix unit's product of the operands rounded to bf16 (the identity on the extended reals) into a zero
  accumulator, plus the bias `[M]` recast to a row `[1, M]` and repeated down the rows; a host program as a `dot_general` plus
  the bias lifted to `[1, M]` and then to `[A, M]`. Entry `(r, j)` reads row `r` of `X` only.

  The leaky rectifier `x ↦ x` for positive `x`, `c·x` otherwise, is spelled with the test `x > 0` in one program and
  `x ≥ 0` in the other: the two differ only at `x = 0`, where both branches are `0`.
-/
import Idealize.ShloMosaic.PureOps.Ideal.Laws
import Idealize.ShloMosaic.Lib.ValueIdx
import Idealize.ShloMosaic.Lib.ValueLayout
import Idealize.ShloMosaic.Lib.Pipeline.Value
import proofs.«155820_j38044820308174_2_alg».proof.Proof.LibPlainDot
import proofs.«155820_j38044820308174_2_alg».proof.Proof.LibAffine

noncomputable section

namespace Cert.EGC

open Idealize.ShloMosaic Idealize.ShloMosaic.ValueIdx Idealize.ShloMosaic.Affine

variable {A A' K M : Nat}

/-- Rows times weights plus bias: entry `(r, j)` is `Σ_k X(r,k)·W(k,j) + b(j)`. -/
def lin {φx φw : FTy} (X : FVec Ideal ⟨2, ![A, K]⟩ φx) (W : FVec Ideal ⟨2, ![K, M]⟩ φw) (b : FVec Ideal ⟨1, ![M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix1 ⟨(i 1).val, idx2_lt1 i⟩)

theorem lin_ix2 {φx φw : FTy} (X : FVec Ideal ⟨2, ![A, K]⟩ φx) (W : FVec Ideal ⟨2, ![K, M]⟩ φw) (b : FVec Ideal ⟨1, ![M]⟩ .f32)
    (p : Fin A) (q : Fin M) :
    lin X W b (ix2 p q) = (∑ k : Fin K, X (ix2 p k) * W (ix2 k q)) + b (ix1 q) := rfl

/-- Entry `(p, q)` of a dense layer reads row `p` of its input only. -/
theorem lin_rows {φx φw : FTy} (Xb : FVec Ideal ⟨2, ![A, K]⟩ φx) (X : FVec Ideal ⟨2, ![A', K]⟩ φx)
    (W : FVec Ideal ⟨2, ![K, M]⟩ φw) (b : FVec Ideal ⟨1, ![M]⟩ .f32) (p : Fin A) (r : Fin A')
    (h : ∀ k : Fin K, Xb (ix2 p k) = X (ix2 r k)) (q : Fin M) :
    lin Xb W b (ix2 p q) = lin X W b (ix2 r q) := by
  rw [lin_ix2, lin_ix2]
  congr 1
  exact Finset.sum_congr rfl fun k _ => by rw [h k]

/-- The kernel body's spelling of a dense layer. -/
theorem lin_kernel {d : DotDims ⟨2, ![A, K]⟩ ⟨2, ![K, M]⟩ ⟨2, ![A, M]⟩} (hd : d = DotDims.plain A K M)
    (ht : FTy.bf16.bits < FTy.f32.bits) (hc : (⟨1, ![M]⟩ : Shape).ShapeCasts ⟨2, ![1, M]⟩)
    (hb : (⟨2, ![1, M]⟩ : Shape).Broadcasts ⟨2, ![A, M]⟩)
    (x : FVec Ideal ⟨2, ![A, K]⟩ .f32) (w : FVec Ideal ⟨2, ![K, M]⟩ .f32) (b : FVec Ideal ⟨1, ![M]⟩ .f32) :
    addf (matmul d none (truncf .bf16 x ht) (truncf .bf16 w ht) (constant ⟨2, ![A, M]⟩ .f32 0x00000000#32))
        (broadcastTo ⟨2, ![A, M]⟩ (shapeCast ⟨2, ![1, M]⟩ b hc) hb)
      = lin x w b := by
  subst hd
  funext i
  obtain ⟨p, q, rfl⟩ : ∃ (p : Fin A) (q : Fin M), i = ix2 p q := ⟨i 0, i 1, eq_ix2 i⟩
  rw [lin_ix2]
  refine (body_apply none x (truncf .bf16 w ht) (shapeCast ⟨2, ![1, M]⟩ b hc) ht hb p q).trans ?_
  rw [affine_ix2, shapeCast_a_1a_apply]
  rfl

/-- The host's spelling of a dense layer. -/
theorem lin_host {d : DotDims ⟨2, ![A, K]⟩ ⟨2, ![K, M]⟩ ⟨2, ![A, M]⟩} (hd : d = DotDims.plain A K M)
    (h1 : (⟨1, ![M]⟩ : Shape).BroadcastsInDim ⟨2, ![1, M]⟩ ![1])
    (h2 : (⟨2, ![1, M]⟩ : Shape).BroadcastsInDim ⟨2, ![A, M]⟩ ![0, 1])
    (X : FVec Ideal ⟨2, ![A, K]⟩ .f32) (W : FVec Ideal ⟨2, ![K, M]⟩ .f32) (b : FVec Ideal ⟨1, ![M]⟩ .f32) :
    addf (Host.dotGeneral d none X W) (broadcastInDim ⟨2, ![A, M]⟩ ![0, 1] h2 (broadcastInDim ⟨2, ![1, M]⟩ ![1] h1 b))
      = lin X W b := by
  subst hd
  funext i
  obtain ⟨p, q, rfl⟩ : ∃ (p : Fin A) (q : Fin M), i = ix2 p q := ⟨i 0, i 1, eq_ix2 i⟩
  rw [lin_ix2]
  exact host_apply none .single X W b h1 h2 p q

/-! ## The leaky rectifier -/

/-- The f32 word of the slope, and of zero, as extended reals. -/
def slopeW : EReal := Ideal.ofBits .f32 0x3C23D70A#32
def zeroW : EReal := Ideal.ofBits .f32 0x00000000#32

/-- `x` for `x > 0`, `slope·x` otherwise. -/
def leaky (x : EReal) : EReal := Scalar.select (Ideal.cmp .ogt x zeroW) x (slopeW * x)

/-- The test `x ≥ 0` selects the same value: at `x = 0` both branches are `0`. -/
theorem leaky_ge (x : EReal) : Scalar.select (Ideal.cmp .oge x zeroW) x (slopeW * x) = leaky x := by
  have hZ : zeroW = 0 := Ideal.ofBits_zero_f32
  unfold leaky Scalar.select Ideal.cmp
  rw [hZ]
  rcases lt_trichotomy (0 : EReal) x with h | h | h
  · simp [h, h.le]
  · subst h; simp
  · simp [not_lt.mpr h.le, not_le.mpr h]

variable {s : Shape}

/-- The rectifier on every entry. -/
def leakyV (x : FVec Ideal s .f32) : FVec Ideal s .f32 := fun i => leaky (x i)

/-- A kernel body's spelling: `select (x > splat 0) x (splat slope · x)`. -/
theorem leaky_kernel (x : FVec Ideal s .f32) :
    select (cmpf .ogt x (broadcast s (Scalar.ofBits (F := Ideal) .f32 0x00000000#32))) x
        (mulf (broadcast s (Scalar.ofBits (F := Ideal) .f32 0x3C23D70A#32)) x)
      = leakyV x := rfl

/-- The host's spelling: `select (x ≥ lifted 0) x (lifted slope · x)`. -/
theorem leaky_host (h0 : (⟨0, ![]⟩ : Shape).BroadcastsInDim s ![]) (x : FVec Ideal s .f32) :
    select (cmpf .oge x (broadcastInDim s ![] h0 (constant (F := Ideal) ⟨0, ![]⟩ .f32 0x00000000#32))) x
        (mulf (broadcastInDim s ![] h0 (id (constant (F := Ideal) ⟨0, ![]⟩ .f32 0x3C23D70A#32))) x)
      = leakyV x :=
  funext fun i => leaky_ge (x i)

end Cert.EGC

end
-- ==== Proof.EdgeSpec.lean ====
/-
  The edge network on the rows of its inputs, over the extended reals.

  For an edge with source features `xs` and target features `xe` (128 each) and squared-distance norm `d`, the first layer is
  `tanh (xs·Wa + xe·Wb + d·wc + b1)` (the weight matrix of the 257 concatenated inputs cut into its three row ranges), the
  second `h2 = tanh (h1·W2 + b2)`, the gate `g = tanh (h2·wf + bf)` a single number, and the message is `g · h2`. Every
  entry `(p, q)` of the result reads row `p` of the three inputs only.
-/
import proofs.«155820_j38044820308174_2_alg».proof.Proof.Layer

noncomputable section

namespace Cert.EGC

open Idealize.ShloMosaic Idealize.ShloMosaic.ValueIdx

variable {A A' : Nat}

/-- The first layer before its activation, in three parts: `Σ xs·Wa + Σ xe·Wb + d·wc + b1`. -/
def first3 {φ : FTy} (Xs Xe : FVec Ideal ⟨2, ![A, 128]⟩ φ) (D : FVec Ideal ⟨2, ![A, 1]⟩ .f32)
    (Wa Wb : FVec Ideal ⟨2, ![128, 128]⟩ .f32) (Wc : FVec Ideal ⟨2, ![1, 128]⟩ .f32) (b1 : FVec Ideal ⟨1, ![128]⟩ .f32) :
    FVec Ideal ⟨2, ![A, 128]⟩ .f32 :=
  fun i =>
    (((∑ k : Fin 128, Xs (ix2 ⟨(i 0).val, idx2_lt0 i⟩ k) * Wa (ix2 k ⟨(i 1).val, idx2_lt1 i⟩))
        + (∑ k : Fin 128, Xe (ix2 ⟨(i 0).val, idx2_lt0 i⟩ k) * Wb (ix2 k ⟨(i 1).val, idx2_lt1 i⟩)))
      + D (ix2 ⟨(i 0).val, idx2_lt0 i⟩ (0 : Fin 1)) * Wc (ix2 (0 : Fin 1) ⟨(i 1).val, idx2_lt1 i⟩))
    + b1 (ix1 ⟨(i 1).val, idx2_lt1 i⟩)

theorem first3_ix2 {φ : FTy} (Xs Xe : FVec Ideal ⟨2, ![A, 128]⟩ φ) (D : FVec Ideal ⟨2, ![A, 1]⟩ .f32)
    (Wa Wb : FVec Ideal ⟨2, ![128, 128]⟩ .f32) (Wc : FVec Ideal ⟨2, ![1, 128]⟩ .f32) (b1 : FVec Ideal ⟨1, ![128]⟩ .f32)
    (p : Fin A) (q : Fin 128) :
    first3 Xs Xe D Wa Wb Wc b1 (ix2 p q)
      = (((∑ k : Fin 128, Xs (ix2 p k) * Wa (ix2 k q)) + (∑ k : Fin 128, Xe (ix2 p k) * Wb (ix2 k q)))
          + D (ix2 p (0 : Fin 1)) * Wc (ix2 (0 : Fin 1) q)) + b1 (ix1 q) := rfl

/-- The second layer's output `h2`. -/
def edgeH2 {φ : FTy} (Xs Xe : FVec Ideal ⟨2, ![A, 128]⟩ φ) (D : FVec Ideal ⟨2, ![A, 1]⟩ .f32)
    (Wa Wb : FVec Ideal ⟨2, ![128, 128]⟩ .f32) (Wc : FVec Ideal ⟨2, ![1, 128]⟩ .f32) (b1 : FVec Ideal ⟨1, ![128]⟩ .f32)
    (W2 : FVec Ideal ⟨2, ![128, 128]⟩ .f32) (b2 : FVec Ideal ⟨1, ![128]⟩ .f32) : FVec Ideal ⟨2, ![A, 128]⟩ .f32 :=
  tanh (lin (tanh (first3 Xs Xe D Wa Wb Wc b1)) W2 b2)

/-- The gate, one number per row. -/
def edgeGate {φ : FTy} (Xs Xe : FVec Ideal ⟨2, ![A, 128]⟩ φ) (D : FVec Ideal ⟨2, ![A, 1]⟩ .f32)
    (Wa Wb : FVec Ideal ⟨2, ![128, 128]⟩ .f32) (Wc : FVec Ideal ⟨2, ![1, 128]⟩ .f32) (b1 : FVec Ideal ⟨1, ![128]⟩ .f32)
    (W2 : FVec Ideal ⟨2, ![128, 128]⟩ .f32) (b2 : FVec Ideal ⟨1, ![128]⟩ .f32)
    (Wf : FVec Ideal ⟨2, ![128, 1]⟩ .f32) (bf : FVec Ideal ⟨1, ![1]⟩ .f32) : FVec Ideal ⟨2, ![A, 1]⟩ .f32 :=
  tanh (lin (edgeH2 Xs Xe D Wa Wb Wc b1 W2 b2) Wf bf)

/-- The message: gate times `h2`. -/
def edgeF {φ : FTy} (Xs Xe : FVec Ideal ⟨2, ![A, 128]⟩ φ) (D : FVec Ideal ⟨2, ![A, 1]⟩ .f32)
    (Wa Wb : FVec Ideal ⟨2, ![128, 128]⟩ .f32) (Wc : FVec Ideal ⟨2, ![1, 128]⟩ .f32) (b1 : FVec Ideal ⟨1, ![128]⟩ .f32)
    (W2 : FVec Ideal ⟨2, ![128, 128]⟩ .f32) (b2 : FVec Ideal ⟨1, ![128]⟩ .f32)
    (Wf : FVec Ideal ⟨2, ![128, 1]⟩ .f32) (bf : FVec Ideal ⟨1, ![1]⟩ .f32) : FVec Ideal ⟨2, ![A, 128]⟩ .f32 :=
  fun i => edgeGate Xs Xe D Wa Wb Wc b1 W2 b2 Wf bf (ix2 ⟨(i 0).val, idx2_lt0 i⟩ (0 : Fin 1))
    * edgeH2 Xs Xe D Wa Wb Wc b1 W2 b2 i

theorem edgeF_ix2 {φ : FTy} (Xs Xe : FVec Ideal ⟨2, ![A, 128]⟩ φ) (D : FVec Ideal ⟨2, ![A, 1]⟩ .f32)
    (Wa Wb : FVec Ideal ⟨2, ![128, 128]⟩ .f32) (Wc : FVec Ideal ⟨2, ![1, 128]⟩ .f32) (b1 : FVec Ideal ⟨1, ![128]⟩ .f32)
    (W2 : FVec Ideal ⟨2, ![128, 128]⟩ .f32) (b2 : FVec Ideal ⟨1, ![128]⟩ .f32)
    (Wf : FVec Ideal ⟨2, ![128, 1]⟩ .f32) (bf : FVec Ideal ⟨1, ![1]⟩ .f32) (p : Fin A) (q : Fin 128) :
    edgeF Xs Xe D Wa Wb Wc b1 W2 b2 Wf bf (ix2 p q)
      = edgeGate Xs Xe D Wa Wb Wc b1 W2 b2 Wf bf (ix2 p (0 : Fin 1)) * edgeH2 Xs Xe D Wa Wb Wc b1 W2 b2 (ix2 p q) := rfl

section Rows

variable {φ : FTy} (Xsb Xeb : FVec Ideal ⟨2, ![A, 128]⟩ φ) (Db : FVec Ideal ⟨2, ![A, 1]⟩ .f32)
  (Xs Xe : FVec Ideal ⟨2, ![A', 128]⟩ φ) (D : FVec Ideal ⟨2, ![A', 1]⟩ .f32)
  (Wa Wb : FVec Ideal ⟨2, ![128, 128]⟩ .f32) (Wc : FVec Ideal ⟨2, ![1, 128]⟩ .f32) (b1 : FVec Ideal ⟨1, ![128]⟩ .f32)
  (W2 : FVec Ideal ⟨2, ![128, 128]⟩ .f32) (b2 : FVec Ideal ⟨1, ![128]⟩ .f32)
  (Wf : FVec Ideal ⟨2, ![128, 1]⟩ .f32) (bf : FVec Ideal ⟨1, ![1]⟩ .f32)
  (p : Fin A) (r : Fin A')
  (hs : ∀ k : Fin 128, Xsb (ix2 p k) = Xs (ix2 r k)) (he : ∀ k : Fin 128, Xeb (ix2 p k) = Xe (ix2 r k))
  (hd : Db (ix2 p (0 : Fin 1)) = D (ix2 r (0 : Fin 1)))

include hs he hd

theorem first3_rows (q : Fin 128) :
    first3 Xsb Xeb Db Wa Wb Wc b1 (ix2 p q) = first3 Xs Xe D Wa Wb Wc b1 (ix2 r q) := by
  rw [first3_ix2, first3_ix2, hd]
  simp only [hs, he]

theorem edgeH2_rows (q : Fin 128) :
    edgeH2 Xsb Xeb Db Wa Wb Wc b1 W2 b2 (ix2 p q) = edgeH2 Xs Xe D Wa Wb Wc b1 W2 b2 (ix2 r q) := by
  unfold edgeH2
  show FloatOps.tanh (lin _ W2 b2 (ix2 p q)) = FloatOps.tanh (lin _ W2 b2 (ix2 r q))
  refine congrArg _ (lin_rows _ _ W2 b2 p r (fun k => ?_) q)
  show FloatOps.tanh (first3 Xsb Xeb Db Wa Wb Wc b1 (ix2 p k)) = FloatOps.tanh (first3 Xs Xe D Wa Wb Wc b1 (ix2 r k))
  exact congrArg _ (first3_rows Xsb Xeb Db Xs Xe D Wa Wb Wc b1 p r hs he hd k)

theorem edgeGate_rows :
    edgeGate Xsb Xeb Db Wa Wb Wc b1 W2 b2 Wf bf (ix2 p (0 : Fin 1)) = edgeGate Xs Xe D Wa Wb Wc b1 W2 b2 Wf bf (ix2 r (0 : Fin 1)) := by
  unfold edgeGate
  show FloatOps.tanh (lin _ Wf bf (ix2 p (0 : Fin 1))) = FloatOps.tanh (lin _ Wf bf (ix2 r (0 : Fin 1)))
  exact congrArg _ (lin_rows _ _ Wf bf p r (fun k => edgeH2_rows Xsb Xeb Db Xs Xe D Wa Wb Wc b1 W2 b2 p r hs he hd k) 0)

/-- Entry `(p, q)` of the message reads row `p` of the three inputs only. -/
theorem edgeF_rows (q : Fin 128) :
    edgeF Xsb Xeb Db Wa Wb Wc b1 W2 b2 Wf bf (ix2 p q) = edgeF Xs Xe D Wa Wb Wc b1 W2 b2 Wf bf (ix2 r q) := by
  rw [edgeF_ix2, edgeF_ix2, edgeGate_rows Xsb Xeb Db Xs Xe D Wa Wb Wc b1 W2 b2 Wf bf p r hs he hd,
    edgeH2_rows Xsb Xeb Db Xs Xe D Wa Wb Wc b1 W2 b2 p r hs he hd q]

end Rows

end Cert.EGC

end
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.EdgeKernel.lean ====
/-
  The edge kernel's body computes, on a block of 4000 rows, the edge network of those rows: its one store's value, as a
  function of the values the body loads, is `edgeF` at 4000 rows. The two products of the first layer are the matrix unit's
  into zero accumulators, the distance term a column times a row, each bias a vector recast to a row and repeated down the
  rows; roundings to bf16 are the identity on the extended reals.
-/
import proofs.«155820_j38044820308174_2_alg».proof.Proof.Gen.KernelIdeal.Skeleton
import proofs.«155820_j38044820308174_2_alg».proof.Proof.EdgeSpec
import proofs.«155820_j38044820308174_2_alg».proof.Proof.LibColumn

noncomputable section

namespace Cert.KernelIdeal.EdgeBody

open Idealize.ShloMosaic Idealize.ShloMosaic.ValueIdx Idealize.ShloMosaic.Column Idealize.ShloMosaic.PlainDot
open Cert.KernelIdeal Cert.KernelIdeal.Gen Cert.EGC

/-- The second layer's output, as the body computes it. -/
theorem h2_kernel (v0 v2 : Vec Ideal S4000x128 .bf16) (v4 : Vec Ideal S4000x1 .f32) (v6 : Vec Ideal S1x128 .f32)
    (v8 v12 : Vec Ideal S128x128 .f32) (v21 : Vec Ideal S128 .f32) (v27 : Vec Ideal S128x128 .f32) (v30 : Vec Ideal S128 .f32) :
    k0_pay2 (F := Ideal) v0 v2 v4 v6 v8 v12 v21 v27 v30 = edgeH2 (A := 4000) (φ := .bf16) v0 v2 v4 v8 v12 v6 v21 v27 v30 := by
  unfold k0_pay2 edgeH2
  dsimp only
  simp only [shapeCast_self]
  refine congrArg tanh ((lin_kernel (d := dot_S4000x128_S128x128_S4000x128_1_0_0_1_n_n) rfl _ _ _ _ _ _).trans ?_)
  congr 2
  funext i
  obtain ⟨p, q, rfl⟩ : ∃ (p : Fin 4000) (q : Fin 128), i = ix2 p q := ⟨i 0, i 1, eq_ix2 i⟩
  rw [first3_ix2]
  refine (addf_apply _ _ _).trans ?_
  refine congrArg₂ (· + ·) ?_ ?_
  · refine (addf_apply _ _ _).trans ?_
    refine congrArg₂ (· + ·) ?_ ?_
    · refine (addf_apply _ _ _).trans ?_
      refine congrArg₂ (· + ·) ?_ ?_
      · exact matmul_apply_ix2 none v0 (truncf .bf16 v8 bitsLt_bf16_f32) p q
      · exact matmul_apply_ix2 none v2 (truncf .bf16 v12 bitsLt_bf16_f32) p q
    · refine (mulf_apply _ _ _).trans ?_
      exact congrArg₂ (· * ·) (broadcastTo_a1_ab_apply v4 _ p q) (broadcastTo_1b_ab_apply v6 _ p q)
  · exact (broadcastTo_1b_ab_apply _ _ p q).trans (shapeCast_a_1a_apply v21 _ 0 q)

/-- The stored value: the gate, repeated along the row, times the second layer's output. -/
theorem edge_kernel (v0 v2 : Vec Ideal S4000x128 .bf16) (v4 : Vec Ideal S4000x1 .f32) (v6 : Vec Ideal S1x128 .f32)
    (v8 v12 : Vec Ideal S128x128 .f32) (v21 : Vec Ideal S128 .f32) (v27 : Vec Ideal S128x128 .f32) (v30 : Vec Ideal S128 .f32)
    (v36 : Vec Ideal S128x1 .f32) (v39 : Vec Ideal S1 .f32) :
    k0_pay1 (F := Ideal) (k0_pay2 v0 v2 v4 v6 v8 v12 v21 v27 v30) (k0_pay3 v0 v2 v4 v6 v8 v12 v21 v27 v30) (k0_pay4 v36) v39
      = edgeF (A := 4000) (φ := .bf16) v0 v2 v4 v8 v12 v6 v21 v27 v30 v36 v39 := by
  unfold k0_pay1 k0_pay3 k0_pay4
  dsimp only
  rw [h2_kernel]
  funext i
  obtain ⟨p, q, rfl⟩ : ∃ (p : Fin 4000) (q : Fin 128), i = ix2 p q := ⟨i 0, i 1, eq_ix2 i⟩
  rw [edgeF_ix2]
  refine (mulf_apply _ _ _).trans ?_
  refine congrArg₂ (· * ·) ?_ rfl
  refine (broadcastTo_a1_ab_apply _ _ p q).trans ?_
  exact congrFun (congrArg tanh (lin_kernel (d := dot_S4000x128_S128x1_S4000x1_1_0_0_1_n_n) rfl _ _ _ _ _ _)) (ix2 p (0 : Fin 1))

end Cert.KernelIdeal.EdgeBody

end
-- ==== Proof.Blocks0.lean ====
/-
  From blocks to the array, region 0. At grid point `t` the three row-tiled inputs hold rows `4000·t … 4000·t + 3999` of
  their arrays and every weight window its whole array, so what the point writes back is rows `4000·t …` of the edge network
  of the region's input arrays; the 150 blocks tile the 600000 rows, so the message array ends as that function.
-/
import proofs.«155820_j38044820308174_2_alg».proof.Proof.Gen.KernelIdeal.Frame
import proofs.«155820_j38044820308174_2_alg».proof.Proof.EdgeKernel

set_option maxRecDepth 16384

noncomputable section

namespace Cert.KernelIdeal.Blocks0

open Idealize.ShloMosaic Idealize.ShloMosaic.ValueIdx Idealize.SL.Sem
open Idealize.ShloMosaic.Pipeline (Dat Cfg Window)
open Cert.KernelIdeal Cert.KernelIdeal.Gen Cert.EGC

variable (V : (c : Dev nD) → (b : Ref sig .tc) → Buf (Elt Ideal) ((c.tc : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-tiled inputs and the output take block `t` of the rows at point `t`;
    every weight window is its whole array at every point. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_11.index t (0 : Fin 2) = t.val ∧ win0_11.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = 0 ∧ win0_9.index t (1 : Fin 2) = 0)
    ∧ win0_10.index t (0 : Fin 1) = 0 :=
  (by decide +kernel : ∀ t : Fin grid0.N, _)

/-- The message array as the region leaves it: the edge network of the region's eleven input arrays, row by row. -/
def G0 (c : Dev nD) : FVec Ideal ⟨2, ![600000, 128]⟩ .f32 :=
  edgeF (A := 600000) (φ := .bf16) (V c main_v28) (V c main_v35) (V c main_v20) (V c main_v36) (V c main_v37) (V c main_v38)
    (V c main_arg4) (V c main_arg5) (V c main_arg6) (V c main_arg7) (V c main_arg8)

theorem wblk3 (c : Dev nD) (t : Fin cfg0.N) : (iblk0 V c 3 t : S128x128.Idx → EReal) = V c main_v36 := by
  funext y
  show V c main_v36 (((cfg0.win 3).blk t).view.emb y) = V c main_v36 y
  congr 1
  funext a; apply Fin.ext
  obtain ⟨f0, f1, f2, f11, f3, f4, f5, f6, f7, f8, f9, f10⟩ := idx_facts t
  match a with
    | ⟨0, _⟩ => show win0_3.index t (0 : Fin 2) * 128 + 1 * (y 0).val = (y 0).val; omega
    | ⟨1, _⟩ => show win0_3.index t (1 : Fin 2) * 128 + 1 * (y 1).val = (y 1).val; omega

theorem wblk4 (c : Dev nD) (t : Fin cfg0.N) : (iblk0 V c 4 t : S128x128.Idx → EReal) = V c main_v37 := by
  funext y
  show V c main_v37 (((cfg0.win 4).blk t).view.emb y) = V c main_v37 y
  congr 1
  funext a; apply Fin.ext
  obtain ⟨f0, f1, f2, f11, f3, f4, f5, f6, f7, f8, f9, f10⟩ := idx_facts t
  match a with
    | ⟨0, _⟩ => show win0_4.index t (0 : Fin 2) * 128 + 1 * (y 0).val = (y 0).val; omega
    | ⟨1, _⟩ => show win0_4.index t (1 : Fin 2) * 128 + 1 * (y 1).val = (y 1).val; omega

theorem wblk5 (c : Dev nD) (t : Fin cfg0.N) : (iblk0 V c 5 t : S1x128.Idx → EReal) = V c main_v38 := by
  funext y
  show V c main_v38 (((cfg0.win 5).blk t).view.emb y) = V c main_v38 y
  congr 1
  funext a; apply Fin.ext
  obtain ⟨f0, f1, f2, f11, f3, f4, f5, f6, f7, f8, f9, f10⟩ := idx_facts t
  match a with
    | ⟨0, _⟩ => show win0_5.index t (0 : Fin 2) * 1 + 1 * (y 0).val = (y 0).val; omega
    | ⟨1, _⟩ => show win0_5.index t (1 : Fin 2) * 128 + 1 * (y 1).val = (y 1).val; omega

theorem wblk6 (c : Dev nD) (t : Fin cfg0.N) : (iblk0 V c 6 t : S128.Idx → EReal) = V c main_arg4 := by
  funext y
  show V c main_arg4 (((cfg0.win 6).blk t).view.emb y) = V c main_arg4 y
  congr 1
  funext a; apply Fin.ext
  obtain ⟨f0, f1, f2, f11, f3, f4, f5, f6, f7, f8, f9, f10⟩ := idx_facts t
  match a with
    | ⟨0, _⟩ => show win0_6.index t (0 : Fin 1) * 128 + 1 * (y 0).val = (y 0).val; omega

theorem wblk7 (c : Dev nD) (t : Fin cfg0.N) : (iblk0 V c 7 t : S128x128.Idx → EReal) = V c main_arg5 := by
  funext y
  show V c main_arg5 (((cfg0.win 7).blk t).view.emb y) = V c main_arg5 y
  congr 1
  funext a; apply Fin.ext
  obtain ⟨f0, f1, f2, f11, f3, f4, f5, f6, f7, f8, f9, f10⟩ := idx_facts t
  match a with
    | ⟨0, _⟩ => show win0_7.index t (0 : Fin 2) * 128 + 1 * (y 0).val = (y 0).val; omega
    | ⟨1, _⟩ => show win0_7.index t (1 : Fin 2) * 128 + 1 * (y 1).val = (y 1).val; omega

theorem wblk8 (c : Dev nD) (t : Fin cfg0.N) : (iblk0 V c 8 t : S128.Idx → EReal) = V c main_arg6 := by
  funext y
  show V c main_arg6 (((cfg0.win 8).blk t).view.emb y) = V c main_arg6 y
  congr 1
  funext a; apply Fin.ext
  obtain ⟨f0, f1, f2, f11, f3, f4, f5, f6, f7, f8, f9, f10⟩ := idx_facts t
  match a with
    | ⟨0, _⟩ => show win0_8.index t (0 : Fin 1) * 128 + 1 * (y 0).val = (y 0).val; omega

theorem wblk9 (c : Dev nD) (t : Fin cfg0.N) : (iblk0 V c 9 t : S128x1.Idx → EReal) = V c main_arg7 := by
  funext y
  show V c main_arg7 (((cfg0.win 9).blk t).view.emb y) = V c main_arg7 y
  congr 1
  funext a; apply Fin.ext
  obtain ⟨f0, f1, f2, f11, f3, f4, f5, f6, f7, f8, f9, f10⟩ := idx_facts t
  match a with
    | ⟨0, _⟩ => show win0_9.index t (0 : Fin 2) * 128 + 1 * (y 0).val = (y 0).val; omega
    | ⟨1, _⟩ => show win0_9.index t (1 : Fin 2) * 1 + 1 * (y 1).val = (y 1).val; omega

theorem wblk10 (c : Dev nD) (t : Fin cfg0.N) : (iblk0 V c 10 t : S1.Idx → EReal) = V c main_arg8 := by
  funext y
  show V c main_arg8 (((cfg0.win 10).blk t).view.emb y) = V c main_arg8 y
  congr 1
  funext a; apply Fin.ext
  obtain ⟨f0, f1, f2, f11, f3, f4, f5, f6, f7, f8, f9, f10⟩ := idx_facts t
  match a with
    | ⟨0, _⟩ => show win0_10.index t (0 : Fin 1) * 1 + 1 * (y 0).val = (y 0).val; omega

theorem t_lt (t : Fin cfg0.N) : t.val < 150 := lt_of_lt_of_eq t.isLt N_0

/-- Row `p` of point `t`'s block is row `4000·t + p` of the array. -/
theorem row0 (c : Dev nD) (t : Fin cfg0.N) (p : Fin 4000) (k : Fin 128) :
    iblk0 V c 0 t (ix2 p k) = V c main_v28 (ix2 ⟨t.val * 4000 + p.val, by have := t_lt t; omega⟩ k) := by
  show V c main_v28 (((cfg0.win 0).blk t).view.emb (ix2 p k)) = _
  congr 1
  funext a; apply Fin.ext
  obtain ⟨f0, f1, f2, f11, f3, f4, f5, f6, f7, f8, f9, f10⟩ := idx_facts t
  match a with
  | ⟨0, _⟩ => show win0_0.index t (0 : Fin 2) * 4000 + 1 * p.val = t.val * 4000 + p.val; omega
  | ⟨1, _⟩ => show win0_0.index t (1 : Fin 2) * 128 + 1 * k.val = k.val; omega

theorem row1 (c : Dev nD) (t : Fin cfg0.N) (p : Fin 4000) (k : Fin 128) :
    iblk0 V c 1 t (ix2 p k) = V c main_v35 (ix2 ⟨t.val * 4000 + p.val, by have := t_lt t; omega⟩ k) := by
  show V c main_v35 (((cfg0.win 1).blk t).view.emb (ix2 p k)) = _
  congr 1
  funext a; apply Fin.ext
  obtain ⟨f0, f1, f2, f11, f3, f4, f5, f6, f7, f8, f9, f10⟩ := idx_facts t
  match a with
  | ⟨0, _⟩ => show win0_1.index t (0 : Fin 2) * 4000 + 1 * p.val = t.val * 4000 + p.val; omega
  | ⟨1, _⟩ => show win0_1.index t (1 : Fin 2) * 128 + 1 * k.val = k.val; omega

theorem row2 (c : Dev nD) (t : Fin cfg0.N) (p : Fin 4000) :
    iblk0 V c 2 t (ix2 p (0 : Fin 1)) = V c main_v20 (ix2 ⟨t.val * 4000 + p.val, by have := t_lt t; omega⟩ (0 : Fin 1)) := by
  show V c main_v20 (((cfg0.win 2).blk t).view.emb (ix2 p (0 : Fin 1))) = _
  congr 1
  funext a; apply Fin.ext
  obtain ⟨f0, f1, f2, f11, f3, f4, f5, f6, f7, f8, f9, f10⟩ := idx_facts t
  match a with
  | ⟨0, _⟩ => show win0_2.index t (0 : Fin 2) * 4000 + 1 * p.val = t.val * 4000 + p.val; omega
  | ⟨1, _⟩ => show win0_2.index t (1 : Fin 2) * 1 + 1 * 0 = 0; omega

theorem emb11 (t : Fin cfg0.N) (p : Fin 4000) (q : Fin 128) :
    ((cfg0.win 11).blk t).view.emb (ix2 p q) = (ix2 ⟨t.val * 4000 + p.val, by have := t_lt t; omega⟩ q : S600000x128.Idx) := by
  funext a; apply Fin.ext
  obtain ⟨f0, f1, f2, f11, f3, f4, f5, f6, f7, f8, f9, f10⟩ := idx_facts t
  match a with
  | ⟨0, _⟩ => show win0_11.index t (0 : Fin 2) * 4000 + 1 * p.val = t.val * 4000 + p.val; omega
  | ⟨1, _⟩ => show win0_11.index t (1 : Fin 2) * 128 + 1 * q.val = q.val; omega

/-- What point `t` writes back is block `t` of `G0`. -/
theorem flushed0 (c : Dev nD) (t : Fin cfg0.N) :
    (dat0 V c).flushed 11 t = ((cfg0.win 11).blk t).view.read (Elt Ideal) (G0 V c) := by
  show (cfg0.win 11).cut (grid0.coords t) ((dat0 V c).after 11 t) = _
  rw [after0_11]
  unfold out0_11
  rw [View.canon_unit_zero hz2]
  simp only [View.ld_unit_zero (S := S4000x128) hz2, View.ld_unit_zero (S := S4000x1) hz2, View.ld_unit_zero (S := S1x128) hz2,
    View.ld_unit_zero (S := S128x128) hz2, View.ld_unit_zero (S := S128x1) hz2, View.ld_unit_zero (S := S128) hz1,
    View.ld_unit_zero (S := S1) hz1]
  rw [EdgeBody.edge_kernel]
  rw [wblk3 V c t, wblk4 V c t, wblk5 V c t, wblk6 V c t, wblk7 V c t, wblk8 V c t, wblk9 V c t, wblk10 V c t]
  funext j
  show edgeF (A := 4000) (φ := .bf16) (iblk0 V c 0 t) (iblk0 V c 1 t) (iblk0 V c 2 t) (V c main_v36) (V c main_v37) (V c main_v38)
      (V c main_arg4) (V c main_arg5) (V c main_arg6) (V c main_arg7) (V c main_arg8) j
    = G0 V c (((cfg0.win 11).blk t).view.emb j)
  obtain ⟨p, q, rfl⟩ : ∃ (p : Fin 4000) (q : Fin 128), j = ix2 p q := ⟨j 0, j 1, eq_ix2 j⟩
  rw [emb11 t p q]
  exact edgeF_rows (A := 4000) (A' := 600000) (φ := .bf16) (iblk0 V c 0 t) (iblk0 V c 1 t) (iblk0 V c 2 t)
    (V c main_v28) (V c main_v35) (V c main_v20) (V c main_v36) (V c main_v37) (V c main_v38)
    (V c main_arg4) (V c main_arg5) (V c main_arg6) (V c main_arg7) (V c main_arg8) p ⟨t.val * 4000 + p.val, by have := t_lt t; omega⟩
    (fun k => row0 V c t p k) (fun k => row1 V c t p k) (row2 V c t p) q

/-- An index of the array is in point `t`'s block iff each coordinate is in the block's range on its axis. -/
theorem mem_blk (t : Fin cfg0.N) (i : S600000x128.Idx) :
    i ∈ ((cfg0.win 11).blk t).view.set ↔ ∀ a : Fin 2, win0_11.index t a * S4000x128.size a ≤ (i a).val ∧ (i a).val < win0_11.index t a * S4000x128.size a + S4000x128.size a := by
  show i ∈ ((View.whole main_v39).slice (win0_11.rect t)).set ↔ _
  rw [View.set_slice_whole, Rect.mem_set_unit]
  exact Iff.rfl

/-- The 150 blocks of 4000 rows tile the array. -/
theorem cover0 (i : S600000x128.Idx) : ∃ t : Fin cfg0.N, (cfg0.win 11).flush t = true ∧ i ∈ ((cfg0.win 11).blk t).view.set := by
  have hi0 : (i 0).val < 600000 := (i 0).isLt
  have hi1 : (i 1).val < 128 := (i 1).isLt
  let t : Fin cfg0.N := ⟨(i 0).val / 4000, lt_of_lt_of_eq (by omega : (i 0).val / 4000 < 150) N_0.symm⟩
  refine ⟨t, flush0_11 t, ?_⟩
  rw [mem_blk]
  obtain ⟨f0, f1, f2, f11, f3, f4, f5, f6, f7, f8, f9, f10⟩ := idx_facts t
  have ht : t.val = (i 0).val / 4000 := rfl
  intro a
  match a with
  | ⟨0, _⟩ => show win0_11.index t (0 : Fin 2) * 4000 ≤ (i 0).val ∧ (i 0).val < win0_11.index t (0 : Fin 2) * 4000 + 4000; omega
  | ⟨1, _⟩ => show win0_11.index t (1 : Fin 2) * 128 ≤ (i 1).val ∧ (i 1).val < win0_11.index t (1 : Fin 2) * 128 + 128; omega

/-- The message array after region 0. -/
theorem final0 (c : Dev nD) : (dat0 V c).arrAt 11 cfg0.N = G0 V c :=
  (dat0 V c).arrAt_eq_of_cover 11 (G0 V c) (fun t _ => flushed0 V c t) (cover0)

end Cert.KernelIdeal.Blocks0

end
-- ==== Proof.NodeSpec.lean ====
/-
  The node update and the dense head on the rows of the node features, over the extended reals.

  For a node with features `x` and aggregated messages `m` (128 each): `t = tanh ([x, m]·W1 + b1)` on the 256 concatenated
  inputs, the residual update `x' = x + (t·W2 + b2)`, four hidden layers `v ↦ leaky (v·L + c)` and a last dense layer to
  three outputs. Every entry `(p, q)` of the result reads row `p` of `x` and of `m` only.
-/
import proofs.«155820_j38044820308174_2_alg».proof.Proof.Layer

noncomputable section

namespace Cert.EGC

open Idealize.ShloMosaic Idealize.ShloMosaic.ValueIdx

variable {A A' : Nat}

/-- The features and the messages side by side: `[A, 256]`. -/
def cat2 (h : Shape.Concatenates [(⟨2, ![A, 128]⟩ : Shape), ⟨2, ![A, 128]⟩] ⟨2, ![A, 256]⟩ 1)
    (X M : FVec Ideal ⟨2, ![A, 128]⟩ .f32) : FVec Ideal ⟨2, ![A, 256]⟩ .f32 :=
  concatenate ⟨2, ![A, 256]⟩ 1 [⟨⟨2, ![A, 128]⟩, X⟩, ⟨⟨2, ![A, 128]⟩, M⟩] h

/-- Column `k` of the concatenation is column `k` of the features for `k < 128`, column `k - 128` of the messages otherwise. -/
theorem cat2_left (h : Shape.Concatenates [(⟨2, ![A, 128]⟩ : Shape), ⟨2, ![A, 128]⟩] ⟨2, ![A, 256]⟩ 1)
    (X M : FVec Ideal ⟨2, ![A, 128]⟩ .f32) (p : Fin A) (k : Fin 256) (hk : k.val < 128) :
    cat2 h X M (ix2 p k) = X (ix2 p ⟨k.val, hk⟩) :=
  concatenate_pair_apply_left 1 X M h (ix2 p k) rfl (ix2 p ⟨k.val, hk⟩) (fun b => by
    match b with
    | ⟨0, _⟩ => rfl
    | ⟨1, _⟩ => rfl)

theorem cat2_right (h : Shape.Concatenates [(⟨2, ![A, 128]⟩ : Shape), ⟨2, ![A, 128]⟩] ⟨2, ![A, 256]⟩ 1)
    (X M : FVec Ideal ⟨2, ![A, 128]⟩ .f32) (p : Fin A) (k : Fin 256) (hk : ¬ k.val < 128) :
    cat2 h X M (ix2 p k) = M (ix2 p ⟨k.val - 128, by have := k.isLt; omega⟩) :=
  concatenate_pair_apply_right 1 X M h (ix2 p k) rfl rfl (ix2 p ⟨k.val - 128, by have := k.isLt; omega⟩) (fun b hb => by
    match b with
    | ⟨0, _⟩ => rfl
    | ⟨1, _⟩ => exact absurd rfl hb) (by
    show (k.val - 128) + 128 = k.val
    omega)

/-- `tanh ([x, m]·W1 + b1)`. -/
def nodeT1 (h : Shape.Concatenates [(⟨2, ![A, 128]⟩ : Shape), ⟨2, ![A, 128]⟩] ⟨2, ![A, 256]⟩ 1)
    (X M : FVec Ideal ⟨2, ![A, 128]⟩ .f32) (W1 : FVec Ideal ⟨2, ![256, 128]⟩ .f32) (b1 : FVec Ideal ⟨1, ![128]⟩ .f32) :
    FVec Ideal ⟨2, ![A, 128]⟩ .f32 :=
  tanh (lin (cat2 h X M) W1 b1)

/-- The residual update `x + (t·W2 + b2)`. -/
def nodeXr (h : Shape.Concatenates [(⟨2, ![A, 128]⟩ : Shape), ⟨2, ![A, 128]⟩] ⟨2, ![A, 256]⟩ 1)
    (X M : FVec Ideal ⟨2, ![A, 128]⟩ .f32) (W1 : FVec Ideal ⟨2, ![256, 128]⟩ .f32) (b1 : FVec Ideal ⟨1, ![128]⟩ .f32)
    (W2 : FVec Ideal ⟨2, ![128, 128]⟩ .f32) (b2 : FVec Ideal ⟨1, ![128]⟩ .f32) : FVec Ideal ⟨2, ![A, 128]⟩ .f32 :=
  addf X (lin (nodeT1 h X M W1 b1) W2 b2)

/-- A hidden layer of the head: `leaky (v·L + c)`. -/
def hid (v : FVec Ideal ⟨2, ![A, 128]⟩ .f32) (L : FVec Ideal ⟨2, ![128, 128]⟩ .f32) (c : FVec Ideal ⟨1, ![128]⟩ .f32) :
    FVec Ideal ⟨2, ![A, 128]⟩ .f32 :=
  leakyV (lin v L c)

/-- The whole node stage. -/
def nodeF (h : Shape.Concatenates [(⟨2, ![A, 128]⟩ : Shape), ⟨2, ![A, 128]⟩] ⟨2, ![A, 256]⟩ 1)
    (X M : FVec Ideal ⟨2, ![A, 128]⟩ .f32) (W1 : FVec Ideal ⟨2, ![256, 128]⟩ .f32) (b1 : FVec Ideal ⟨1, ![128]⟩ .f32)
    (W2 : FVec Ideal ⟨2, ![128, 128]⟩ .f32) (b2 : FVec Ideal ⟨1, ![128]⟩ .f32)
    (L1 : FVec Ideal ⟨2, ![128, 128]⟩ .f32) (c1 : FVec Ideal ⟨1, ![128]⟩ .f32)
    (L2 : FVec Ideal ⟨2, ![128, 128]⟩ .f32) (c2 : FVec Ideal ⟨1, ![128]⟩ .f32)
    (L3 : FVec Ideal ⟨2, ![128, 128]⟩ .f32) (c3 : FVec Ideal ⟨1, ![128]⟩ .f32)
    (L4 : FVec Ideal ⟨2, ![128, 128]⟩ .f32) (c4 : FVec Ideal ⟨1, ![128]⟩ .f32)
    (L5 : FVec Ideal ⟨2, ![128, 3]⟩ .f32) (c5 : FVec Ideal ⟨1, ![3]⟩ .f32) : FVec Ideal ⟨2, ![A, 3]⟩ .f32 :=
  lin (hid (hid (hid (hid (nodeXr h X M W1 b1 W2 b2) L1 c1) L2 c2) L3 c3) L4 c4) L5 c5

/-- A hidden layer reads row `p` only. -/
theorem hid_rows (vb : FVec Ideal ⟨2, ![A, 128]⟩ .f32) (v : FVec Ideal ⟨2, ![A', 128]⟩ .f32)
    (L : FVec Ideal ⟨2, ![128, 128]⟩ .f32) (c : FVec Ideal ⟨1, ![128]⟩ .f32) (p : Fin A) (r : Fin A')
    (hv : ∀ k : Fin 128, vb (ix2 p k) = v (ix2 r k)) (q : Fin 128) :
    hid vb L c (ix2 p q) = hid v L c (ix2 r q) := by
  show leaky (lin vb L c (ix2 p q)) = leaky (lin v L c (ix2 r q))
  exact congrArg _ (lin_rows vb v L c p r hv q)

section Rows

variable (hb : Shape.Concatenates [(⟨2, ![A, 128]⟩ : Shape), ⟨2, ![A, 128]⟩] ⟨2, ![A, 256]⟩ 1)
  (hw : Shape.Concatenates [(⟨2, ![A', 128]⟩ : Shape), ⟨2, ![A', 128]⟩] ⟨2, ![A', 256]⟩ 1)
  (Xb Mb : FVec Ideal ⟨2, ![A, 128]⟩ .f32) (X M : FVec Ideal ⟨2, ![A', 128]⟩ .f32)
  (W1 : FVec Ideal ⟨2, ![256, 128]⟩ .f32) (b1 : FVec Ideal ⟨1, ![128]⟩ .f32)
  (W2 : FVec Ideal ⟨2, ![128, 128]⟩ .f32) (b2 : FVec Ideal ⟨1, ![128]⟩ .f32)
  (L1 : FVec Ideal ⟨2, ![128, 128]⟩ .f32) (c1 : FVec Ideal ⟨1, ![128]⟩ .f32)
  (L2 : FVec Ideal ⟨2, ![128, 128]⟩ .f32) (c2 : FVec Ideal ⟨1, ![128]⟩ .f32)
  (L3 : FVec Ideal ⟨2, ![128, 128]⟩ .f32) (c3 : FVec Ideal ⟨1, ![128]⟩ .f32)
  (L4 : FVec Ideal ⟨2, ![128, 128]⟩ .f32) (c4 : FVec Ideal ⟨1, ![128]⟩ .f32)
  (L5 : FVec Ideal ⟨2, ![128, 3]⟩ .f32) (c5 : FVec Ideal ⟨1, ![3]⟩ .f32)
  (p : Fin A) (r : Fin A')
  (hx : ∀ k : Fin 128, Xb (ix2 p k) = X (ix2 r k)) (hm : ∀ k : Fin 128, Mb (ix2 p k) = M (ix2 r k))

include hx hm

theorem cat2_rows (k : Fin 256) : cat2 hb Xb Mb (ix2 p k) = cat2 hw X M (ix2 r k) := by
  by_cases hk : k.val < 128
  · rw [cat2_left hb Xb Mb p k hk, cat2_left hw X M r k hk]; exact hx _
  · rw [cat2_right hb Xb Mb p k hk, cat2_right hw X M r k hk]; exact hm _

theorem nodeT1_rows (q : Fin 128) : nodeT1 hb Xb Mb W1 b1 (ix2 p q) = nodeT1 hw X M W1 b1 (ix2 r q) := by
  show FloatOps.tanh (lin _ W1 b1 (ix2 p q)) = FloatOps.tanh (lin _ W1 b1 (ix2 r q))
  exact congrArg _ (lin_rows _ _ W1 b1 p r (cat2_rows hb hw Xb Mb X M p r hx hm) q)

theorem nodeXr_rows (q : Fin 128) :
    nodeXr hb Xb Mb W1 b1 W2 b2 (ix2 p q) = nodeXr hw X M W1 b1 W2 b2 (ix2 r q) := by
  show Xb (ix2 p q) + lin _ W2 b2 (ix2 p q) = X (ix2 r q) + lin _ W2 b2 (ix2 r q)
  rw [hx q, lin_rows _ _ W2 b2 p r (nodeT1_rows hb hw Xb Mb X M W1 b1 p r hx hm) q]

/-- Entry `(p, q)` of the node stage reads row `p` of the features and of the messages only. -/
theorem nodeF_rows (q : Fin 3) :
    nodeF hb Xb Mb W1 b1 W2 b2 L1 c1 L2 c2 L3 c3 L4 c4 L5 c5 (ix2 p q)
      = nodeF hw X M W1 b1 W2 b2 L1 c1 L2 c2 L3 c3 L4 c4 L5 c5 (ix2 r q) := by
  unfold nodeF
  refine lin_rows _ _ L5 c5 p r ?_ q
  refine hid_rows _ _ L4 c4 p r ?_
  refine hid_rows _ _ L3 c3 p r ?_
  refine hid_rows _ _ L2 c2 p r ?_
  refine hid_rows _ _ L1 c1 p r ?_
  exact nodeXr_rows hb hw Xb Mb X M W1 b1 W2 b2 p r hx hm

end Rows

end Cert.EGC

end
-- ==== Proof.NodeKernel.lean ====
/-
  The node kernel's body computes, on a block of 5000 rows, the node stage of those rows: its one store's value, as a function
  of the values the body loads, is `nodeF` at 5000 rows. Each dense layer is the matrix unit's product of operands rounded to
  bf16 (the identity on the extended reals) into a zero accumulator plus a bias vector recast to a row and repeated down the
  rows; the rectifier is spelled with the test `x > 0`.
-/
import proofs.«155820_j38044820308174_2_alg».proof.Proof.Gen.KernelIdeal.Skeleton
import proofs.«155820_j38044820308174_2_alg».proof.Proof.NodeSpec
import proofs.«155820_j38044820308174_2_alg».proof.Proof.LibColumn

noncomputable section

namespace Cert.KernelIdeal.NodeBody

open Idealize.ShloMosaic Idealize.ShloMosaic.ValueIdx Idealize.ShloMosaic.Column Idealize.ShloMosaic.PlainDot
open Cert.KernelIdeal Cert.KernelIdeal.Gen Cert.EGC

theorem node_kernel (v0 v1 : Vec Ideal S5000x128 .f32) (v5 : Vec Ideal S256x128 .f32) (v8 : Vec Ideal S128 .f32)
    (v14 : Vec Ideal S128x128 .f32) (v17 : Vec Ideal S128 .f32) (v23 : Vec Ideal S128x128 .f32) (v26 : Vec Ideal S128 .f32)
    (v36 : Vec Ideal S128x128 .f32) (v39 : Vec Ideal S128 .f32) (v49 : Vec Ideal S128x128 .f32) (v52 : Vec Ideal S128 .f32)
    (v62 : Vec Ideal S128x128 .f32) (v65 : Vec Ideal S128 .f32) (v75 : Vec Ideal S128x3 .f32) (v78 : Vec Ideal S3 .f32) :
    k1_pay1 (F := Ideal) (k1_pay4 (k1_pay2 v0 v1 v5 v8 v14 v17 v23 v26) (k1_pay3 v36) (constant S5000x128 .f32 0x00000000#32)
        v39 v49 v52 v62 v65 v75) v78
      = nodeF (A := 5000) concatenates_S5000x128_S5000x128_S5000x256_d1 v0 v1 v5 v8 v14 v17 v23 v26 v36 v39 v49 v52 v62 v65 v75 v78 := by
  unfold k1_pay1 k1_pay4 k1_pay2 k1_pay3 nodeF hid nodeXr nodeT1 cat2
  dsimp only
  simp only [shapeCast_self, leaky_kernel,
    lin_kernel (d := dot_S5000x256_S256x128_S5000x128_1_0_0_1_n_n) rfl,
    lin_kernel (d := dot_S5000x128_S128x128_S5000x128_1_0_0_1_n_n) rfl,
    lin_kernel (d := dot_S5000x128_S128x3_S5000x3_1_0_0_1_n_n) rfl]
  rw [show shapeCast S5000x128 v1 shapeCasts_S5000x128_S5000x128 = v1 from shapeCast_self _ _]

end Cert.KernelIdeal.NodeBody

end
-- ==== Proof.Blocks1.lean ====
/-
  From blocks to the array, region 1. At grid point `t` the two row-tiled inputs hold rows `5000·t … 5000·t + 4999` of the node
  features and of the aggregated messages and every weight window its whole array, so what the point writes back is rows
  `5000·t …` of the node stage of the region's input arrays; the 20 blocks tile the 100000 rows.
-/
import proofs.«155820_j38044820308174_2_alg».proof.Proof.Gen.KernelIdeal.Frame
import proofs.«155820_j38044820308174_2_alg».proof.Proof.NodeKernel

set_option maxRecDepth 16384

noncomputable section

namespace Cert.KernelIdeal.Blocks1

open Idealize.ShloMosaic Idealize.ShloMosaic.ValueIdx Idealize.SL.Sem
open Idealize.ShloMosaic.Pipeline (Dat Cfg Window)
open Cert.KernelIdeal Cert.KernelIdeal.Gen Cert.EGC

variable (V : (c : Dev nD) → (b : Ref sig .tc) → Buf (Elt Ideal) ((c.tc : Thread nD τ).loc b))
  (hcat : Shape.Concatenates [(⟨2, ![100000, 128]⟩ : Shape), ⟨2, ![100000, 128]⟩] ⟨2, ![100000, 256]⟩ 1)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the two row-tiled inputs and the output take block `t` of the rows at point `t`;
    every weight window is its whole array at every point. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_16.index t (0 : Fin 2) = t.val ∧ win1_16.index t (1 : Fin 2) = 0)
    ∧ (win1_2.index t (0 : Fin 2) = 0 ∧ win1_2.index t (1 : Fin 2) = 0)
    ∧ win1_3.index t (0 : Fin 1) = 0
    ∧ (win1_4.index t (0 : Fin 2) = 0 ∧ win1_4.index t (1 : Fin 2) = 0)
    ∧ win1_5.index t (0 : Fin 1) = 0
    ∧ (win1_6.index t (0 : Fin 2) = 0 ∧ win1_6.index t (1 : Fin 2) = 0)
    ∧ win1_7.index t (0 : Fin 1) = 0
    ∧ (win1_8.index t (0 : Fin 2) = 0 ∧ win1_8.index t (1 : Fin 2) = 0)
    ∧ win1_9.index t (0 : Fin 1) = 0
    ∧ (win1_10.index t (0 : Fin 2) = 0 ∧ win1_10.index t (1 : Fin 2) = 0)
    ∧ win1_11.index t (0 : Fin 1) = 0
    ∧ (win1_12.index t (0 : Fin 2) = 0 ∧ win1_12.index t (1 : Fin 2) = 0)
    ∧ win1_13.index t (0 : Fin 1) = 0
    ∧ (win1_14.index t (0 : Fin 2) = 0 ∧ win1_14.index t (1 : Fin 2) = 0)
    ∧ win1_15.index t (0 : Fin 1) = 0 :=
  (by decide +kernel : ∀ t : Fin grid1.N, _)

/-- The result array as the region leaves it: the node stage of the region's sixteen input arrays, row by row. -/
def G1 (c : Dev nD) : FVec Ideal ⟨2, ![100000, 3]⟩ .f32 :=
  nodeF (A := 100000) hcat (V c main_arg0) (V c main_v42) (V c main_arg9) (V c main_arg10) (V c main_arg11) (V c main_arg12) (V c main_arg13) (V c main_arg14) (V c main_arg15) (V c main_arg16) (V c main_arg17) (V c main_arg18) (V c main_arg19) (V c main_arg20) (V c main_arg21) (V c main_arg22)

theorem wblk2 (c : Dev nD) (t : Fin cfg1.N) : (iblk1 V c 2 t : S256x128.Idx → EReal) = V c main_arg9 := by
  funext y
  show V c main_arg9 (((cfg1.win 2).blk t).view.emb y) = V c main_arg9 y
  congr 1
  funext a; apply Fin.ext
  obtain ⟨f0, f1, f16, f2, f3, f4, f5, f6, f7, f8, f9, f10, f11, f12, f13, f14, f15⟩ := idx_facts t
  match a with
  | ⟨0, _⟩ => show win1_2.index t (0 : Fin 2) * 256 + 1 * (y 0).val = (y 0).val; omega
  | ⟨1, _⟩ => show win1_2.index t (1 : Fin 2) * 128 + 1 * (y 1).val = (y 1).val; omega

theorem wblk3 (c : Dev nD) (t : Fin cfg1.N) : (iblk1 V c 3 t : S128.Idx → EReal) = V c main_arg10 := by
  funext y
  show V c main_arg10 (((cfg1.win 3).blk t).view.emb y) = V c main_arg10 y
  congr 1
  funext a; apply Fin.ext
  obtain ⟨f0, f1, f16, f2, f3, f4, f5, f6, f7, f8, f9, f10, f11, f12, f13, f14, f15⟩ := idx_facts t
  match a with
  | ⟨0, _⟩ => show win1_3.index t (0 : Fin 1) * 128 + 1 * (y 0).val = (y 0).val; omega

theorem wblk4 (c : Dev nD) (t : Fin cfg1.N) : (iblk1 V c 4 t : S128x128.Idx → EReal) = V c main_arg11 := by
  funext y
  show V c main_arg11 (((cfg1.win 4).blk t).view.emb y) = V c main_arg11 y
  congr 1
  funext a; apply Fin.ext
  obtain ⟨f0, f1, f16, f2, f3, f4, f5, f6, f7, f8, f9, f10, f11, f12, f13, f14, f15⟩ := idx_facts t
  match a with
  | ⟨0, _⟩ => show win1_4.index t (0 : Fin 2) * 128 + 1 * (y 0).val = (y 0).val; omega
  | ⟨1, _⟩ => show win1_4.index t (1 : Fin 2) * 128 + 1 * (y 1).val = (y 1).val; omega

theorem wblk5 (c : Dev nD) (t : Fin cfg1.N) : (iblk1 V c 5 t : S128.Idx → EReal) = V c main_arg12 := by
  funext y
  show V c main_arg12 (((cfg1.win 5).blk t).view.emb y) = V c main_arg12 y
  congr 1
  funext a; apply Fin.ext
  obtain ⟨f0, f1, f16, f2, f3, f4, f5, f6, f7, f8, f9, f10, f11, f12, f13, f14, f15⟩ := idx_facts t
  match a with
  | ⟨0, _⟩ => show win1_5.index t (0 : Fin 1) * 128 + 1 * (y 0).val = (y 0).val; omega

theorem wblk6 (c : Dev nD) (t : Fin cfg1.N) : (iblk1 V c 6 t : S128x128.Idx → EReal) = V c main_arg13 := by
  funext y
  show V c main_arg13 (((cfg1.win 6).blk t).view.emb y) = V c main_arg13 y
  congr 1
  funext a; apply Fin.ext
  obtain ⟨f0, f1, f16, f2, f3, f4, f5, f6, f7, f8, f9, f10, f11, f12, f13, f14, f15⟩ := idx_facts t
  match a with
  | ⟨0, _⟩ => show win1_6.index t (0 : Fin 2) * 128 + 1 * (y 0).val = (y 0).val; omega
  | ⟨1, _⟩ => show win1_6.index t (1 : Fin 2) * 128 + 1 * (y 1).val = (y 1).val; omega

theorem wblk7 (c : Dev nD) (t : Fin cfg1.N) : (iblk1 V c 7 t : S128.Idx → EReal) = V c main_arg14 := by
  funext y
  show V c main_arg14 (((cfg1.win 7).blk t).view.emb y) = V c main_arg14 y
  congr 1
  funext a; apply Fin.ext
  obtain ⟨f0, f1, f16, f2, f3, f4, f5, f6, f7, f8, f9, f10, f11, f12, f13, f14, f15⟩ := idx_facts t
  match a with
  | ⟨0, _⟩ => show win1_7.index t (0 : Fin 1) * 128 + 1 * (y 0).val = (y 0).val; omega

theorem wblk8 (c : Dev nD) (t : Fin cfg1.N) : (iblk1 V c 8 t : S128x128.Idx → EReal) = V c main_arg15 := by
  funext y
  show V c main_arg15 (((cfg1.win 8).blk t).view.emb y) = V c main_arg15 y
  congr 1
  funext a; apply Fin.ext
  obtain ⟨f0, f1, f16, f2, f3, f4, f5, f6, f7, f8, f9, f10, f11, f12, f13, f14, f15⟩ := idx_facts t
  match a with
  | ⟨0, _⟩ => show win1_8.index t (0 : Fin 2) * 128 + 1 * (y 0).val = (y 0).val; omega
  | ⟨1, _⟩ => show win1_8.index t (1 : Fin 2) * 128 + 1 * (y 1).val = (y 1).val; omega

theorem wblk9 (c : Dev nD) (t : Fin cfg1.N) : (iblk1 V c 9 t : S128.Idx → EReal) = V c main_arg16 := by
  funext y
  show V c main_arg16 (((cfg1.win 9).blk t).view.emb y) = V c main_arg16 y
  congr 1
  funext a; apply Fin.ext
  obtain ⟨f0, f1, f16, f2, f3, f4, f5, f6, f7, f8, f9, f10, f11, f12, f13, f14, f15⟩ := idx_facts t
  match a with
  | ⟨0, _⟩ => show win1_9.index t (0 : Fin 1) * 128 + 1 * (y 0).val = (y 0).val; omega

theorem wblk10 (c : Dev nD) (t : Fin cfg1.N) : (iblk1 V c 10 t : S128x128.Idx → EReal) = V c main_arg17 := by
  funext y
  show V c main_arg17 (((cfg1.win 10).blk t).view.emb y) = V c main_arg17 y
  congr 1
  funext a; apply Fin.ext
  obtain ⟨f0, f1, f16, f2, f3, f4, f5, f6, f7, f8, f9, f10, f11, f12, f13, f14, f15⟩ := idx_facts t
  match a with
  | ⟨0, _⟩ => show win1_10.index t (0 : Fin 2) * 128 + 1 * (y 0).val = (y 0).val; omega
  | ⟨1, _⟩ => show win1_10.index t (1 : Fin 2) * 128 + 1 * (y 1).val = (y 1).val; omega

theorem wblk11 (c : Dev nD) (t : Fin cfg1.N) : (iblk1 V c 11 t : S128.Idx → EReal) = V c main_arg18 := by
  funext y
  show V c main_arg18 (((cfg1.win 11).blk t).view.emb y) = V c main_arg18 y
  congr 1
  funext a; apply Fin.ext
  obtain ⟨f0, f1, f16, f2, f3, f4, f5, f6, f7, f8, f9, f10, f11, f12, f13, f14, f15⟩ := idx_facts t
  match a with
  | ⟨0, _⟩ => show win1_11.index t (0 : Fin 1) * 128 + 1 * (y 0).val = (y 0).val; omega

theorem wblk12 (c : Dev nD) (t : Fin cfg1.N) : (iblk1 V c 12 t : S128x128.Idx → EReal) = V c main_arg19 := by
  funext y
  show V c main_arg19 (((cfg1.win 12).blk t).view.emb y) = V c main_arg19 y
  congr 1
  funext a; apply Fin.ext
  obtain ⟨f0, f1, f16, f2, f3, f4, f5, f6, f7, f8, f9, f10, f11, f12, f13, f14, f15⟩ := idx_facts t
  match a with
  | ⟨0, _⟩ => show win1_12.index t (0 : Fin 2) * 128 + 1 * (y 0).val = (y 0).val; omega
  | ⟨1, _⟩ => show win1_12.index t (1 : Fin 2) * 128 + 1 * (y 1).val = (y 1).val; omega

theorem wblk13 (c : Dev nD) (t : Fin cfg1.N) : (iblk1 V c 13 t : S128.Idx → EReal) = V c main_arg20 := by
  funext y
  show V c main_arg20 (((cfg1.win 13).blk t).view.emb y) = V c main_arg20 y
  congr 1
  funext a; apply Fin.ext
  obtain ⟨f0, f1, f16, f2, f3, f4, f5, f6, f7, f8, f9, f10, f11, f12, f13, f14, f15⟩ := idx_facts t
  match a with
  | ⟨0, _⟩ => show win1_13.index t (0 : Fin 1) * 128 + 1 * (y 0).val = (y 0).val; omega

theorem wblk14 (c : Dev nD) (t : Fin cfg1.N) : (iblk1 V c 14 t : S128x3.Idx → EReal) = V c main_arg21 := by
  funext y
  show V c main_arg21 (((cfg1.win 14).blk t).view.emb y) = V c main_arg21 y
  congr 1
  funext a; apply Fin.ext
  obtain ⟨f0, f1, f16, f2, f3, f4, f5, f6, f7, f8, f9, f10, f11, f12, f13, f14, f15⟩ := idx_facts t
  match a with
  | ⟨0, _⟩ => show win1_14.index t (0 : Fin 2) * 128 + 1 * (y 0).val = (y 0).val; omega
  | ⟨1, _⟩ => show win1_14.index t (1 : Fin 2) * 3 + 1 * (y 1).val = (y 1).val; omega

theorem wblk15 (c : Dev nD) (t : Fin cfg1.N) : (iblk1 V c 15 t : S3.Idx → EReal) = V c main_arg22 := by
  funext y
  show V c main_arg22 (((cfg1.win 15).blk t).view.emb y) = V c main_arg22 y
  congr 1
  funext a; apply Fin.ext
  obtain ⟨f0, f1, f16, f2, f3, f4, f5, f6, f7, f8, f9, f10, f11, f12, f13, f14, f15⟩ := idx_facts t
  match a with
  | ⟨0, _⟩ => show win1_15.index t (0 : Fin 1) * 3 + 1 * (y 0).val = (y 0).val; omega

theorem t_lt (t : Fin cfg1.N) : t.val < 20 := lt_of_lt_of_eq t.isLt N_1

/-- Row `p` of point `t`'s block is row `5000·t + p` of the array. -/
theorem row0 (c : Dev nD) (t : Fin cfg1.N) (p : Fin 5000) (k : Fin 128) :
    iblk1 V c 0 t (ix2 p k) = V c main_arg0 (ix2 ⟨t.val * 5000 + p.val, by have := t_lt t; omega⟩ k) := by
  show V c main_arg0 (((cfg1.win 0).blk t).view.emb (ix2 p k)) = _
  congr 1
  funext a; apply Fin.ext
  obtain ⟨f0, f1, f16, f2, f3, f4, f5, f6, f7, f8, f9, f10, f11, f12, f13, f14, f15⟩ := idx_facts t
  match a with
  | ⟨0, _⟩ => show win1_0.index t (0 : Fin 2) * 5000 + 1 * p.val = t.val * 5000 + p.val; omega
  | ⟨1, _⟩ => show win1_0.index t (1 : Fin 2) * 128 + 1 * k.val = k.val; omega

theorem row1 (c : Dev nD) (t : Fin cfg1.N) (p : Fin 5000) (k : Fin 128) :
    iblk1 V c 1 t (ix2 p k) = V c main_v42 (ix2 ⟨t.val * 5000 + p.val, by have := t_lt t; omega⟩ k) := by
  show V c main_v42 (((cfg1.win 1).blk t).view.emb (ix2 p k)) = _
  congr 1
  funext a; apply Fin.ext
  obtain ⟨f0, f1, f16, f2, f3, f4, f5, f6, f7, f8, f9, f10, f11, f12, f13, f14, f15⟩ := idx_facts t
  match a with
  | ⟨0, _⟩ => show win1_1.index t (0 : Fin 2) * 5000 + 1 * p.val = t.val * 5000 + p.val; omega
  | ⟨1, _⟩ => show win1_1.index t (1 : Fin 2) * 128 + 1 * k.val = k.val; omega

theorem emb16 (t : Fin cfg1.N) (p : Fin 5000) (q : Fin 3) :
    ((cfg1.win 16).blk t).view.emb (ix2 p q) = (ix2 ⟨t.val * 5000 + p.val, by have := t_lt t; omega⟩ q : S100000x3.Idx) := by
  funext a; apply Fin.ext
  obtain ⟨f0, f1, f16, f2, f3, f4, f5, f6, f7, f8, f9, f10, f11, f12, f13, f14, f15⟩ := idx_facts t
  match a with
  | ⟨0, _⟩ => show win1_16.index t (0 : Fin 2) * 5000 + 1 * p.val = t.val * 5000 + p.val; omega
  | ⟨1, _⟩ => show win1_16.index t (1 : Fin 2) * 3 + 1 * q.val = q.val; omega

/-- What point `t` writes back is block `t` of `G1`. -/
theorem flushed1 (c : Dev nD) (t : Fin cfg1.N) :
    (dat1 V c).flushed 16 t = ((cfg1.win 16).blk t).view.read (Elt Ideal) (G1 V hcat c) := by
  show (cfg1.win 16).cut (grid1.coords t) ((dat1 V c).after 16 t) = _
  rw [after1_16]
  unfold out1_16
  rw [View.canon_unit_zero hz2]
  simp only [View.ld_unit_zero (S := S5000x128) hz2, View.ld_unit_zero (S := S256x128) hz2, View.ld_unit_zero (S := S128x128) hz2,
    View.ld_unit_zero (S := S128x3) hz2, View.ld_unit_zero (S := S128) hz1, View.ld_unit_zero (S := S3) hz1]
  rw [NodeBody.node_kernel]
  rw [wblk2 V c t, wblk3 V c t, wblk4 V c t, wblk5 V c t, wblk6 V c t, wblk7 V c t, wblk8 V c t, wblk9 V c t, wblk10 V c t, wblk11 V c t, wblk12 V c t, wblk13 V c t, wblk14 V c t, wblk15 V c t]
  funext j
  show nodeF (A := 5000) concatenates_S5000x128_S5000x128_S5000x256_d1 (iblk1 V c 0 t) (iblk1 V c 1 t) (V c main_arg9) (V c main_arg10) (V c main_arg11) (V c main_arg12) (V c main_arg13) (V c main_arg14) (V c main_arg15) (V c main_arg16) (V c main_arg17) (V c main_arg18) (V c main_arg19) (V c main_arg20) (V c main_arg21) (V c main_arg22) j
    = G1 V hcat c (((cfg1.win 16).blk t).view.emb j)
  obtain ⟨p, q, rfl⟩ : ∃ (p : Fin 5000) (q : Fin 3), j = ix2 p q := ⟨j 0, j 1, eq_ix2 j⟩
  rw [emb16 t p q]
  exact nodeF_rows (A := 5000) (A' := 100000) concatenates_S5000x128_S5000x128_S5000x256_d1 hcat (iblk1 V c 0 t) (iblk1 V c 1 t)
    (V c main_arg0) (V c main_v42) (V c main_arg9) (V c main_arg10) (V c main_arg11) (V c main_arg12) (V c main_arg13) (V c main_arg14) (V c main_arg15) (V c main_arg16) (V c main_arg17) (V c main_arg18) (V c main_arg19) (V c main_arg20) (V c main_arg21) (V c main_arg22) p ⟨t.val * 5000 + p.val, by have := t_lt t; omega⟩
    (fun k => row0 V c t p k) (fun k => row1 V c t p k) q

/-- An index of the array is in point `t`'s block iff each coordinate is in the block's range on its axis. -/
theorem mem_blk (t : Fin cfg1.N) (i : S100000x3.Idx) :
    i ∈ ((cfg1.win 16).blk t).view.set ↔ ∀ a : Fin 2, win1_16.index t a * S5000x3.size a ≤ (i a).val ∧ (i a).val < win1_16.index t a * S5000x3.size a + S5000x3.size a := by
  show i ∈ ((View.whole main_v43).slice (win1_16.rect t)).set ↔ _
  rw [View.set_slice_whole, Rect.mem_set_unit]
  exact Iff.rfl

/-- The 20 blocks of 5000 rows tile the array. -/
theorem cover1 (i : S100000x3.Idx) : ∃ t : Fin cfg1.N, (cfg1.win 16).flush t = true ∧ i ∈ ((cfg1.win 16).blk t).view.set := by
  have hi0 : (i 0).val < 100000 := (i 0).isLt
  have hi1 : (i 1).val < 3 := (i 1).isLt
  let t : Fin cfg1.N := ⟨(i 0).val / 5000, lt_of_lt_of_eq (by omega : (i 0).val / 5000 < 20) N_1.symm⟩
  refine ⟨t, flush1_16 t, ?_⟩
  rw [mem_blk]
  obtain ⟨f0, f1, f16, f2, f3, f4, f5, f6, f7, f8, f9, f10, f11, f12, f13, f14, f15⟩ := idx_facts t
  have ht : t.val = (i 0).val / 5000 := rfl
  intro a
  match a with
  | ⟨0, _⟩ => show win1_16.index t (0 : Fin 2) * 5000 ≤ (i 0).val ∧ (i 0).val < win1_16.index t (0 : Fin 2) * 5000 + 5000; omega
  | ⟨1, _⟩ => show win1_16.index t (1 : Fin 2) * 3 ≤ (i 1).val ∧ (i 1).val < win1_16.index t (1 : Fin 2) * 3 + 3; omega

/-- The result array after region 1. -/
theorem final1 (c : Dev nD) : (dat1 V c).arrAt 16 cfg1.N = G1 V hcat c :=
  (dat1 V c).arrAt_eq_of_cover 16 (G1 V hcat c) (fun t _ => flushed1 V hcat c t) (cover1)

end Cert.KernelIdeal.Blocks1

end
-- ==== Proof.KernelValue.lean ====
/-
  The idealized kernel program's result as ONE function of its argument arrays: the node stage of the node features and of
  the messages summed into their source nodes, the messages being the edge network of the gathered endpoint features and the
  edge's distance term. The two regions' arrays are the whole-array functions of the blocks-to-array modules; the host
  operations around them are read off the program's fold.
-/
import proofs.«155820_j38044820308174_2_alg».proof.Proof.KernelRun
import proofs.«155820_j38044820308174_2_alg».proof.Proof.Blocks0
import proofs.«155820_j38044820308174_2_alg».proof.Proof.Blocks1

set_option maxRecDepth 16384

noncomputable section

namespace Cert.KernelIdeal.KValue

open Idealize.ShloMosaic Idealize.ShloMosaic.ValueIdx Idealize.SL.Sem
open Cert.KernelIdeal Cert.KernelIdeal.Gen Cert.KernelIdeal.KRun Cert.EGC

/-- The messages: the edge network of the gathered source and target features and the distance term. -/
def msgs (a0 : Vec Ideal S100000x128 .f32) (a1 : Vec Ideal S100000x3 .f32) (a2 : Vec Ideal S2x600000 .i32) (a3 : Vec Ideal S257x128 .f32) (a4 : Vec Ideal S128 .f32) (a5 : Vec Ideal S128x128 .f32) (a6 : Vec Ideal S128 .f32) (a7 : Vec Ideal S128x1 .f32) (a8 : Vec Ideal S1 .f32) : FVec Ideal ⟨2, ![600000, 128]⟩ .f32 :=
  edgeF (A := 600000) (φ := .bf16)
    (Host.gather gather_S100000x128_S600000x1_S600000x128_1_0_n_n_0_1_1128 (truncf .bf16 a0 bitsLt_bf16_f32) (wrapIdx (idxS a2)))
    (Host.gather gather_S100000x128_S600000x1_S600000x128_1_0_n_n_0_1_1128 (truncf .bf16 a0 bitsLt_bf16_f32) (wrapIdx (idxE a2)))
    (dist a1 a2)
    (extractStridedSlice S128x128 ![0, 0] a3 slices_S257x128_S128x128_0_0)
    (extractStridedSlice S128x128 ![128, 0] a3 slices_S257x128_S128x128_128_0)
    (extractStridedSlice S1x128 ![256, 0] a3 slices_S257x128_S1x128_256_0) a4 a5 a6 a7 a8

/-- The program's result. -/
def kval (hcat : Shape.Concatenates [(⟨2, ![100000, 128]⟩ : Shape), ⟨2, ![100000, 128]⟩] ⟨2, ![100000, 256]⟩ 1)
    (a0 : Vec Ideal S100000x128 .f32) (a1 : Vec Ideal S100000x3 .f32) (a2 : Vec Ideal S2x600000 .i32) (a3 : Vec Ideal S257x128 .f32) (a4 : Vec Ideal S128 .f32) (a5 : Vec Ideal S128x128 .f32) (a6 : Vec Ideal S128 .f32) (a7 : Vec Ideal S128x1 .f32) (a8 : Vec Ideal S1 .f32) (a9 : Vec Ideal S256x128 .f32) (a10 : Vec Ideal S128 .f32) (a11 : Vec Ideal S128x128 .f32) (a12 : Vec Ideal S128 .f32) (a13 : Vec Ideal S128x128 .f32) (a14 : Vec Ideal S128 .f32) (a15 : Vec Ideal S128x128 .f32) (a16 : Vec Ideal S128 .f32) (a17 : Vec Ideal S128x128 .f32) (a18 : Vec Ideal S128 .f32) (a19 : Vec Ideal S128x128 .f32) (a20 : Vec Ideal S128 .f32) (a21 : Vec Ideal S128x3 .f32) (a22 : Vec Ideal S3 .f32) : FVec Ideal ⟨2, ![100000, 3]⟩ .f32 :=
  nodeF (A := 100000) hcat a0
    (Host.scatterAdd scatter_S100000x128_S600000x1_S600000x128_1_0_0_1
      (broadcastInDim S100000x128 ![] bcast_S_S100000x128 (constant S_ .f32 0x00000000#32))
      (broadcastInDim S600000x1 ![0] bcast_S600000_S600000x1_0 (idxS a2))
      (msgs a0 a1 a2 a3 a4 a5 a6 a7 a8))
    a9 a10 a11 a12 a13 a14 a15 a16 a17 a18 a19 a20 a21 a22

/-- Equal inputs give equal node stages. -/
theorem nodeF_congr {A : Nat} (h : Shape.Concatenates [(⟨2, ![A, 128]⟩ : Shape), ⟨2, ![A, 128]⟩] ⟨2, ![A, 256]⟩ 1)
    {X X' : FVec Ideal ⟨2, ![A, 128]⟩ .f32} {M M' : FVec Ideal ⟨2, ![A, 128]⟩ .f32} {W1 W1' : FVec Ideal ⟨2, ![256, 128]⟩ .f32} {b1 b1' : FVec Ideal ⟨1, ![128]⟩ .f32} {W2 W2' : FVec Ideal ⟨2, ![128, 128]⟩ .f32} {b2 b2' : FVec Ideal ⟨1, ![128]⟩ .f32} {L1 L1' : FVec Ideal ⟨2, ![128, 128]⟩ .f32} {c1 c1' : FVec Ideal ⟨1, ![128]⟩ .f32} {L2 L2' : FVec Ideal ⟨2, ![128, 128]⟩ .f32} {c2 c2' : FVec Ideal ⟨1, ![128]⟩ .f32} {L3 L3' : FVec Ideal ⟨2, ![128, 128]⟩ .f32} {c3 c3' : FVec Ideal ⟨1, ![128]⟩ .f32} {L4 L4' : FVec Ideal ⟨2, ![128, 128]⟩ .f32} {c4 c4' : FVec Ideal ⟨1, ![128]⟩ .f32} {L5 L5' : FVec Ideal ⟨2, ![128, 3]⟩ .f32} {c5 c5' : FVec Ideal ⟨1, ![3]⟩ .f32}
    (eX : X = X') (eM : M = M') (eW1 : W1 = W1') (eb1 : b1 = b1') (eW2 : W2 = W2') (eb2 : b2 = b2') (eL1 : L1 = L1') (ec1 : c1 = c1') (eL2 : L2 = L2') (ec2 : c2 = c2') (eL3 : L3 = L3') (ec3 : c3 = c3') (eL4 : L4 = L4') (ec4 : c4 = c4') (eL5 : L5 = L5') (ec5 : c5 = c5') :
    nodeF h X M W1 b1 W2 b2 L1 c1 L2 c2 L3 c3 L4 c4 L5 c5 = nodeF h X' M' W1' b1' W2' b2' L1' c1' L2' c2' L3' c3' L4' c4' L5' c5' := by
  rw [eX, eM, eW1, eb1, eW2, eb2, eL1, ec1, eL2, ec2, eL3, ec3, eL4, ec4, eL5, ec5]

/-- Equal inputs give equal messages. -/
theorem edgeF_congr {A : Nat}
    {Xs Xs' : FVec Ideal ⟨2, ![A, 128]⟩ .bf16} {Xe Xe' : FVec Ideal ⟨2, ![A, 128]⟩ .bf16} {D D' : FVec Ideal ⟨2, ![A, 1]⟩ .f32} {Wa Wa' : FVec Ideal ⟨2, ![128, 128]⟩ .f32} {Wb Wb' : FVec Ideal ⟨2, ![128, 128]⟩ .f32} {Wc Wc' : FVec Ideal ⟨2, ![1, 128]⟩ .f32} {b1 b1' : FVec Ideal ⟨1, ![128]⟩ .f32} {W2 W2' : FVec Ideal ⟨2, ![128, 128]⟩ .f32} {b2 b2' : FVec Ideal ⟨1, ![128]⟩ .f32} {Wf Wf' : FVec Ideal ⟨2, ![128, 1]⟩ .f32} {bf bf' : FVec Ideal ⟨1, ![1]⟩ .f32}
    (eXs : Xs = Xs') (eXe : Xe = Xe') (eD : D = D') (eWa : Wa = Wa') (eWb : Wb = Wb') (eWc : Wc = Wc') (eb1 : b1 = b1') (eW2 : W2 = W2') (eb2 : b2 = b2') (eWf : Wf = Wf') (ebf : bf = bf') :
    edgeF Xs Xe D Wa Wb Wc b1 W2 b2 Wf bf = edgeF Xs' Xe' D' Wa' Wb' Wc' b1' W2' b2' Wf' bf' := by
  rw [eXs, eXe, eD, eWa, eWb, eWc, eb1, eW2, eb2, eWf, ebf]

variable (m : (ℓ : Loc nD τ sig) → Buf (Elt Ideal) ℓ) (ρ : Dev nD → PrngReg)
  (hcat : Shape.Concatenates [(⟨2, ![100000, 128]⟩ : Shape), ⟨2, ![100000, 128]⟩] ⟨2, ![100000, 256]⟩ 1)

/-- The result buffer at the last boundary of the program's run is that function of the launch contents of the arguments. -/
theorem value (c : Dev nD) :
    W6 m ρ c (Proc.devRef .tc main_v43) = kval hcat (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  refine (out_eq m ρ c).trans ((Blocks1.final1 (V5 m ρ) hcat c).trans ?_)
  unfold Blocks1.G1 kval
  refine nodeF_congr hcat (V5_main_arg0 m ρ c) ?_ (V5_main_arg9 m ρ c) (V5_main_arg10 m ρ c) (V5_main_arg11 m ρ c) (V5_main_arg12 m ρ c) (V5_main_arg13 m ρ c) (V5_main_arg14 m ρ c) (V5_main_arg15 m ρ c) (V5_main_arg16 m ρ c) (V5_main_arg17 m ρ c) (V5_main_arg18 m ρ c) (V5_main_arg19 m ρ c) (V5_main_arg20 m ρ c) (V5_main_arg21 m ρ c) (V5_main_arg22 m ρ c)
  refine (V5_main_v42 m ρ c).trans (congrArg (Host.scatterAdd _ _ _) ?_)
  refine (Blocks0.final0 (V3 m ρ) c).trans ?_
  unfold Blocks0.G0 msgs
  exact edgeF_congr (V3_main_v28 m ρ c) (V3_main_v35 m ρ c) (V3_main_v20 m ρ c) (V3_main_v36 m ρ c) (V3_main_v37 m ρ c)
    (V3_main_v38 m ρ c) (V3_main_arg4 m ρ c) (V3_main_arg5 m ρ c) (V3_main_arg6 m ρ c) (V3_main_arg7 m ρ c) (V3_main_arg8 m ρ c)

end Cert.KernelIdeal.KValue

end
-- ==== Proof.RefStages.lean ====
import proofs.«155820_j38044820308174_2_alg».proof.ReferenceIdeal
import proofs.«155820_j38044820308174_2_alg».proof.Proof.Gen.ReferenceIdeal

/-!
# The reference computation as functions of its argument arrays

The reference is a straight line of array operations. Here its result is written as a composition of named stages, each
the operations' own functions composed in program order: the two rows of the edge table, the index columns made from them,
the distance of each edge's endpoints, the gathered endpoint features, the edge network, the sum of the messages per node,
and the node network. The functions are stated for any float values.
-/

noncomputable section

namespace Cert.ReferenceIdeal.RefStages

open Cert.ReferenceIdeal Idealize.ShloMosaic
open Cert.ReferenceIdeal.Facts₀ Cert.ReferenceIdeal.Facts

variable {F : FTy → Type} [FloatOps F]

/-- The contents of a buffer of shape `s` and element type `e`. -/
local notation "T⟦" s ", " e "⟧" => BufTy.Contents (Elt F) (BufTy.mk s e)

/-! ## The stages of the computation, as functions of the argument arrays

Each is the composition of the operations' own functions in program order. -/

/-- Row 0 of the edge table as a vector: each edge's first endpoint. -/
def idxS (a2 : T⟦S2x600000, .i32⟧) : T⟦S600000, .i32⟧ :=
  shapeCast S600000 (extractStridedSlice S1x600000 ![0, 0] a2 slices_S2x600000_S1x600000_0_0) shapeCasts_S1x600000_S600000

/-- Row 1 of the edge table as a vector: each edge's second endpoint. -/
def idxE (a2 : T⟦S2x600000, .i32⟧) : T⟦S600000, .i32⟧ :=
  shapeCast S600000 (extractStridedSlice S1x600000 ![1, 0] a2 slices_S2x600000_S1x600000_1_0) shapeCasts_S1x600000_S600000

/-- A vector of node numbers as a column of gather indices: a negative number counts from the end
    (100000 is added to it), the others stand. -/
def wrapIdx (v : T⟦S600000, .i32⟧) : T⟦S600000x1, .i32⟧ :=
  broadcastInDim S600000x1 ![0] bcast_S600000_S600000x1_0
    (select (cmpi .slt v (broadcastInDim S600000 ![] bcast_S_S600000 (constantI S_ 32 0#32)))
      (addi v (broadcastInDim S600000 ![] bcast_S_S600000 (constantI S_ 32 100000#32))) v)

/-- Per edge, the difference of its endpoints' positions. -/
def relPos (a1 : T⟦S100000x3, .f32⟧) (a2 : T⟦S2x600000, .i32⟧) : T⟦S600000x3, .f32⟧ :=
  subf (Host.gather gather_S100000x3_S600000x1_S600000x3_1_0_n_n_0_1_13 a1 (wrapIdx (idxS a2))) (Host.gather gather_S100000x3_S600000x1_S600000x3_1_0_n_n_0_1_13 a1 (wrapIdx (idxE a2)))

/-- Per row, the square root of the sum of the squares of its three entries, as a column. -/
def rowNorm (x : T⟦S600000x3, .f32⟧) : T⟦S600000x1, .f32⟧ :=
  Host.sqrt (broadcastInDim S600000x1 ![0] bcast_S600000_S600000x1_0
    (Host.reduceAdd (mulf x x) (constant S_ .f32 0x00000000#32) reducesTo_S600000x3_S600000_d1 h_S_))

/-- Per edge, the norm of the square of the difference of its endpoints' positions. -/
def dist (a1 : T⟦S100000x3, .f32⟧) (a2 : T⟦S2x600000, .i32⟧) : T⟦S600000x1, .f32⟧ :=
  rowNorm (mulf (relPos a1 a2) (relPos a1 a2))

/-- Per edge, the feature row of its first endpoint. -/
def xs (a0 : T⟦S100000x128, .f32⟧) (a2 : T⟦S2x600000, .i32⟧) : T⟦S600000x128, .f32⟧ :=
  Host.gather gather_S100000x128_S600000x1_S600000x128_1_0_n_n_0_1_1128 a0 (wrapIdx (idxS a2))

/-- Per edge, the feature row of its second endpoint. -/
def xe (a0 : T⟦S100000x128, .f32⟧) (a2 : T⟦S2x600000, .i32⟧) : T⟦S600000x128, .f32⟧ :=
  Host.gather gather_S100000x128_S600000x1_S600000x128_1_0_n_n_0_1_1128 a0 (wrapIdx (idxE a2))

/-- The edge network's hidden rows: two dense layers with hyperbolic tangent over the concatenation of the
    endpoints' features and the distance. -/
def edgeH (Xs Xe : T⟦S600000x128, .f32⟧) (D : T⟦S600000x1, .f32⟧) (a3 : T⟦S257x128, .f32⟧) (a4 : T⟦S128, .f32⟧)
    (a5 : T⟦S128x128, .f32⟧) (a6 : T⟦S128, .f32⟧) : T⟦S600000x128, .f32⟧ :=
  Host.tanh (addf
    (Host.dotGeneral dot_S600000x128_S128x128_S600000x128_1_0_0_1_n_n none
      (Host.tanh (addf
        (Host.dotGeneral dot_S600000x257_S257x128_S600000x128_1_0_0_1_n_n none
          (concatenate S600000x257 1 [⟨S600000x128, Xs⟩, ⟨S600000x128, Xe⟩, ⟨S600000x1, D⟩] concatenates_S600000x128_S600000x128_S600000x1_S600000x257_d1)
          a3)
        (broadcastInDim S600000x128 ![0, 1] bcast_S1x128_S600000x128_0_1 (broadcastInDim S1x128 ![1] bcast_S128_S1x128_1 a4))))
      a5)
    (broadcastInDim S600000x128 ![0, 1] bcast_S1x128_S600000x128_0_1 (broadcastInDim S1x128 ![1] bcast_S128_S1x128_1 a6)))

/-- The hidden rows, each scaled by its gate: the hyperbolic tangent of a dense layer with one output. -/
def edgeOut (H : T⟦S600000x128, .f32⟧) (a7 : T⟦S128x1, .f32⟧) (a8 : T⟦S1, .f32⟧) : T⟦S600000x128, .f32⟧ :=
  mulf
    (broadcastInDim S600000x128 ![0, 1] bcast_S600000x1_S600000x128_0_1
      (Host.tanh (addf
        (Host.dotGeneral dot_S600000x128_S128x1_S600000x1_1_0_0_1_n_n none H a7)
        (broadcastInDim S600000x1 ![0, 1] bcast_S1x1_S600000x1_0_1 (broadcastInDim S1x1 ![1] bcast_S1_S1x1_1 a8)))))
    H

/-- The message of each edge, from its endpoints' feature rows, its distance and the six weight arrays. -/
def edge (Xs Xe : T⟦S600000x128, .f32⟧) (D : T⟦S600000x1, .f32⟧) (a3 : T⟦S257x128, .f32⟧) (a4 : T⟦S128, .f32⟧)
    (a5 : T⟦S128x128, .f32⟧) (a6 : T⟦S128, .f32⟧) (a7 : T⟦S128x1, .f32⟧) (a8 : T⟦S1, .f32⟧) : T⟦S600000x128, .f32⟧ :=
  edgeOut (edgeH Xs Xe D a3 a4 a5 a6) a7 a8

/-- The messages summed into the rows of their edges' first endpoints, from zero. -/
def aggAt (v : T⟦S600000, .i32⟧) (msg : T⟦S600000x128, .f32⟧) : T⟦S100000x128, .f32⟧ :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 v) msg

/-- The messages summed per node over the edges that start at it. -/
def agg (a2 : T⟦S2x600000, .i32⟧) (msg : T⟦S600000x128, .f32⟧) : T⟦S100000x128, .f32⟧ :=
  aggAt (idxS a2) msg

/-- The leaky rectifier with slope `c`: an entry that is at least zero stands, another is multiplied by `c`. -/
def lrelu (x : T⟦S100000x128, .f32⟧) (c : T⟦S_, .f32⟧) : T⟦S100000x128, .f32⟧ :=
  select (cmpf .oge x (broadcastInDim S100000x128 ![] bcast_S_S100000x128 (constant S_ .f32 0x00000000#32)))
    x (mulf (broadcastInDim S100000x128 ![] bcast_S_S100000x128 (id c)) x)

/-- The node network up to its first rectifier: the update of the features by a two-layer network over the
    features and the summed messages, added to the features, then one dense layer. -/
def nodeIn (X M : T⟦S100000x128, .f32⟧) (a9 : T⟦S256x128, .f32⟧) (a10 : T⟦S128, .f32⟧) (a11 : T⟦S128x128, .f32⟧)
    (a12 : T⟦S128, .f32⟧) (a13 : T⟦S128x128, .f32⟧) (a14 : T⟦S128, .f32⟧) : T⟦S100000x128, .f32⟧ :=
  addf
    (Host.dotGeneral dot_S100000x128_S128x128_S100000x128_1_0_0_1_n_n none
      (addf X
        (addf
          (Host.dotGeneral dot_S100000x128_S128x128_S100000x128_1_0_0_1_n_n none
            (Host.tanh (addf
              (Host.dotGeneral dot_S100000x256_S256x128_S100000x128_1_0_0_1_n_n none
                (concatenate S100000x256 1 [⟨S100000x128, X⟩, ⟨S100000x128, M⟩] concatenates_S100000x128_S100000x128_S100000x256_d1)
                a9)
              (broadcastInDim S100000x128 ![0, 1] bcast_S1x128_S100000x128_0_1 (broadcastInDim S1x128 ![1] bcast_S128_S1x128_1 a10))))
            a11)
          (broadcastInDim S100000x128 ![0, 1] bcast_S1x128_S100000x128_0_1 (broadcastInDim S1x128 ![1] bcast_S128_S1x128_1 a12))))
      a13)
    (broadcastInDim S100000x128 ![0, 1] bcast_S1x128_S100000x128_0_1 (broadcastInDim S1x128 ![1] bcast_S128_S1x128_1 a14))

/-- One hidden layer: the rectifier with slope 0.01, then a dense layer. -/
def layer (x : T⟦S100000x128, .f32⟧) (w : T⟦S128x128, .f32⟧) (b : T⟦S128, .f32⟧) : T⟦S100000x128, .f32⟧ :=
  addf (Host.dotGeneral dot_S100000x128_S128x128_S100000x128_1_0_0_1_n_n none (lrelu x (constant S_ .f32 0x3C23D70A#32)) w) (broadcastInDim S100000x128 ![0, 1] bcast_S1x128_S100000x128_0_1 (broadcastInDim S1x128 ![1] bcast_S128_S1x128_1 b))

/-- The output layer: the rectifier with slope 0.01, then a dense layer with three outputs. -/
def layerOut (x : T⟦S100000x128, .f32⟧) (w : T⟦S128x3, .f32⟧) (b : T⟦S3, .f32⟧) : T⟦S100000x3, .f32⟧ :=
  addf (Host.dotGeneral dot_S100000x128_S128x3_S100000x3_1_0_0_1_n_n none (lrelu x (constant S_ .f32 0x3C23D70A#32)) w)
    (broadcastInDim S100000x3 ![0, 1] bcast_S1x3_S100000x3_0_1 (broadcastInDim S1x3 ![1] bcast_S3_S1x3_1 b))

/-- The node network: from the features `X`, the summed messages `M` and the fourteen weight arrays to the result. -/
def node (X M : T⟦S100000x128, .f32⟧) (a9 : T⟦S256x128, .f32⟧) (a10 : T⟦S128, .f32⟧) (a11 : T⟦S128x128, .f32⟧)
    (a12 : T⟦S128, .f32⟧) (a13 : T⟦S128x128, .f32⟧) (a14 : T⟦S128, .f32⟧) (a15 : T⟦S128x128, .f32⟧) (a16 : T⟦S128, .f32⟧)
    (a17 : T⟦S128x128, .f32⟧) (a18 : T⟦S128, .f32⟧) (a19 : T⟦S128x128, .f32⟧) (a20 : T⟦S128, .f32⟧)
    (a21 : T⟦S128x3, .f32⟧) (a22 : T⟦S3, .f32⟧) : T⟦S100000x3, .f32⟧ :=
  layerOut (layer (layer (layer (nodeIn X M a9 a10 a11 a12 a13 a14) a15 a16) a17 a18) a19 a20) a21 a22

/-- The program's result as a function of its twenty-three argument arrays. -/
def result (a0 : T⟦S100000x128, .f32⟧) (a1 : T⟦S100000x3, .f32⟧) (a2 : T⟦S2x600000, .i32⟧) (a3 : T⟦S257x128, .f32⟧)
    (a4 : T⟦S128, .f32⟧) (a5 : T⟦S128x128, .f32⟧) (a6 : T⟦S128, .f32⟧) (a7 : T⟦S128x1, .f32⟧) (a8 : T⟦S1, .f32⟧)
    (a9 : T⟦S256x128, .f32⟧) (a10 : T⟦S128, .f32⟧) (a11 : T⟦S128x128, .f32⟧) (a12 : T⟦S128, .f32⟧)
    (a13 : T⟦S128x128, .f32⟧) (a14 : T⟦S128, .f32⟧) (a15 : T⟦S128x128, .f32⟧) (a16 : T⟦S128, .f32⟧)
    (a17 : T⟦S128x128, .f32⟧) (a18 : T⟦S128, .f32⟧) (a19 : T⟦S128x128, .f32⟧) (a20 : T⟦S128, .f32⟧)
    (a21 : T⟦S128x3, .f32⟧) (a22 : T⟦S3, .f32⟧) : T⟦S100000x3, .f32⟧ :=
  node a0 (agg a2 (edge (xs a0 a2) (xe a0 a2) (dist a1 a2) a3 a4 a5 a6 a7 a8)) a9 a10 a11 a12 a13 a14 a15 a16 a17 a18 a19 a20 a21 a22

end Cert.ReferenceIdeal.RefStages

end
-- ==== Proof.RefRun.lean ====
import proofs.«155820_j38044820308174_2_alg».proof.ReferenceIdeal
import proofs.«155820_j38044820308174_2_alg».proof.Proof.Gen.ReferenceIdeal
import proofs.«155820_j38044820308174_2_alg».proof.Proof.RefStages
import Idealize.ShloMosaic.Lib.StableHlo.Run

/-!
# The run of the reference program

The reference is a straight line of 132 array operations once its calls are replaced by the callees' operations. This
module lists them, proves the program equal to that line, and reads the line's effect back: each stage of
`RefStages` is the contents of one buffer after one consecutive piece of the line, as a function of the contents of
the buffers the piece reads; a piece changes no buffer it does not write; so after the whole line the result buffer
holds `RefStages.result` of the argument arrays, and the argument buffers hold what they held.
-/

noncomputable section

namespace Cert.ReferenceIdeal.RefRun

open Cert.ReferenceIdeal Cert.ReferenceIdeal.RefStages Idealize.ShloMosaic Idealize.ShloMosaic.TcCoe Idealize.SL.Sem Idealize.ShloMosaic.StableHlo
open Cert.ReferenceIdeal.Facts₀ Cert.ReferenceIdeal.Facts

variable {F : FTy → Type} [FloatOps F]

/-- The operations of the whole program in order, every call replaced by its callee's operations over that call's buffers. -/
abbrev ops : List (HloOp τ sig (Elt F)) :=
  [ StableHlo.unary main_arg2 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg2 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 100000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg1 main_v9 main_v10 ((fun x i => Host.gather gather_S100000x3_S600000x1_S600000x3_1_0_n_n_0_1_13 x i) : (⟨S100000x3, .f32⟩ : BufTy).Contents (Elt F) → (⟨S600000x1, .i32⟩ : BufTy).Contents (Elt F) → (⟨S600000x3, .f32⟩ : BufTy).Contents (Elt F)),
    StableHlo.nullary main_c_1 (constantI S_ 32 0#32),
    StableHlo.unary main_c_1 main_v11 (broadcastInDim S600000 ![] bcast_S_S600000 : (⟨S_, .i32⟩ : BufTy).Contents (Elt F) → (⟨S600000, .i32⟩ : BufTy).Contents (Elt F)),
    StableHlo.binary main_v3 main_v11 main_v12 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 100000#32),
    StableHlo.unary main_c_2 main_v13 (broadcastInDim S600000 ![] bcast_S_S600000 : (⟨S_, .i32⟩ : BufTy).Contents (Elt F) → (⟨S600000, .i32⟩ : BufTy).Contents (Elt F)),
    StableHlo.binary main_v3 main_v13 main_v14 (addi : (⟨S600000, .i32⟩ : BufTy).Contents (Elt F) → (⟨S600000, .i32⟩ : BufTy).Contents (Elt F) → (⟨S600000, .i32⟩ : BufTy).Contents (Elt F)),
    StableHlo.ternary main_v12 main_v14 main_v3 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v15 main_v16 (broadcastInDim S600000x1 ![0] bcast_S600000_S600000x1_0 : (⟨S600000, .i32⟩ : BufTy).Contents (Elt F) → (⟨S600000x1, .i32⟩ : BufTy).Contents (Elt F)),
    StableHlo.binary main_arg1 main_v16 main_v17 ((fun x i => Host.gather gather_S100000x3_S600000x1_S600000x3_1_0_n_n_0_1_13 x i) : (⟨S100000x3, .f32⟩ : BufTy).Contents (Elt F) → (⟨S600000x1, .i32⟩ : BufTy).Contents (Elt F) → (⟨S600000x3, .f32⟩ : BufTy).Contents (Elt F)),
    StableHlo.binary main_v10 main_v17 main_v18 (subf : (⟨S600000x3, .f32⟩ : BufTy).Contents (Elt F) → (⟨S600000x3, .f32⟩ : BufTy).Contents (Elt F) → (⟨S600000x3, .f32⟩ : BufTy).Contents (Elt F)),
    StableHlo.binary main_v18 main_v18 main_v19 (mulf : (⟨S600000x3, .f32⟩ : BufTy).Contents (Elt F) → (⟨S600000x3, .f32⟩ : BufTy).Contents (Elt F) → (⟨S600000x3, .f32⟩ : BufTy).Contents (Elt F)),
    StableHlo.TRef.binary (.of main_v19 : StableHlo.TRef sig ⟨S600000x3, .f32⟩) (.of main_v19 : StableHlo.TRef sig ⟨S600000x3, .f32⟩) main_call0.v0 mulf,
    StableHlo.TRef.nullary main_call0.cst (constant S_ .f32 0x00000000#32),
    StableHlo.TRef.binary main_call0.v0 main_call0.cst main_call0.v1 (fun x v => Host.reduceAdd x v reducesTo_S600000x3_S600000_d1 h_S_),
    StableHlo.TRef.unary main_call0.v1 main_call0.v2 (broadcastInDim S600000x1 ![0] bcast_S600000_S600000x1_0),
    StableHlo.TRef.unary main_call0.v2 main_call0.v3 Host.sqrt,
    StableHlo.nullary main_c_3 (constantI S_ 32 0#32),
    StableHlo.unary main_c_3 main_v21 (broadcastInDim S600000 ![] bcast_S_S600000 : (⟨S_, .i32⟩ : BufTy).Contents (Elt F) → (⟨S600000, .i32⟩ : BufTy).Contents (Elt F)),
    StableHlo.binary main_v1 main_v21 main_v22 (cmpi .slt : (⟨S600000, .i32⟩ : BufTy).Contents (Elt F) → (⟨S600000, .i32⟩ : BufTy).Contents (Elt F) → (⟨S600000, .i1⟩ : BufTy).Contents (Elt F)),
    StableHlo.nullary main_c_4 (constantI S_ 32 100000#32),
    StableHlo.unary main_c_4 main_v23 (broadcastInDim S600000 ![] bcast_S_S600000 : (⟨S_, .i32⟩ : BufTy).Contents (Elt F) → (⟨S600000, .i32⟩ : BufTy).Contents (Elt F)),
    StableHlo.binary main_v1 main_v23 main_v24 (addi : (⟨S600000, .i32⟩ : BufTy).Contents (Elt F) → (⟨S600000, .i32⟩ : BufTy).Contents (Elt F) → (⟨S600000, .i32⟩ : BufTy).Contents (Elt F)),
    StableHlo.ternary main_v22 main_v24 main_v1 main_v25 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v25 main_v26 (broadcastInDim S600000x1 ![0] bcast_S600000_S600000x1_0 : (⟨S600000, .i32⟩ : BufTy).Contents (Elt F) → (⟨S600000x1, .i32⟩ : BufTy).Contents (Elt F)),
    StableHlo.binary main_arg0 main_v26 main_v27 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nullary main_c_5 (constantI S_ 32 0#32),
    StableHlo.unary main_c_5 main_v28 (broadcastInDim S600000 ![] bcast_S_S600000 : (⟨S_, .i32⟩ : BufTy).Contents (Elt F) → (⟨S600000, .i32⟩ : BufTy).Contents (Elt F)),
    StableHlo.binary main_v3 main_v28 main_v29 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 100000#32),
    StableHlo.unary main_c_6 main_v30 (broadcastInDim S600000 ![] bcast_S_S600000 : (⟨S_, .i32⟩ : BufTy).Contents (Elt F) → (⟨S600000, .i32⟩ : BufTy).Contents (Elt F)),
    StableHlo.binary main_v3 main_v30 main_v31 (addi : (⟨S600000, .i32⟩ : BufTy).Contents (Elt F) → (⟨S600000, .i32⟩ : BufTy).Contents (Elt F) → (⟨S600000, .i32⟩ : BufTy).Contents (Elt F)),
    StableHlo.ternary main_v29 main_v31 main_v3 main_v32 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v32 main_v33 (broadcastInDim S600000x1 ![0] bcast_S600000_S600000x1_0 : (⟨S600000, .i32⟩ : BufTy).Contents (Elt F) → (⟨S600000x1, .i32⟩ : BufTy).Contents (Elt F)),
    StableHlo.binary main_arg0 main_v33 main_v34 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)),
    StableHlo.nary ![main_v27, main_v34, main_v20] main_v35 (fun u => concatenate S600000x257 1 [⟨S600000x128, u 0⟩, ⟨S600000x128, u 1⟩, ⟨S600000x1, u 2⟩] concatenates_S600000x128_S600000x128_S600000x1_S600000x257_d1),
    StableHlo.binary main_v35 main_arg3 main_v36 ((fun l r => Host.dotGeneral dot_S600000x257_S257x128_S600000x128_1_0_0_1_n_n none l r) : (⟨S600000x257, .f32⟩ : BufTy).Contents (Elt F) → (⟨S257x128, .f32⟩ : BufTy).Contents (Elt F) → (⟨S600000x128, .f32⟩ : BufTy).Contents (Elt F)),
    StableHlo.unary main_arg4 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S600000x128 ![0, 1] bcast_S1x128_S600000x128_0_1 : (⟨S1x128, .f32⟩ : BufTy).Contents (Elt F) → (⟨S600000x128, .f32⟩ : BufTy).Contents (Elt F)),
    StableHlo.binary main_v36 main_v38 main_v39 (addf : (⟨S600000x128, .f32⟩ : BufTy).Contents (Elt F) → (⟨S600000x128, .f32⟩ : BufTy).Contents (Elt F) → (⟨S600000x128, .f32⟩ : BufTy).Contents (Elt F)),
    StableHlo.unary main_v39 main_v40 (Host.tanh : (⟨S600000x128, .f32⟩ : BufTy).Contents (Elt F) → (⟨S600000x128, .f32⟩ : BufTy).Contents (Elt F)),
    StableHlo.binary main_v40 main_arg5 main_v41 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.unary main_arg6 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S600000x128 ![0, 1] bcast_S1x128_S600000x128_0_1 : (⟨S1x128, .f32⟩ : BufTy).Contents (Elt F) → (⟨S600000x128, .f32⟩ : BufTy).Contents (Elt F)),
    StableHlo.binary main_v41 main_v43 main_v44 (addf : (⟨S600000x128, .f32⟩ : BufTy).Contents (Elt F) → (⟨S600000x128, .f32⟩ : BufTy).Contents (Elt F) → (⟨S600000x128, .f32⟩ : BufTy).Contents (Elt F)),
    StableHlo.unary main_v44 main_v45 (Host.tanh : (⟨S600000x128, .f32⟩ : BufTy).Contents (Elt F) → (⟨S600000x128, .f32⟩ : BufTy).Contents (Elt F)),
    StableHlo.binary main_v45 main_arg7 main_v46 ((fun l r => Host.dotGeneral dot_S600000x128_S128x1_S600000x1_1_0_0_1_n_n none l r) : (⟨S600000x128, .f32⟩ : BufTy).Contents (Elt F) → (⟨S128x1, .f32⟩ : BufTy).Contents (Elt F) → (⟨S600000x1, .f32⟩ : BufTy).Contents (Elt F)),
    StableHlo.unary main_arg8 main_v47 (broadcastInDim S1x1 ![1] bcast_S1_S1x1_1 : (⟨S1, .f32⟩ : BufTy).Contents (Elt F) → (⟨S1x1, .f32⟩ : BufTy).Contents (Elt F)),
    StableHlo.unary main_v47 main_v48 (broadcastInDim S600000x1 ![0, 1] bcast_S1x1_S600000x1_0_1 : (⟨S1x1, .f32⟩ : BufTy).Contents (Elt F) → (⟨S600000x1, .f32⟩ : BufTy).Contents (Elt F)),
    StableHlo.binary main_v46 main_v48 main_v49 (addf : (⟨S600000x1, .f32⟩ : BufTy).Contents (Elt F) → (⟨S600000x1, .f32⟩ : BufTy).Contents (Elt F) → (⟨S600000x1, .f32⟩ : BufTy).Contents (Elt F)),
    StableHlo.unary main_v49 main_v50 (Host.tanh : (⟨S600000x1, .f32⟩ : BufTy).Contents (Elt F) → (⟨S600000x1, .f32⟩ : BufTy).Contents (Elt F)),
    StableHlo.unary main_v50 main_v51 (broadcastInDim S600000x128 ![0, 1] bcast_S600000x1_S600000x128_0_1 : (⟨S600000x1, .f32⟩ : BufTy).Contents (Elt F) → (⟨S600000x128, .f32⟩ : BufTy).Contents (Elt F)),
    StableHlo.binary main_v51 main_v45 main_v52 (mulf : (⟨S600000x128, .f32⟩ : BufTy).Contents (Elt F) → (⟨S600000x128, .f32⟩ : BufTy).Contents (Elt F) → (⟨S600000x128, .f32⟩ : BufTy).Contents (Elt F)),
    StableHlo.nullary main_cst (constant S_ .f32 0x00000000#32),
    StableHlo.unary main_cst main_v53 (broadcastInDim S100000x128 ![] bcast_S_S100000x128 : (⟨S_, .f32⟩ : BufTy).Contents (Elt F) → (⟨S100000x128, .f32⟩ : BufTy).Contents (Elt F)),
    StableHlo.unary main_v1 main_v54 (broadcastInDim S600000x1 ![0] bcast_S600000_S600000x1_0 : (⟨S600000, .i32⟩ : BufTy).Contents (Elt F) → (⟨S600000x1, .i32⟩ : BufTy).Contents (Elt F)),
    StableHlo.ternary main_v53 main_v54 main_v52 main_v55 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)),
    StableHlo.binary main_arg0 main_v55 main_v56 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v56 main_arg9 main_v57 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg10 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v59 main_v60 (addf : (⟨S100000x128, .f32⟩ : BufTy).Contents (Elt F) → (⟨S100000x128, .f32⟩ : BufTy).Contents (Elt F) → (⟨S100000x128, .f32⟩ : BufTy).Contents (Elt F)),
    StableHlo.unary main_v60 main_v61 (Host.tanh : (⟨S100000x128, .f32⟩ : BufTy).Contents (Elt F) → (⟨S100000x128, .f32⟩ : BufTy).Contents (Elt F)),
    StableHlo.binary main_v61 main_arg11 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg12 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v64 main_v65 (addf : (⟨S100000x128, .f32⟩ : BufTy).Contents (Elt F) → (⟨S100000x128, .f32⟩ : BufTy).Contents (Elt F) → (⟨S100000x128, .f32⟩ : BufTy).Contents (Elt F)),
    StableHlo.binary main_arg0 main_v65 main_v66 (addf : (⟨S100000x128, .f32⟩ : BufTy).Contents (Elt F) → (⟨S100000x128, .f32⟩ : BufTy).Contents (Elt F) → (⟨S100000x128, .f32⟩ : BufTy).Contents (Elt F)),
    StableHlo.binary main_v66 main_arg13 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg14 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v67 main_v69 main_v70 (addf : (⟨S100000x128, .f32⟩ : BufTy).Contents (Elt F) → (⟨S100000x128, .f32⟩ : BufTy).Contents (Elt F) → (⟨S100000x128, .f32⟩ : BufTy).Contents (Elt F)),
    StableHlo.nullary main_cst_7 (constant S_ .f32 0x3C23D70A#32),
    StableHlo.TRef.nullary main_call1.cst (constant S_ .f32 0x00000000#32),
    StableHlo.TRef.unary main_call1.cst main_call1.v0 (broadcastInDim S100000x128 ![] bcast_S_S100000x128),
    StableHlo.TRef.binary (.of main_v70 : StableHlo.TRef sig ⟨S100000x128, .f32⟩) main_call1.v0 main_call1.v1 (cmpf .oge),
    StableHlo.TRef.unary (.of main_cst_7 : StableHlo.TRef sig ⟨S_, .f32⟩) main_call1.v2 id,
    StableHlo.TRef.unary main_call1.v2 main_call1.v3 (broadcastInDim S100000x128 ![] bcast_S_S100000x128),
    StableHlo.TRef.binary main_call1.v3 (.of main_v70 : StableHlo.TRef sig ⟨S100000x128, .f32⟩) main_call1.v4 mulf,
    StableHlo.TRef.ternary main_call1.v1 (.of main_v70 : StableHlo.TRef sig ⟨S100000x128, .f32⟩) main_call1.v4 main_call1.call0.v0 select,
    StableHlo.binary main_v71 main_arg15 main_v72 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg16 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S100000x128 ![0, 1] bcast_S1x128_S100000x128_0_1 : (⟨S1x128, .f32⟩ : BufTy).Contents (Elt F) → (⟨S100000x128, .f32⟩ : BufTy).Contents (Elt F)),
    StableHlo.binary main_v72 main_v74 main_v75 (addf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3C23D70A#32),
    StableHlo.TRef.nullary main_call2.cst (constant S_ .f32 0x00000000#32),
    StableHlo.TRef.unary main_call2.cst main_call2.v0 (broadcastInDim S100000x128 ![] bcast_S_S100000x128),
    StableHlo.TRef.binary (.of main_v75 : StableHlo.TRef sig ⟨S100000x128, .f32⟩) main_call2.v0 main_call2.v1 (cmpf .oge),
    StableHlo.TRef.unary (.of main_cst_8 : StableHlo.TRef sig ⟨S_, .f32⟩) main_call2.v2 id,
    StableHlo.TRef.unary main_call2.v2 main_call2.v3 (broadcastInDim S100000x128 ![] bcast_S_S100000x128),
    StableHlo.TRef.binary main_call2.v3 (.of main_v75 : StableHlo.TRef sig ⟨S100000x128, .f32⟩) main_call2.v4 mulf,
    StableHlo.TRef.ternary main_call2.v1 (.of main_v75 : StableHlo.TRef sig ⟨S100000x128, .f32⟩) main_call2.v4 main_call2.call0.v0 select,
    StableHlo.binary main_v76 main_arg17 main_v77 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg18 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v77 main_v79 main_v80 (addf : (⟨S100000x128, .f32⟩ : BufTy).Contents (Elt F) → (⟨S100000x128, .f32⟩ : BufTy).Contents (Elt F) → (⟨S100000x128, .f32⟩ : BufTy).Contents (Elt F)),
    StableHlo.nullary main_cst_9 (constant S_ .f32 0x3C23D70A#32),
    StableHlo.TRef.nullary main_call3.cst (constant S_ .f32 0x00000000#32),
    StableHlo.TRef.unary main_call3.cst main_call3.v0 (broadcastInDim S100000x128 ![] bcast_S_S100000x128),
    StableHlo.TRef.binary (.of main_v80 : StableHlo.TRef sig ⟨S100000x128, .f32⟩) main_call3.v0 main_call3.v1 (cmpf .oge),
    StableHlo.TRef.unary (.of main_cst_9 : StableHlo.TRef sig ⟨S_, .f32⟩) main_call3.v2 id,
    StableHlo.TRef.unary main_call3.v2 main_call3.v3 (broadcastInDim S100000x128 ![] bcast_S_S100000x128),
    StableHlo.TRef.binary main_call3.v3 (.of main_v80 : StableHlo.TRef sig ⟨S100000x128, .f32⟩) main_call3.v4 mulf,
    StableHlo.TRef.ternary main_call3.v1 (.of main_v80 : StableHlo.TRef sig ⟨S100000x128, .f32⟩) main_call3.v4 main_call3.call0.v0 select,
    StableHlo.binary main_v81 main_arg19 main_v82 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg20 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S100000x128 ![0, 1] bcast_S1x128_S100000x128_0_1 : (⟨S1x128, .f32⟩ : BufTy).Contents (Elt F) → (⟨S100000x128, .f32⟩ : BufTy).Contents (Elt F)),
    StableHlo.binary main_v82 main_v84 main_v85 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x3C23D70A#32),
    StableHlo.TRef.nullary main_call4.cst (constant S_ .f32 0x00000000#32),
    StableHlo.TRef.unary main_call4.cst main_call4.v0 (broadcastInDim S100000x128 ![] bcast_S_S100000x128),
    StableHlo.TRef.binary (.of main_v85 : StableHlo.TRef sig ⟨S100000x128, .f32⟩) main_call4.v0 main_call4.v1 (cmpf .oge),
    StableHlo.TRef.unary (.of main_cst_10 : StableHlo.TRef sig ⟨S_, .f32⟩) main_call4.v2 id,
    StableHlo.TRef.unary main_call4.v2 main_call4.v3 (broadcastInDim S100000x128 ![] bcast_S_S100000x128),
    StableHlo.TRef.binary main_call4.v3 (.of main_v85 : StableHlo.TRef sig ⟨S100000x128, .f32⟩) main_call4.v4 mulf,
    StableHlo.TRef.ternary main_call4.v1 (.of main_v85 : StableHlo.TRef sig ⟨S100000x128, .f32⟩) main_call4.v4 main_call4.call0.v0 select,
    StableHlo.binary main_v86 main_arg21 main_v87 ((fun l r => Host.dotGeneral dot_S100000x128_S128x3_S100000x3_1_0_0_1_n_n none l r) : (⟨S100000x128, .f32⟩ : BufTy).Contents (Elt F) → (⟨S128x3, .f32⟩ : BufTy).Contents (Elt F) → (⟨S100000x3, .f32⟩ : BufTy).Contents (Elt F)),
    StableHlo.unary main_arg22 main_v88 (broadcastInDim S1x3 ![1] bcast_S3_S1x3_1 : (⟨S3, .f32⟩ : BufTy).Contents (Elt F) → (⟨S1x3, .f32⟩ : BufTy).Contents (Elt F)),
    StableHlo.unary main_v88 main_v89 (broadcastInDim S100000x3 ![0, 1] bcast_S1x3_S100000x3_0_1 : (⟨S1x3, .f32⟩ : BufTy).Contents (Elt F) → (⟨S100000x3, .f32⟩ : BufTy).Contents (Elt F)),
    StableHlo.binary main_v87 main_v89 main_v90 (addf : (⟨S100000x3, .f32⟩ : BufTy).Contents (Elt F) → (⟨S100000x3, .f32⟩ : BufTy).Contents (Elt F) → (⟨S100000x3, .f32⟩ : BufTy).Contents (Elt F)) ]

-- one hundred and thirty-two binds re-associated: the rewrite under the chain recurses once per statement
set_option maxRecDepth 8192 in
set_option maxHeartbeats 4000000 in
/-- The program is that straight line: the two windows in order, the functions' definitions unfolded at their calls,
    sequencing re-associated. -/
theorem main_eq (c : Dev nD) : main (F := F) c = seq ops := by
  simp only [main, main_part0, main_part1, fn_norm.body, fn_leaky_relu.body, fn_where.body, seq, bind_assoc, pure_bind]

/-! ## The line in consecutive pieces, one per stage -/

def seg1 : List (HloOp τ sig (Elt F)) :=
  [ StableHlo.unary main_arg2 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg2 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000 ]

def seg2 : List (HloOp τ sig (Elt F)) :=
  [ StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 100000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg1 main_v9 main_v10 ((fun x i => Host.gather gather_S100000x3_S600000x1_S600000x3_1_0_n_n_0_1_13 x i) : (⟨S100000x3, .f32⟩ : BufTy).Contents (Elt F) → (⟨S600000x1, .i32⟩ : BufTy).Contents (Elt F) → (⟨S600000x3, .f32⟩ : BufTy).Contents (Elt F)) ]

def seg3 : List (HloOp τ sig (Elt F)) :=
  [ StableHlo.nullary main_c_1 (constantI S_ 32 0#32),
    StableHlo.unary main_c_1 main_v11 (broadcastInDim S600000 ![] bcast_S_S600000 : (⟨S_, .i32⟩ : BufTy).Contents (Elt F) → (⟨S600000, .i32⟩ : BufTy).Contents (Elt F)),
    StableHlo.binary main_v3 main_v11 main_v12 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 100000#32),
    StableHlo.unary main_c_2 main_v13 (broadcastInDim S600000 ![] bcast_S_S600000 : (⟨S_, .i32⟩ : BufTy).Contents (Elt F) → (⟨S600000, .i32⟩ : BufTy).Contents (Elt F)),
    StableHlo.binary main_v3 main_v13 main_v14 (addi : (⟨S600000, .i32⟩ : BufTy).Contents (Elt F) → (⟨S600000, .i32⟩ : BufTy).Contents (Elt F) → (⟨S600000, .i32⟩ : BufTy).Contents (Elt F)),
    StableHlo.ternary main_v12 main_v14 main_v3 main_v15 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v15 main_v16 (broadcastInDim S600000x1 ![0] bcast_S600000_S600000x1_0 : (⟨S600000, .i32⟩ : BufTy).Contents (Elt F) → (⟨S600000x1, .i32⟩ : BufTy).Contents (Elt F)),
    StableHlo.binary main_arg1 main_v16 main_v17 ((fun x i => Host.gather gather_S100000x3_S600000x1_S600000x3_1_0_n_n_0_1_13 x i) : (⟨S100000x3, .f32⟩ : BufTy).Contents (Elt F) → (⟨S600000x1, .i32⟩ : BufTy).Contents (Elt F) → (⟨S600000x3, .f32⟩ : BufTy).Contents (Elt F)) ]

def seg4 : List (HloOp τ sig (Elt F)) :=
  [ StableHlo.binary main_v10 main_v17 main_v18 (subf : (⟨S600000x3, .f32⟩ : BufTy).Contents (Elt F) → (⟨S600000x3, .f32⟩ : BufTy).Contents (Elt F) → (⟨S600000x3, .f32⟩ : BufTy).Contents (Elt F)),
    StableHlo.binary main_v18 main_v18 main_v19 (mulf : (⟨S600000x3, .f32⟩ : BufTy).Contents (Elt F) → (⟨S600000x3, .f32⟩ : BufTy).Contents (Elt F) → (⟨S600000x3, .f32⟩ : BufTy).Contents (Elt F)),
    StableHlo.TRef.binary (.of main_v19 : StableHlo.TRef sig ⟨S600000x3, .f32⟩) (.of main_v19 : StableHlo.TRef sig ⟨S600000x3, .f32⟩) main_call0.v0 mulf,
    StableHlo.TRef.nullary main_call0.cst (constant S_ .f32 0x00000000#32),
    StableHlo.TRef.binary main_call0.v0 main_call0.cst main_call0.v1 (fun x v => Host.reduceAdd x v reducesTo_S600000x3_S600000_d1 h_S_),
    StableHlo.TRef.unary main_call0.v1 main_call0.v2 (broadcastInDim S600000x1 ![0] bcast_S600000_S600000x1_0),
    StableHlo.TRef.unary main_call0.v2 main_call0.v3 Host.sqrt ]

def seg5 : List (HloOp τ sig (Elt F)) :=
  [ StableHlo.nullary main_c_3 (constantI S_ 32 0#32),
    StableHlo.unary main_c_3 main_v21 (broadcastInDim S600000 ![] bcast_S_S600000 : (⟨S_, .i32⟩ : BufTy).Contents (Elt F) → (⟨S600000, .i32⟩ : BufTy).Contents (Elt F)),
    StableHlo.binary main_v1 main_v21 main_v22 (cmpi .slt : (⟨S600000, .i32⟩ : BufTy).Contents (Elt F) → (⟨S600000, .i32⟩ : BufTy).Contents (Elt F) → (⟨S600000, .i1⟩ : BufTy).Contents (Elt F)),
    StableHlo.nullary main_c_4 (constantI S_ 32 100000#32),
    StableHlo.unary main_c_4 main_v23 (broadcastInDim S600000 ![] bcast_S_S600000 : (⟨S_, .i32⟩ : BufTy).Contents (Elt F) → (⟨S600000, .i32⟩ : BufTy).Contents (Elt F)),
    StableHlo.binary main_v1 main_v23 main_v24 (addi : (⟨S600000, .i32⟩ : BufTy).Contents (Elt F) → (⟨S600000, .i32⟩ : BufTy).Contents (Elt F) → (⟨S600000, .i32⟩ : BufTy).Contents (Elt F)),
    StableHlo.ternary main_v22 main_v24 main_v1 main_v25 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v25 main_v26 (broadcastInDim S600000x1 ![0] bcast_S600000_S600000x1_0 : (⟨S600000, .i32⟩ : BufTy).Contents (Elt F) → (⟨S600000x1, .i32⟩ : BufTy).Contents (Elt F)),
    StableHlo.binary main_arg0 main_v26 main_v27 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) ]

def seg6 : List (HloOp τ sig (Elt F)) :=
  [ StableHlo.nullary main_c_5 (constantI S_ 32 0#32),
    StableHlo.unary main_c_5 main_v28 (broadcastInDim S600000 ![] bcast_S_S600000 : (⟨S_, .i32⟩ : BufTy).Contents (Elt F) → (⟨S600000, .i32⟩ : BufTy).Contents (Elt F)),
    StableHlo.binary main_v3 main_v28 main_v29 (cmpi .slt : (⟨S600000, .i32⟩ : BufTy).Contents (Elt F) → (⟨S600000, .i32⟩ : BufTy).Contents (Elt F) → (⟨S600000, .i1⟩ : BufTy).Contents (Elt F)),
    StableHlo.nullary main_c_6 (constantI S_ 32 100000#32),
    StableHlo.unary main_c_6 main_v30 (broadcastInDim S600000 ![] bcast_S_S600000 : (⟨S_, .i32⟩ : BufTy).Contents (Elt F) → (⟨S600000, .i32⟩ : BufTy).Contents (Elt F)),
    StableHlo.binary main_v3 main_v30 main_v31 (addi : (⟨S600000, .i32⟩ : BufTy).Contents (Elt F) → (⟨S600000, .i32⟩ : BufTy).Contents (Elt F) → (⟨S600000, .i32⟩ : BufTy).Contents (Elt F)),
    StableHlo.ternary main_v29 main_v31 main_v3 main_v32 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v32 main_v33 (broadcastInDim S600000x1 ![0] bcast_S600000_S600000x1_0 : (⟨S600000, .i32⟩ : BufTy).Contents (Elt F) → (⟨S600000x1, .i32⟩ : BufTy).Contents (Elt F)),
    StableHlo.binary main_arg0 main_v33 main_v34 ((fun x i => Host.gather gather_S100000x128_S600000x1_S600000x128_1_0_n_n_0_1_1128 x i) : (⟨S100000x128, .f32⟩ : BufTy).Contents (Elt F) → (⟨S600000x1, .i32⟩ : BufTy).Contents (Elt F) → (⟨S600000x128, .f32⟩ : BufTy).Contents (Elt F)) ]

def seg7a : List (HloOp τ sig (Elt F)) :=
  [ StableHlo.nary ![main_v27, main_v34, main_v20] main_v35 (fun u => concatenate S600000x257 1 [⟨S600000x128, u 0⟩, ⟨S600000x128, u 1⟩, ⟨S600000x1, u 2⟩] concatenates_S600000x128_S600000x128_S600000x1_S600000x257_d1),
    StableHlo.binary main_v35 main_arg3 main_v36 ((fun l r => Host.dotGeneral dot_S600000x257_S257x128_S600000x128_1_0_0_1_n_n none l r) : (⟨S600000x257, .f32⟩ : BufTy).Contents (Elt F) → (⟨S257x128, .f32⟩ : BufTy).Contents (Elt F) → (⟨S600000x128, .f32⟩ : BufTy).Contents (Elt F)),
    StableHlo.unary main_arg4 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S600000x128 ![0, 1] bcast_S1x128_S600000x128_0_1 : (⟨S1x128, .f32⟩ : BufTy).Contents (Elt F) → (⟨S600000x128, .f32⟩ : BufTy).Contents (Elt F)),
    StableHlo.binary main_v36 main_v38 main_v39 (addf : (⟨S600000x128, .f32⟩ : BufTy).Contents (Elt F) → (⟨S600000x128, .f32⟩ : BufTy).Contents (Elt F) → (⟨S600000x128, .f32⟩ : BufTy).Contents (Elt F)),
    StableHlo.unary main_v39 main_v40 (Host.tanh : (⟨S600000x128, .f32⟩ : BufTy).Contents (Elt F) → (⟨S600000x128, .f32⟩ : BufTy).Contents (Elt F)),
    StableHlo.binary main_v40 main_arg5 main_v41 ((fun l r => Host.dotGeneral dot_S600000x128_S128x128_S600000x128_1_0_0_1_n_n none l r) : (⟨S600000x128, .f32⟩ : BufTy).Contents (Elt F) → (⟨S128x128, .f32⟩ : BufTy).Contents (Elt F) → (⟨S600000x128, .f32⟩ : BufTy).Contents (Elt F)),
    StableHlo.unary main_arg6 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S600000x128 ![0, 1] bcast_S1x128_S600000x128_0_1 : (⟨S1x128, .f32⟩ : BufTy).Contents (Elt F) → (⟨S600000x128, .f32⟩ : BufTy).Contents (Elt F)),
    StableHlo.binary main_v41 main_v43 main_v44 (addf : (⟨S600000x128, .f32⟩ : BufTy).Contents (Elt F) → (⟨S600000x128, .f32⟩ : BufTy).Contents (Elt F) → (⟨S600000x128, .f32⟩ : BufTy).Contents (Elt F)),
    StableHlo.unary main_v44 main_v45 (Host.tanh : (⟨S600000x128, .f32⟩ : BufTy).Contents (Elt F) → (⟨S600000x128, .f32⟩ : BufTy).Contents (Elt F)) ]

def seg7b : List (HloOp τ sig (Elt F)) :=
  [ StableHlo.binary main_v45 main_arg7 main_v46 ((fun l r => Host.dotGeneral dot_S600000x128_S128x1_S600000x1_1_0_0_1_n_n none l r) : (⟨S600000x128, .f32⟩ : BufTy).Contents (Elt F) → (⟨S128x1, .f32⟩ : BufTy).Contents (Elt F) → (⟨S600000x1, .f32⟩ : BufTy).Contents (Elt F)),
    StableHlo.unary main_arg8 main_v47 (broadcastInDim S1x1 ![1] bcast_S1_S1x1_1 : (⟨S1, .f32⟩ : BufTy).Contents (Elt F) → (⟨S1x1, .f32⟩ : BufTy).Contents (Elt F)),
    StableHlo.unary main_v47 main_v48 (broadcastInDim S600000x1 ![0, 1] bcast_S1x1_S600000x1_0_1 : (⟨S1x1, .f32⟩ : BufTy).Contents (Elt F) → (⟨S600000x1, .f32⟩ : BufTy).Contents (Elt F)),
    StableHlo.binary main_v46 main_v48 main_v49 (addf : (⟨S600000x1, .f32⟩ : BufTy).Contents (Elt F) → (⟨S600000x1, .f32⟩ : BufTy).Contents (Elt F) → (⟨S600000x1, .f32⟩ : BufTy).Contents (Elt F)),
    StableHlo.unary main_v49 main_v50 (Host.tanh : (⟨S600000x1, .f32⟩ : BufTy).Contents (Elt F) → (⟨S600000x1, .f32⟩ : BufTy).Contents (Elt F)),
    StableHlo.unary main_v50 main_v51 (broadcastInDim S600000x128 ![0, 1] bcast_S600000x1_S600000x128_0_1 : (⟨S600000x1, .f32⟩ : BufTy).Contents (Elt F) → (⟨S600000x128, .f32⟩ : BufTy).Contents (Elt F)),
    StableHlo.binary main_v51 main_v45 main_v52 (mulf : (⟨S600000x128, .f32⟩ : BufTy).Contents (Elt F) → (⟨S600000x128, .f32⟩ : BufTy).Contents (Elt F) → (⟨S600000x128, .f32⟩ : BufTy).Contents (Elt F)) ]

def seg8 : List (HloOp τ sig (Elt F)) :=
  [ StableHlo.nullary main_cst (constant S_ .f32 0x00000000#32),
    StableHlo.unary main_cst main_v53 (broadcastInDim S100000x128 ![] bcast_S_S100000x128 : (⟨S_, .f32⟩ : BufTy).Contents (Elt F) → (⟨S100000x128, .f32⟩ : BufTy).Contents (Elt F)),
    StableHlo.unary main_v1 main_v54 (broadcastInDim S600000x1 ![0] bcast_S600000_S600000x1_0 : (⟨S600000, .i32⟩ : BufTy).Contents (Elt F) → (⟨S600000x1, .i32⟩ : BufTy).Contents (Elt F)),
    StableHlo.ternary main_v53 main_v54 main_v52 main_v55 ((fun x i u => Host.scatterAdd scatter_S100000x128_S600000x1_S600000x128_1_0_0_1 x i u) : (⟨S100000x128, .f32⟩ : BufTy).Contents (Elt F) → (⟨S600000x1, .i32⟩ : BufTy).Contents (Elt F) → (⟨S600000x128, .f32⟩ : BufTy).Contents (Elt F) → (⟨S100000x128, .f32⟩ : BufTy).Contents (Elt F)) ]

def seg9a : List (HloOp τ sig (Elt F)) :=
  [ StableHlo.binary main_arg0 main_v55 main_v56 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    StableHlo.binary main_v56 main_arg9 main_v57 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg10 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S100000x128 ![0, 1] bcast_S1x128_S100000x128_0_1 : (⟨S1x128, .f32⟩ : BufTy).Contents (Elt F) → (⟨S100000x128, .f32⟩ : BufTy).Contents (Elt F)),
    StableHlo.binary main_v57 main_v59 main_v60 (addf : (⟨S100000x128, .f32⟩ : BufTy).Contents (Elt F) → (⟨S100000x128, .f32⟩ : BufTy).Contents (Elt F) → (⟨S100000x128, .f32⟩ : BufTy).Contents (Elt F)),
    StableHlo.unary main_v60 main_v61 (Host.tanh : (⟨S100000x128, .f32⟩ : BufTy).Contents (Elt F) → (⟨S100000x128, .f32⟩ : BufTy).Contents (Elt F)),
    StableHlo.binary main_v61 main_arg11 main_v62 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg12 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v64 main_v65 (addf : (⟨S100000x128, .f32⟩ : BufTy).Contents (Elt F) → (⟨S100000x128, .f32⟩ : BufTy).Contents (Elt F) → (⟨S100000x128, .f32⟩ : BufTy).Contents (Elt F)),
    StableHlo.binary main_arg0 main_v65 main_v66 (addf : (⟨S100000x128, .f32⟩ : BufTy).Contents (Elt F) → (⟨S100000x128, .f32⟩ : BufTy).Contents (Elt F) → (⟨S100000x128, .f32⟩ : BufTy).Contents (Elt F)),
    StableHlo.binary main_v66 main_arg13 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg14 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S100000x128 ![0, 1] bcast_S1x128_S100000x128_0_1 : (⟨S1x128, .f32⟩ : BufTy).Contents (Elt F) → (⟨S100000x128, .f32⟩ : BufTy).Contents (Elt F)),
    StableHlo.binary main_v67 main_v69 main_v70 (addf : (⟨S100000x128, .f32⟩ : BufTy).Contents (Elt F) → (⟨S100000x128, .f32⟩ : BufTy).Contents (Elt F) → (⟨S100000x128, .f32⟩ : BufTy).Contents (Elt F)) ]

def seg9b : List (HloOp τ sig (Elt F)) :=
  [ StableHlo.nullary main_cst_7 (constant S_ .f32 0x3C23D70A#32),
    StableHlo.TRef.nullary main_call1.cst (constant S_ .f32 0x00000000#32),
    StableHlo.TRef.unary main_call1.cst main_call1.v0 (broadcastInDim S100000x128 ![] bcast_S_S100000x128),
    StableHlo.TRef.binary (.of main_v70 : StableHlo.TRef sig ⟨S100000x128, .f32⟩) main_call1.v0 main_call1.v1 (cmpf .oge),
    StableHlo.TRef.unary (.of main_cst_7 : StableHlo.TRef sig ⟨S_, .f32⟩) main_call1.v2 id,
    StableHlo.TRef.unary main_call1.v2 main_call1.v3 (broadcastInDim S100000x128 ![] bcast_S_S100000x128),
    StableHlo.TRef.binary main_call1.v3 (.of main_v70 : StableHlo.TRef sig ⟨S100000x128, .f32⟩) main_call1.v4 mulf,
    StableHlo.TRef.ternary main_call1.v1 (.of main_v70 : StableHlo.TRef sig ⟨S100000x128, .f32⟩) main_call1.v4 main_call1.call0.v0 select,
    StableHlo.binary main_v71 main_arg15 main_v72 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg16 main_v73 (broadcastInDim S1x128 ![1] bcast_S128_S1x128_1 : (⟨S128, .f32⟩ : BufTy).Contents (Elt F) → (⟨S1x128, .f32⟩ : BufTy).Contents (Elt F)),
    StableHlo.unary main_v73 main_v74 (broadcastInDim S100000x128 ![0, 1] bcast_S1x128_S100000x128_0_1 : (⟨S1x128, .f32⟩ : BufTy).Contents (Elt F) → (⟨S100000x128, .f32⟩ : BufTy).Contents (Elt F)),
    StableHlo.binary main_v72 main_v74 main_v75 (addf : (⟨S100000x128, .f32⟩ : BufTy).Contents (Elt F) → (⟨S100000x128, .f32⟩ : BufTy).Contents (Elt F) → (⟨S100000x128, .f32⟩ : BufTy).Contents (Elt F)) ]

def seg9c : List (HloOp τ sig (Elt F)) :=
  [ StableHlo.nullary main_cst_8 (constant S_ .f32 0x3C23D70A#32),
    StableHlo.TRef.nullary main_call2.cst (constant S_ .f32 0x00000000#32),
    StableHlo.TRef.unary main_call2.cst main_call2.v0 (broadcastInDim S100000x128 ![] bcast_S_S100000x128),
    StableHlo.TRef.binary (.of main_v75 : StableHlo.TRef sig ⟨S100000x128, .f32⟩) main_call2.v0 main_call2.v1 (cmpf .oge),
    StableHlo.TRef.unary (.of main_cst_8 : StableHlo.TRef sig ⟨S_, .f32⟩) main_call2.v2 id,
    StableHlo.TRef.unary main_call2.v2 main_call2.v3 (broadcastInDim S100000x128 ![] bcast_S_S100000x128),
    StableHlo.TRef.binary main_call2.v3 (.of main_v75 : StableHlo.TRef sig ⟨S100000x128, .f32⟩) main_call2.v4 mulf,
    StableHlo.TRef.ternary main_call2.v1 (.of main_v75 : StableHlo.TRef sig ⟨S100000x128, .f32⟩) main_call2.v4 main_call2.call0.v0 select,
    StableHlo.binary main_v76 main_arg17 main_v77 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg18 main_v78 (broadcastInDim S1x128 ![1] bcast_S128_S1x128_1 : (⟨S128, .f32⟩ : BufTy).Contents (Elt F) → (⟨S1x128, .f32⟩ : BufTy).Contents (Elt F)),
    StableHlo.unary main_v78 main_v79 (broadcastInDim S100000x128 ![0, 1] bcast_S1x128_S100000x128_0_1 : (⟨S1x128, .f32⟩ : BufTy).Contents (Elt F) → (⟨S100000x128, .f32⟩ : BufTy).Contents (Elt F)),
    StableHlo.binary main_v77 main_v79 main_v80 (addf : (⟨S100000x128, .f32⟩ : BufTy).Contents (Elt F) → (⟨S100000x128, .f32⟩ : BufTy).Contents (Elt F) → (⟨S100000x128, .f32⟩ : BufTy).Contents (Elt F)) ]

def seg9d : List (HloOp τ sig (Elt F)) :=
  [ StableHlo.nullary main_cst_9 (constant S_ .f32 0x3C23D70A#32),
    StableHlo.TRef.nullary main_call3.cst (constant S_ .f32 0x00000000#32),
    StableHlo.TRef.unary main_call3.cst main_call3.v0 (broadcastInDim S100000x128 ![] bcast_S_S100000x128),
    StableHlo.TRef.binary (.of main_v80 : StableHlo.TRef sig ⟨S100000x128, .f32⟩) main_call3.v0 main_call3.v1 (cmpf .oge),
    StableHlo.TRef.unary (.of main_cst_9 : StableHlo.TRef sig ⟨S_, .f32⟩) main_call3.v2 id,
    StableHlo.TRef.unary main_call3.v2 main_call3.v3 (broadcastInDim S100000x128 ![] bcast_S_S100000x128),
    StableHlo.TRef.binary main_call3.v3 (.of main_v80 : StableHlo.TRef sig ⟨S100000x128, .f32⟩) main_call3.v4 mulf,
    StableHlo.TRef.ternary main_call3.v1 (.of main_v80 : StableHlo.TRef sig ⟨S100000x128, .f32⟩) main_call3.v4 main_call3.call0.v0 select,
    StableHlo.binary main_v81 main_arg19 main_v82 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg20 main_v83 (broadcastInDim S1x128 ![1] bcast_S128_S1x128_1 : (⟨S128, .f32⟩ : BufTy).Contents (Elt F) → (⟨S1x128, .f32⟩ : BufTy).Contents (Elt F)),
    StableHlo.unary main_v83 main_v84 (broadcastInDim S100000x128 ![0, 1] bcast_S1x128_S100000x128_0_1 : (⟨S1x128, .f32⟩ : BufTy).Contents (Elt F) → (⟨S100000x128, .f32⟩ : BufTy).Contents (Elt F)),
    StableHlo.binary main_v82 main_v84 main_v85 (addf : (⟨S100000x128, .f32⟩ : BufTy).Contents (Elt F) → (⟨S100000x128, .f32⟩ : BufTy).Contents (Elt F) → (⟨S100000x128, .f32⟩ : BufTy).Contents (Elt F)) ]

def seg9e : List (HloOp τ sig (Elt F)) :=
  [ StableHlo.nullary main_cst_10 (constant S_ .f32 0x3C23D70A#32),
    StableHlo.TRef.nullary main_call4.cst (constant S_ .f32 0x00000000#32),
    StableHlo.TRef.unary main_call4.cst main_call4.v0 (broadcastInDim S100000x128 ![] bcast_S_S100000x128),
    StableHlo.TRef.binary (.of main_v85 : StableHlo.TRef sig ⟨S100000x128, .f32⟩) main_call4.v0 main_call4.v1 (cmpf .oge),
    StableHlo.TRef.unary (.of main_cst_10 : StableHlo.TRef sig ⟨S_, .f32⟩) main_call4.v2 id,
    StableHlo.TRef.unary main_call4.v2 main_call4.v3 (broadcastInDim S100000x128 ![] bcast_S_S100000x128),
    StableHlo.TRef.binary main_call4.v3 (.of main_v85 : StableHlo.TRef sig ⟨S100000x128, .f32⟩) main_call4.v4 mulf,
    StableHlo.TRef.ternary main_call4.v1 (.of main_v85 : StableHlo.TRef sig ⟨S100000x128, .f32⟩) main_call4.v4 main_call4.call0.v0 select,
    StableHlo.binary main_v86 main_arg21 main_v87 ((fun l r => Host.dotGeneral dot_S100000x128_S128x3_S100000x3_1_0_0_1_n_n none l r) : (⟨S100000x128, .f32⟩ : BufTy).Contents (Elt F) → (⟨S128x3, .f32⟩ : BufTy).Contents (Elt F) → (⟨S100000x3, .f32⟩ : BufTy).Contents (Elt F)),
    StableHlo.unary main_arg22 main_v88 (broadcastInDim S1x3 ![1] bcast_S3_S1x3_1 : (⟨S3, .f32⟩ : BufTy).Contents (Elt F) → (⟨S1x3, .f32⟩ : BufTy).Contents (Elt F)),
    StableHlo.unary main_v88 main_v89 (broadcastInDim S100000x3 ![0, 1] bcast_S1x3_S100000x3_0_1 : (⟨S1x3, .f32⟩ : BufTy).Contents (Elt F) → (⟨S100000x3, .f32⟩ : BufTy).Contents (Elt F)),
    StableHlo.binary main_v87 main_v89 main_v90 (addf : (⟨S100000x3, .f32⟩ : BufTy).Contents (Elt F) → (⟨S100000x3, .f32⟩ : BufTy).Contents (Elt F) → (⟨S100000x3, .f32⟩ : BufTy).Contents (Elt F)) ]

/-- The contents after two lines run one after the other: the second's over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- An operation that writes one buffer writes inside any list of references that names it. -/
local macro "wsub" : term =>
  `(Finset.singleton_subset_iff.mpr (List.mem_toFinset.mpr (List.mem_map.mpr ⟨_, by decide, rfl⟩)))

/-! ## What each piece computes

For any contents `W` of the device's buffers, the piece's last buffer afterwards is the stage's function of what
`W` holds at the buffers the piece reads: the fold over the piece, each operation's result at its own buffer. The
primed forms are the same statements with the buffer left out of the rewriting index. -/

theorem seg1_v1 (W : Valuation τ sig (Elt F)) :
    after seg1 W (main_v1 : DevRef τ sig) = idxS (W (main_arg2 : DevRef τ sig)) := by
  unfold seg1 idxS
  after_results
  all_goals rfl
theorem seg1_v1' (W : Valuation τ sig (Elt F)) :
    after seg1 W (no_index (main_v1 : DevRef τ sig)) = idxS (W (main_arg2 : DevRef τ sig)) := seg1_v1 W

theorem seg1_v3 (W : Valuation τ sig (Elt F)) :
    after seg1 W (main_v3 : DevRef τ sig) = idxE (W (main_arg2 : DevRef τ sig)) := by
  unfold seg1 idxE
  after_results
  all_goals rfl
theorem seg1_v3' (W : Valuation τ sig (Elt F)) :
    after seg1 W (no_index (main_v3 : DevRef τ sig)) = idxE (W (main_arg2 : DevRef τ sig)) := seg1_v3 W

theorem seg2_v10 (W : Valuation τ sig (Elt F)) :
    after seg2 W (main_v10 : DevRef τ sig) = Host.gather gather_S100000x3_S600000x1_S600000x3_1_0_n_n_0_1_13 (W (main_arg1 : DevRef τ sig)) (wrapIdx (W (main_v1 : DevRef τ sig))) := by
  unfold seg2 wrapIdx
  after_results
  all_goals rfl
theorem seg2_v10' (W : Valuation τ sig (Elt F)) :
    after seg2 W (no_index (main_v10 : DevRef τ sig)) = Host.gather gather_S100000x3_S600000x1_S600000x3_1_0_n_n_0_1_13 (W (main_arg1 : DevRef τ sig)) (wrapIdx (W (main_v1 : DevRef τ sig))) := seg2_v10 W

theorem seg3_v17 (W : Valuation τ sig (Elt F)) :
    after seg3 W (main_v17 : DevRef τ sig) = Host.gather gather_S100000x3_S600000x1_S600000x3_1_0_n_n_0_1_13 (W (main_arg1 : DevRef τ sig)) (wrapIdx (W (main_v3 : DevRef τ sig))) := by
  unfold seg3 wrapIdx
  after_results
  all_goals rfl
theorem seg3_v17' (W : Valuation τ sig (Elt F)) :
    after seg3 W (no_index (main_v17 : DevRef τ sig)) = Host.gather gather_S100000x3_S600000x1_S600000x3_1_0_n_n_0_1_13 (W (main_arg1 : DevRef τ sig)) (wrapIdx (W (main_v3 : DevRef τ sig))) := seg3_v17 W

theorem seg4_v20 (W : Valuation τ sig (Elt F)) :
    after seg4 W (main_v20 : DevRef τ sig) = rowNorm (mulf (subf (W (main_v10 : DevRef τ sig)) (W (main_v17 : DevRef τ sig))) (subf (W (main_v10 : DevRef τ sig)) (W (main_v17 : DevRef τ sig)))) := by
  unfold seg4 rowNorm
  after_results
  all_goals rfl
theorem seg4_v20' (W : Valuation τ sig (Elt F)) :
    after seg4 W (no_index (main_v20 : DevRef τ sig)) = rowNorm (mulf (subf (W (main_v10 : DevRef τ sig)) (W (main_v17 : DevRef τ sig))) (subf (W (main_v10 : DevRef τ sig)) (W (main_v17 : DevRef τ sig)))) := seg4_v20 W

theorem seg5_v27 (W : Valuation τ sig (Elt F)) :
    after seg5 W (main_v27 : DevRef τ sig) = Host.gather gather_S100000x128_S600000x1_S600000x128_1_0_n_n_0_1_1128 (W (main_arg0 : DevRef τ sig)) (wrapIdx (W (main_v1 : DevRef τ sig))) := by
  unfold seg5 wrapIdx
  after_results
  all_goals rfl
theorem seg5_v27' (W : Valuation τ sig (Elt F)) :
    after seg5 W (no_index (main_v27 : DevRef τ sig)) = Host.gather gather_S100000x128_S600000x1_S600000x128_1_0_n_n_0_1_1128 (W (main_arg0 : DevRef τ sig)) (wrapIdx (W (main_v1 : DevRef τ sig))) := seg5_v27 W

theorem seg6_v34 (W : Valuation τ sig (Elt F)) :
    after seg6 W (main_v34 : DevRef τ sig) = Host.gather gather_S100000x128_S600000x1_S600000x128_1_0_n_n_0_1_1128 (W (main_arg0 : DevRef τ sig)) (wrapIdx (W (main_v3 : DevRef τ sig))) := by
  unfold seg6 wrapIdx
  after_results
  all_goals rfl
theorem seg6_v34' (W : Valuation τ sig (Elt F)) :
    after seg6 W (no_index (main_v34 : DevRef τ sig)) = Host.gather gather_S100000x128_S600000x1_S600000x128_1_0_n_n_0_1_1128 (W (main_arg0 : DevRef τ sig)) (wrapIdx (W (main_v3 : DevRef τ sig))) := seg6_v34 W

theorem seg7a_v45 (W : Valuation τ sig (Elt F)) :
    after seg7a W (main_v45 : DevRef τ sig) = edgeH (W (main_v27 : DevRef τ sig)) (W (main_v34 : DevRef τ sig)) (W (main_v20 : DevRef τ sig)) (W (main_arg3 : DevRef τ sig)) (W (main_arg4 : DevRef τ sig)) (W (main_arg5 : DevRef τ sig)) (W (main_arg6 : DevRef τ sig)) := by
  unfold seg7a edgeH
  after_results
  all_goals rfl
theorem seg7a_v45' (W : Valuation τ sig (Elt F)) :
    after seg7a W (no_index (main_v45 : DevRef τ sig)) = edgeH (W (main_v27 : DevRef τ sig)) (W (main_v34 : DevRef τ sig)) (W (main_v20 : DevRef τ sig)) (W (main_arg3 : DevRef τ sig)) (W (main_arg4 : DevRef τ sig)) (W (main_arg5 : DevRef τ sig)) (W (main_arg6 : DevRef τ sig)) := seg7a_v45 W

theorem seg7b_v52 (W : Valuation τ sig (Elt F)) :
    after seg7b W (main_v52 : DevRef τ sig) = edgeOut (W (main_v45 : DevRef τ sig)) (W (main_arg7 : DevRef τ sig)) (W (main_arg8 : DevRef τ sig)) := by
  unfold seg7b edgeOut
  after_results
  all_goals rfl
theorem seg7b_v52' (W : Valuation τ sig (Elt F)) :
    after seg7b W (no_index (main_v52 : DevRef τ sig)) = edgeOut (W (main_v45 : DevRef τ sig)) (W (main_arg7 : DevRef τ sig)) (W (main_arg8 : DevRef τ sig)) := seg7b_v52 W

theorem seg8_v55 (W : Valuation τ sig (Elt F)) :
    after seg8 W (main_v55 : DevRef τ sig) = aggAt (W (main_v1 : DevRef τ sig)) (W (main_v52 : DevRef τ sig)) := by
  unfold seg8 aggAt
  after_results
  all_goals rfl
theorem seg8_v55' (W : Valuation τ sig (Elt F)) :
    after seg8 W (no_index (main_v55 : DevRef τ sig)) = aggAt (W (main_v1 : DevRef τ sig)) (W (main_v52 : DevRef τ sig)) := seg8_v55 W

theorem seg9a_v70 (W : Valuation τ sig (Elt F)) :
    after seg9a W (main_v70 : DevRef τ sig) = nodeIn (W (main_arg0 : DevRef τ sig)) (W (main_v55 : DevRef τ sig)) (W (main_arg9 : DevRef τ sig)) (W (main_arg10 : DevRef τ sig)) (W (main_arg11 : DevRef τ sig)) (W (main_arg12 : DevRef τ sig)) (W (main_arg13 : DevRef τ sig)) (W (main_arg14 : DevRef τ sig)) := by
  unfold seg9a nodeIn
  after_results_simp
  all_goals rfl
theorem seg9a_v70' (W : Valuation τ sig (Elt F)) :
    after seg9a W (no_index (main_v70 : DevRef τ sig)) = nodeIn (W (main_arg0 : DevRef τ sig)) (W (main_v55 : DevRef τ sig)) (W (main_arg9 : DevRef τ sig)) (W (main_arg10 : DevRef τ sig)) (W (main_arg11 : DevRef τ sig)) (W (main_arg12 : DevRef τ sig)) (W (main_arg13 : DevRef τ sig)) (W (main_arg14 : DevRef τ sig)) := seg9a_v70 W

theorem seg9b_v75 (W : Valuation τ sig (Elt F)) :
    after seg9b W (main_v75 : DevRef τ sig) = layer (W (main_v70 : DevRef τ sig)) (W (main_arg15 : DevRef τ sig)) (W (main_arg16 : DevRef τ sig)) := by
  unfold seg9b layer lrelu
  after_results
  all_goals rfl
theorem seg9b_v75' (W : Valuation τ sig (Elt F)) :
    after seg9b W (no_index (main_v75 : DevRef τ sig)) = layer (W (main_v70 : DevRef τ sig)) (W (main_arg15 : DevRef τ sig)) (W (main_arg16 : DevRef τ sig)) := seg9b_v75 W

theorem seg9c_v80 (W : Valuation τ sig (Elt F)) :
    after seg9c W (main_v80 : DevRef τ sig) = layer (W (main_v75 : DevRef τ sig)) (W (main_arg17 : DevRef τ sig)) (W (main_arg18 : DevRef τ sig)) := by
  unfold seg9c layer lrelu
  after_results
  all_goals rfl
theorem seg9c_v80' (W : Valuation τ sig (Elt F)) :
    after seg9c W (no_index (main_v80 : DevRef τ sig)) = layer (W (main_v75 : DevRef τ sig)) (W (main_arg17 : DevRef τ sig)) (W (main_arg18 : DevRef τ sig)) := seg9c_v80 W

theorem seg9d_v85 (W : Valuation τ sig (Elt F)) :
    after seg9d W (main_v85 : DevRef τ sig) = layer (W (main_v80 : DevRef τ sig)) (W (main_arg19 : DevRef τ sig)) (W (main_arg20 : DevRef τ sig)) := by
  unfold seg9d layer lrelu
  after_results
  all_goals rfl
theorem seg9d_v85' (W : Valuation τ sig (Elt F)) :
    after seg9d W (no_index (main_v85 : DevRef τ sig)) = layer (W (main_v80 : DevRef τ sig)) (W (main_arg19 : DevRef τ sig)) (W (main_arg20 : DevRef τ sig)) := seg9d_v85 W

theorem seg9e_v90 (W : Valuation τ sig (Elt F)) :
    after seg9e W (main_v90 : DevRef τ sig) = layerOut (W (main_v85 : DevRef τ sig)) (W (main_arg21 : DevRef τ sig)) (W (main_arg22 : DevRef τ sig)) := by
  unfold seg9e layerOut lrelu
  after_results
  all_goals rfl
theorem seg9e_v90' (W : Valuation τ sig (Elt F)) :
    after seg9e W (no_index (main_v90 : DevRef τ sig)) = layerOut (W (main_v85 : DevRef τ sig)) (W (main_arg21 : DevRef τ sig)) (W (main_arg22 : DevRef τ sig)) := seg9e_v90 W

/-! ## What each piece leaves alone

A buffer that is not among the ones the piece's operations write keeps its contents. -/

theorem seg1_frame (W : Valuation τ sig (Elt F)) {r : Ref sig .tc}
    (hr : r ∉ ([main_v0, main_v1, main_v2, main_v3] : List (Ref sig .tc))) :
    after seg1 W (no_index (Proc.devRef .tc r)) = W (Proc.devRef .tc r) :=
  after_of_writes_sub seg1 W (W := [main_v0, main_v1, main_v2, main_v3])
    ⟨wsub, wsub, wsub, wsub⟩ hr

theorem seg2_frame (W : Valuation τ sig (Elt F)) {r : Ref sig .tc}
    (hr : r ∉ ([main_c, main_v4, main_v5, main_c_0, main_v6, main_v7, main_v8, main_v9, main_v10] : List (Ref sig .tc))) :
    after seg2 W (no_index (Proc.devRef .tc r)) = W (Proc.devRef .tc r) :=
  after_of_writes_sub seg2 W (W := [main_c, main_v4, main_v5, main_c_0, main_v6, main_v7, main_v8, main_v9, main_v10])
    ⟨wsub, wsub, wsub, wsub, wsub, wsub, wsub, wsub, wsub⟩ hr

theorem seg3_frame (W : Valuation τ sig (Elt F)) {r : Ref sig .tc}
    (hr : r ∉ ([main_c_1, main_v11, main_v12, main_c_2, main_v13, main_v14, main_v15, main_v16, main_v17] : List (Ref sig .tc))) :
    after seg3 W (no_index (Proc.devRef .tc r)) = W (Proc.devRef .tc r) :=
  after_of_writes_sub seg3 W (W := [main_c_1, main_v11, main_v12, main_c_2, main_v13, main_v14, main_v15, main_v16, main_v17])
    ⟨wsub, wsub, wsub, wsub, wsub, wsub, wsub, wsub, wsub⟩ hr

theorem seg4_frame (W : Valuation τ sig (Elt F)) {r : Ref sig .tc}
    (hr : r ∉ ([main_v18, main_v19, main_call0.v0.ref, main_call0.cst.ref, main_call0.v1.ref, main_call0.v2.ref, main_call0.v3.ref] : List (Ref sig .tc))) :
    after seg4 W (no_index (Proc.devRef .tc r)) = W (Proc.devRef .tc r) :=
  after_of_writes_sub seg4 W (W := [main_v18, main_v19, main_call0.v0.ref, main_call0.cst.ref, main_call0.v1.ref, main_call0.v2.ref, main_call0.v3.ref])
    ⟨wsub, wsub, wsub, wsub, wsub, wsub, wsub⟩ hr

theorem seg5_frame (W : Valuation τ sig (Elt F)) {r : Ref sig .tc}
    (hr : r ∉ ([main_c_3, main_v21, main_v22, main_c_4, main_v23, main_v24, main_v25, main_v26, main_v27] : List (Ref sig .tc))) :
    after seg5 W (no_index (Proc.devRef .tc r)) = W (Proc.devRef .tc r) :=
  after_of_writes_sub seg5 W (W := [main_c_3, main_v21, main_v22, main_c_4, main_v23, main_v24, main_v25, main_v26, main_v27])
    ⟨wsub, wsub, wsub, wsub, wsub, wsub, wsub, wsub, wsub⟩ hr

theorem seg6_frame (W : Valuation τ sig (Elt F)) {r : Ref sig .tc}
    (hr : r ∉ ([main_c_5, main_v28, main_v29, main_c_6, main_v30, main_v31, main_v32, main_v33, main_v34] : List (Ref sig .tc))) :
    after seg6 W (no_index (Proc.devRef .tc r)) = W (Proc.devRef .tc r) :=
  after_of_writes_sub seg6 W (W := [main_c_5, main_v28, main_v29, main_c_6, main_v30, main_v31, main_v32, main_v33, main_v34])
    ⟨wsub, wsub, wsub, wsub, wsub, wsub, wsub, wsub, wsub⟩ hr

theorem seg7a_frame (W : Valuation τ sig (Elt F)) {r : Ref sig .tc}
    (hr : r ∉ ([main_v35, main_v36, main_v37, main_v38, main_v39, main_v40, main_v41, main_v42, main_v43, main_v44, main_v45] : List (Ref sig .tc))) :
    after seg7a W (no_index (Proc.devRef .tc r)) = W (Proc.devRef .tc r) :=
  after_of_writes_sub seg7a W (W := [main_v35, main_v36, main_v37, main_v38, main_v39, main_v40, main_v41, main_v42, main_v43, main_v44, main_v45])
    ⟨wsub, wsub, wsub, wsub, wsub, wsub, wsub, wsub, wsub, wsub, wsub⟩ hr

theorem seg7b_frame (W : Valuation τ sig (Elt F)) {r : Ref sig .tc}
    (hr : r ∉ ([main_v46, main_v47, main_v48, main_v49, main_v50, main_v51, main_v52] : List (Ref sig .tc))) :
    after seg7b W (no_index (Proc.devRef .tc r)) = W (Proc.devRef .tc r) :=
  after_of_writes_sub seg7b W (W := [main_v46, main_v47, main_v48, main_v49, main_v50, main_v51, main_v52])
    ⟨wsub, wsub, wsub, wsub, wsub, wsub, wsub⟩ hr

theorem seg8_frame (W : Valuation τ sig (Elt F)) {r : Ref sig .tc}
    (hr : r ∉ ([main_cst, main_v53, main_v54, main_v55] : List (Ref sig .tc))) :
    after seg8 W (no_index (Proc.devRef .tc r)) = W (Proc.devRef .tc r) :=
  after_of_writes_sub seg8 W (W := [main_cst, main_v53, main_v54, main_v55])
    ⟨wsub, wsub, wsub, wsub⟩ hr

theorem seg9a_frame (W : Valuation τ sig (Elt F)) {r : Ref sig .tc}
    (hr : r ∉ ([main_v56, main_v57, main_v58, main_v59, main_v60, main_v61, main_v62, main_v63, main_v64, main_v65, main_v66, main_v67, main_v68, main_v69, main_v70] : List (Ref sig .tc))) :
    after seg9a W (no_index (Proc.devRef .tc r)) = W (Proc.devRef .tc r) :=
  after_of_writes_sub seg9a W (W := [main_v56, main_v57, main_v58, main_v59, main_v60, main_v61, main_v62, main_v63, main_v64, main_v65, main_v66, main_v67, main_v68, main_v69, main_v70])
    ⟨wsub, wsub, wsub, wsub, wsub, wsub, wsub, wsub, wsub, wsub, wsub, wsub, wsub, wsub, wsub⟩ hr

theorem seg9b_frame (W : Valuation τ sig (Elt F)) {r : Ref sig .tc}
    (hr : r ∉ ([main_cst_7, main_call1.cst.ref, main_call1.v0.ref, main_call1.v1.ref, main_call1.v2.ref, main_call1.v3.ref, main_call1.v4.ref, main_call1.call0.v0.ref, main_v72, main_v73, main_v74, main_v75] : List (Ref sig .tc))) :
    after seg9b W (no_index (Proc.devRef .tc r)) = W (Proc.devRef .tc r) :=
  after_of_writes_sub seg9b W (W := [main_cst_7, main_call1.cst.ref, main_call1.v0.ref, main_call1.v1.ref, main_call1.v2.ref, main_call1.v3.ref, main_call1.v4.ref, main_call1.call0.v0.ref, main_v72, main_v73, main_v74, main_v75])
    ⟨wsub, wsub, wsub, wsub, wsub, wsub, wsub, wsub, wsub, wsub, wsub, wsub⟩ hr

theorem seg9c_frame (W : Valuation τ sig (Elt F)) {r : Ref sig .tc}
    (hr : r ∉ ([main_cst_8, main_call2.cst.ref, main_call2.v0.ref, main_call2.v1.ref, main_call2.v2.ref, main_call2.v3.ref, main_call2.v4.ref, main_call2.call0.v0.ref, main_v77, main_v78, main_v79, main_v80] : List (Ref sig .tc))) :
    after seg9c W (no_index (Proc.devRef .tc r)) = W (Proc.devRef .tc r) :=
  after_of_writes_sub seg9c W (W := [main_cst_8, main_call2.cst.ref, main_call2.v0.ref, main_call2.v1.ref, main_call2.v2.ref, main_call2.v3.ref, main_call2.v4.ref, main_call2.call0.v0.ref, main_v77, main_v78, main_v79, main_v80])
    ⟨wsub, wsub, wsub, wsub, wsub, wsub, wsub, wsub, wsub, wsub, wsub, wsub⟩ hr

theorem seg9d_frame (W : Valuation τ sig (Elt F)) {r : Ref sig .tc}
    (hr : r ∉ ([main_cst_9, main_call3.cst.ref, main_call3.v0.ref, main_call3.v1.ref, main_call3.v2.ref, main_call3.v3.ref, main_call3.v4.ref, main_call3.call0.v0.ref, main_v82, main_v83, main_v84, main_v85] : List (Ref sig .tc))) :
    after seg9d W (no_index (Proc.devRef .tc r)) = W (Proc.devRef .tc r) :=
  after_of_writes_sub seg9d W (W := [main_cst_9, main_call3.cst.ref, main_call3.v0.ref, main_call3.v1.ref, main_call3.v2.ref, main_call3.v3.ref, main_call3.v4.ref, main_call3.call0.v0.ref, main_v82, main_v83, main_v84, main_v85])
    ⟨wsub, wsub, wsub, wsub, wsub, wsub, wsub, wsub, wsub, wsub, wsub, wsub⟩ hr

theorem seg9e_frame (W : Valuation τ sig (Elt F)) {r : Ref sig .tc}
    (hr : r ∉ ([main_cst_10, main_call4.cst.ref, main_call4.v0.ref, main_call4.v1.ref, main_call4.v2.ref, main_call4.v3.ref, main_call4.v4.ref, main_call4.call0.v0.ref, main_v87, main_v88, main_v89, main_v90] : List (Ref sig .tc))) :
    after seg9e W (no_index (Proc.devRef .tc r)) = W (Proc.devRef .tc r) :=
  after_of_writes_sub seg9e W (W := [main_cst_10, main_call4.cst.ref, main_call4.v0.ref, main_call4.v1.ref, main_call4.v2.ref, main_call4.v3.ref, main_call4.v4.ref, main_call4.call0.v0.ref, main_v87, main_v88, main_v89, main_v90])
    ⟨wsub, wsub, wsub, wsub, wsub, wsub, wsub, wsub, wsub, wsub, wsub, wsub⟩ hr

/-- The whole line is the stages' lines one after the other. -/
theorem ops_eq : (ops : List (HloOp τ sig (Elt F))) = seg1 ++ (seg2 ++ (seg3 ++ (seg4 ++ (seg5 ++ (seg6 ++ (seg7a ++ (seg7b ++ (seg8 ++ (seg9a ++ (seg9b ++ (seg9c ++ (seg9d ++ (seg9e))))))))))))) := rfl

/-- The result buffer after the whole line: the stages composed, over the arguments' contents. -/
theorem out_eq (V : Valuation τ sig (Elt F)) :
    after ops V (main_v90 : DevRef τ sig) = result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) := by
  rw [ops_eq]
  simp (disch := decide) only [after_app, seg1_v1', seg1_v3', seg2_v10', seg3_v17', seg4_v20', seg5_v27', seg6_v34', seg7a_v45', seg7b_v52', seg8_v55', seg9a_v70', seg9b_v75', seg9c_v80', seg9d_v85', seg9e_v90',
    seg1_frame, seg2_frame, seg3_frame, seg4_frame, seg5_frame, seg6_frame, seg7a_frame, seg7b_frame, seg8_frame, seg9a_frame, seg9b_frame, seg9c_frame, seg9d_frame, seg9e_frame]
  unfold result node agg edge xs xe dist relPos
  rfl

theorem arg0_eq (V : Valuation τ sig (Elt F)) : after ops V (main_arg0 : DevRef τ sig) = V (main_arg0 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg1_eq (V : Valuation τ sig (Elt F)) : after ops V (main_arg1 : DevRef τ sig) = V (main_arg1 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg2_eq (V : Valuation τ sig (Elt F)) : after ops V (main_arg2 : DevRef τ sig) = V (main_arg2 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg3_eq (V : Valuation τ sig (Elt F)) : after ops V (main_arg3 : DevRef τ sig) = V (main_arg3 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg4_eq (V : Valuation τ sig (Elt F)) : after ops V (main_arg4 : DevRef τ sig) = V (main_arg4 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg5_eq (V : Valuation τ sig (Elt F)) : after ops V (main_arg5 : DevRef τ sig) = V (main_arg5 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg6_eq (V : Valuation τ sig (Elt F)) : after ops V (main_arg6 : DevRef τ sig) = V (main_arg6 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg7_eq (V : Valuation τ sig (Elt F)) : after ops V (main_arg7 : DevRef τ sig) = V (main_arg7 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg8_eq (V : Valuation τ sig (Elt F)) : after ops V (main_arg8 : DevRef τ sig) = V (main_arg8 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg9_eq (V : Valuation τ sig (Elt F)) : after ops V (main_arg9 : DevRef τ sig) = V (main_arg9 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg10_eq (V : Valuation τ sig (Elt F)) : after ops V (main_arg10 : DevRef τ sig) = V (main_arg10 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg11_eq (V : Valuation τ sig (Elt F)) : after ops V (main_arg11 : DevRef τ sig) = V (main_arg11 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg12_eq (V : Valuation τ sig (Elt F)) : after ops V (main_arg12 : DevRef τ sig) = V (main_arg12 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg13_eq (V : Valuation τ sig (Elt F)) : after ops V (main_arg13 : DevRef τ sig) = V (main_arg13 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg14_eq (V : Valuation τ sig (Elt F)) : after ops V (main_arg14 : DevRef τ sig) = V (main_arg14 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg15_eq (V : Valuation τ sig (Elt F)) : after ops V (main_arg15 : DevRef τ sig) = V (main_arg15 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg16_eq (V : Valuation τ sig (Elt F)) : after ops V (main_arg16 : DevRef τ sig) = V (main_arg16 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg17_eq (V : Valuation τ sig (Elt F)) : after ops V (main_arg17 : DevRef τ sig) = V (main_arg17 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg18_eq (V : Valuation τ sig (Elt F)) : after ops V (main_arg18 : DevRef τ sig) = V (main_arg18 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg19_eq (V : Valuation τ sig (Elt F)) : after ops V (main_arg19 : DevRef τ sig) = V (main_arg19 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg20_eq (V : Valuation τ sig (Elt F)) : after ops V (main_arg20 : DevRef τ sig) = V (main_arg20 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg21_eq (V : Valuation τ sig (Elt F)) : after ops V (main_arg21 : DevRef τ sig) = V (main_arg21 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem arg22_eq (V : Valuation τ sig (Elt F)) : after ops V (main_arg22 : DevRef τ sig) = V (main_arg22 : DevRef τ sig) := by
  rw [ops_eq]
  simp (disch := decide) only [after_app, seg1_frame, seg2_frame, seg3_frame, seg4_frame, seg5_frame, seg6_frame, seg7a_frame, seg7b_frame, seg8_frame, seg9a_frame, seg9b_frame, seg9c_frame, seg9d_frame, seg9e_frame]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., binary_bufs_sub ..,
    binary_bufs_sub .., nullary_bufs_sub .., binary_bufs_sub .., unary_bufs_sub .., unary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nary_bufs_sub ..,
    binary_bufs_sub .., unary_bufs_sub .., unary_bufs_sub .., binary_bufs_sub .., unary_bufs_sub .., binary_bufs_sub ..,
    unary_bufs_sub .., unary_bufs_sub .., binary_bufs_sub .., unary_bufs_sub .., binary_bufs_sub .., unary_bufs_sub ..,
    unary_bufs_sub .., binary_bufs_sub .., unary_bufs_sub .., unary_bufs_sub .., binary_bufs_sub .., nullary_bufs_sub ..,
    unary_bufs_sub .., unary_bufs_sub .., ternary_bufs_sub .., binary_bufs_sub .., binary_bufs_sub .., unary_bufs_sub ..,
    unary_bufs_sub .., binary_bufs_sub .., unary_bufs_sub .., binary_bufs_sub .., unary_bufs_sub .., unary_bufs_sub ..,
    binary_bufs_sub .., binary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub .., binary_bufs_sub .., unary_bufs_sub .., unary_bufs_sub .., binary_bufs_sub ..⟩

/-- On every device, for any float values, from any memory with zero counters: every weakly fair execution of the
    program terminates with the result buffer at the stages' composition over the arguments' launch contents, and the
    arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v90) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨(h c main_v90).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _),
      (h c main_arg15).trans (arg15_eq _),
      (h c main_arg16).trans (arg16_eq _),
      (h c main_arg17).trans (arg17_eq _),
      (h c main_arg18).trans (arg18_eq _),
      (h c main_arg19).trans (arg19_eq _),
      (h c main_arg20).trans (arg20_eq _),
      (h c main_arg21).trans (arg21_eq _),
      (h c main_arg22).trans (arg22_eq _)⟩)
    (run_seq scopedRefs_eq scopedSems_eq defs main (fun _ => ops) main_eq (fun _ => ops_sub) m ρ)

end Cert.ReferenceIdeal.RefRun

end
-- ==== Proof.NodeHost.lean ====
import proofs.«155820_j38044820308174_2_alg».proof.Proof.RefStages
import proofs.«155820_j38044820308174_2_alg».proof.Proof.NodeSpec

/-!
# The reference's node network is the node stage

The reference computes, on all 100000 rows at once, the node stage of the features and the summed messages: each dense
layer is a general product plus the bias lifted to a row and then repeated down the rows, the rectifier is spelled
with the test `x ≥ 0`, and the hyperbolic tangent is the exact one.
-/

noncomputable section

namespace Cert.ReferenceIdeal.NodeHost

open Idealize.ShloMosaic Idealize.ShloMosaic.ValueIdx
open Cert.ReferenceIdeal Cert.ReferenceIdeal.Facts₀ Cert.ReferenceIdeal.Facts Cert.EGC

/-- The host's hyperbolic tangent is the exact one. -/
theorem host_tanh {s : Shape} (x : FVec Ideal s .f32) : Host.tanh x = tanh x := rfl

/-- The reference's rectifier call, at the slope it is called with, is the rectifier on every entry. -/
theorem lrelu_eq (x : (⟨S100000x128, .f32⟩ : BufTy).Contents (Elt Ideal)) :
    RefStages.lrelu (F := Ideal) x (constant (F := Ideal) S_ .f32 0x3C23D70A#32) = leakyV x :=
  leaky_host bcast_S_S100000x128 x

/-- The reference's node network, from the features, the summed messages and the fourteen weight arrays, is the
    node stage at 100000 rows. -/
theorem node_host (X M : (⟨S100000x128, .f32⟩ : BufTy).Contents (Elt Ideal))
    (a9 : (⟨S256x128, .f32⟩ : BufTy).Contents (Elt Ideal)) (a10 : (⟨S128, .f32⟩ : BufTy).Contents (Elt Ideal))
    (a11 : (⟨S128x128, .f32⟩ : BufTy).Contents (Elt Ideal)) (a12 : (⟨S128, .f32⟩ : BufTy).Contents (Elt Ideal))
    (a13 : (⟨S128x128, .f32⟩ : BufTy).Contents (Elt Ideal)) (a14 : (⟨S128, .f32⟩ : BufTy).Contents (Elt Ideal))
    (a15 : (⟨S128x128, .f32⟩ : BufTy).Contents (Elt Ideal)) (a16 : (⟨S128, .f32⟩ : BufTy).Contents (Elt Ideal))
    (a17 : (⟨S128x128, .f32⟩ : BufTy).Contents (Elt Ideal)) (a18 : (⟨S128, .f32⟩ : BufTy).Contents (Elt Ideal))
    (a19 : (⟨S128x128, .f32⟩ : BufTy).Contents (Elt Ideal)) (a20 : (⟨S128, .f32⟩ : BufTy).Contents (Elt Ideal))
    (a21 : (⟨S128x3, .f32⟩ : BufTy).Contents (Elt Ideal)) (a22 : (⟨S3, .f32⟩ : BufTy).Contents (Elt Ideal)) :
    RefStages.node (F := Ideal) X M a9 a10 a11 a12 a13 a14 a15 a16 a17 a18 a19 a20 a21 a22
      = nodeF (A := 100000) concatenates_S100000x128_S100000x128_S100000x256_d1 X M a9 a10 a11 a12 a13 a14 a15 a16 a17 a18 a19 a20 a21 a22 := by
  unfold RefStages.node RefStages.layerOut RefStages.layer RefStages.nodeIn nodeF hid nodeXr nodeT1 cat2
  simp only [lrelu_eq, host_tanh,
    lin_host (d := dot_S100000x256_S256x128_S100000x128_1_0_0_1_n_n) rfl,
    lin_host (d := dot_S100000x128_S128x128_S100000x128_1_0_0_1_n_n) rfl,
    lin_host (d := dot_S100000x128_S128x3_S100000x3_1_0_0_1_n_n) rfl]

end Cert.ReferenceIdeal.NodeHost

end
-- ==== Proof.EdgeHost.lean ====
import proofs.«155820_j38044820308174_2_alg».proof.Proof.RefStages
import proofs.«155820_j38044820308174_2_alg».proof.Proof.EdgeSpec

/-!
# The reference's edge network is the edge stage

The reference concatenates, per edge, the two endpoints' feature rows and the distance to a row of 257 entries and
multiplies it by the whole `[257, 128]` weight matrix. A sum over 257 indices is the sum over the first 128, plus the
sum over the next 128, plus the last term; the three ranges of the concatenated row are the three inputs and the three
row ranges of the matrix its three slices. The later layers are dense layers in the host spelling, and the gate, a
column, is repeated along the rows before the product.
-/

noncomputable section

namespace Cert.ReferenceIdeal.EdgeHost

open Idealize.ShloMosaic Idealize.ShloMosaic.ValueIdx
open Cert.ReferenceIdeal Cert.ReferenceIdeal.Facts₀ Cert.ReferenceIdeal.Facts Cert.EGC

/-- A sum over 257 indices: the first 128, the next 128, the last one. -/
theorem sum_257 (f : Fin 257 → EReal) :
    ∑ k, f k = ((∑ k : Fin 128, f ⟨k.val, by have := k.isLt; omega⟩)
        + ∑ k : Fin 128, f ⟨128 + k.val, by have := k.isLt; omega⟩) + f ⟨256, by omega⟩ := by
  rw [show (∑ k, f k) = ∑ k : Fin (256 + 1), f k from rfl, Fin.sum_univ_castSucc]
  rw [show (∑ k : Fin 256, f k.castSucc) = ∑ k : Fin (128 + 128), f (Fin.castSucc k) from rfl, Fin.sum_univ_add]
  rfl

variable {A : Nat}

section Cat
variable (hc : Shape.Concatenates [(⟨2, ![A, 128]⟩ : Shape), ⟨2, ![A, 128]⟩, ⟨2, ![A, 1]⟩] ⟨2, ![A, 257]⟩ 1)
  (Xs Xe : FVec Ideal ⟨2, ![A, 128]⟩ .f32) (D : FVec Ideal ⟨2, ![A, 1]⟩ .f32)

/-- The concatenated row's first 128 entries are the first input's row. -/
theorem cat3_fst (p : Fin A) (k : Fin 128) :
    concatenate ⟨2, ![A, 257]⟩ 1 [⟨⟨2, ![A, 128]⟩, Xs⟩, ⟨⟨2, ![A, 128]⟩, Xe⟩, ⟨⟨2, ![A, 1]⟩, D⟩] hc
        (ix2 p ⟨k.val, by have := k.isLt; omega⟩) = Xs (ix2 p k) :=
  concatenate_apply_piece (t := ⟨2, ![A, 257]⟩) 1 [⟨⟨2, ![A, 128]⟩, Xs⟩, ⟨⟨2, ![A, 128]⟩, Xe⟩, ⟨⟨2, ![A, 1]⟩, D⟩] hc _ 0 (by simp) ⟨2, ![A, 128]⟩ Xs rfl rfl 0 rfl (ix2 p k)
    (fun b hb => by
      match b with
      | ⟨0, _⟩ => rfl
      | ⟨1, _⟩ => exact absurd rfl hb)
    (by show 0 + k.val = k.val; omega)

/-- Its next 128 entries are the second input's row. -/
theorem cat3_snd (p : Fin A) (k : Fin 128) :
    concatenate ⟨2, ![A, 257]⟩ 1 [⟨⟨2, ![A, 128]⟩, Xs⟩, ⟨⟨2, ![A, 128]⟩, Xe⟩, ⟨⟨2, ![A, 1]⟩, D⟩] hc
        (ix2 p ⟨128 + k.val, by have := k.isLt; omega⟩) = Xe (ix2 p k) :=
  concatenate_apply_piece (t := ⟨2, ![A, 257]⟩) 1 [⟨⟨2, ![A, 128]⟩, Xs⟩, ⟨⟨2, ![A, 128]⟩, Xe⟩, ⟨⟨2, ![A, 1]⟩, D⟩] hc _ 1 (by simp) ⟨2, ![A, 128]⟩ Xe rfl rfl 128 rfl (ix2 p k)
    (fun b hb => by
      match b with
      | ⟨0, _⟩ => rfl
      | ⟨1, _⟩ => exact absurd rfl hb)
    rfl

/-- Its last entry is the third input's. -/
theorem cat3_thd (p : Fin A) :
    concatenate ⟨2, ![A, 257]⟩ 1 [⟨⟨2, ![A, 128]⟩, Xs⟩, ⟨⟨2, ![A, 128]⟩, Xe⟩, ⟨⟨2, ![A, 1]⟩, D⟩] hc
        (ix2 p ⟨256, by omega⟩) = D (ix2 p (0 : Fin 1)) :=
  concatenate_apply_piece (t := ⟨2, ![A, 257]⟩) 1 [⟨⟨2, ![A, 128]⟩, Xs⟩, ⟨⟨2, ![A, 128]⟩, Xe⟩, ⟨⟨2, ![A, 1]⟩, D⟩] hc _ 2 (by simp) ⟨2, ![A, 1]⟩ D rfl rfl 256 rfl (ix2 p (0 : Fin 1))
    (fun b hb => by
      match b with
      | ⟨0, _⟩ => rfl
      | ⟨1, _⟩ => exact absurd rfl hb)
    rfl

variable (W : FVec Ideal ⟨2, ![257, 128]⟩ .f32) (b : FVec Ideal ⟨1, ![128]⟩ .f32)
  (h0 : (⟨2, ![257, 128]⟩ : Shape).Slices ![0, 0] ⟨2, ![128, 128]⟩)
  (h1 : (⟨2, ![257, 128]⟩ : Shape).Slices ![128, 0] ⟨2, ![128, 128]⟩)
  (h2 : (⟨2, ![257, 128]⟩ : Shape).Slices ![256, 0] ⟨2, ![1, 128]⟩)

/-- The dense layer over the concatenated rows is the first layer in three parts, the weight matrix cut into its three
    row ranges. -/
theorem lin_cat3 :
    lin (concatenate ⟨2, ![A, 257]⟩ 1 [⟨⟨2, ![A, 128]⟩, Xs⟩, ⟨⟨2, ![A, 128]⟩, Xe⟩, ⟨⟨2, ![A, 1]⟩, D⟩] hc) W b
      = first3 Xs Xe D (extractStridedSlice ⟨2, ![128, 128]⟩ ![0, 0] W h0)
          (extractStridedSlice ⟨2, ![128, 128]⟩ ![128, 0] W h1) (extractStridedSlice ⟨2, ![1, 128]⟩ ![256, 0] W h2) b := by
  funext i
  obtain ⟨p, q, rfl⟩ : ∃ (p : Fin A) (q : Fin 128), i = ix2 p q := ⟨i 0, i 1, eq_ix2 i⟩
  rw [lin_ix2, first3_ix2, sum_257]
  congr 1
  congr 1
  · congr 1
    · refine Finset.sum_congr rfl fun k _ => ?_
      rw [cat3_fst hc Xs Xe D p k, slice2_axis0_apply 0 W h0 k q ⟨k.val, by have := k.isLt; omega⟩ (by simp)]
    · refine Finset.sum_congr rfl fun k _ => ?_
      rw [cat3_snd hc Xs Xe D p k, slice2_axis0_apply 128 W h1 k q ⟨128 + k.val, by have := k.isLt; omega⟩ rfl]
  · rw [cat3_thd hc Xs Xe D p, slice2_axis0_apply 256 W h2 (0 : Fin 1) q ⟨256, by omega⟩ rfl]

end Cat

/-- A column repeated along the rows, read at `(p, q)`: the column's entry `p`. -/
theorem col_rows_apply {M : Nat} (G : FVec Ideal ⟨2, ![A, 1]⟩ .f32)
    (h : (⟨2, ![A, 1]⟩ : Shape).BroadcastsInDim ⟨2, ![A, M]⟩ ![0, 1]) (p : Fin A) (q : Fin M) :
    broadcastInDim ⟨2, ![A, M]⟩ ![0, 1] h G (ix2 p q) = G (ix2 p (0 : Fin 1)) :=
  broadcastInDim_apply _ h G (ix2 p q) (ix2 p (0 : Fin 1)) fun a => by
    match a with
    | ⟨0, _⟩ =>
      show p.val = if A = 1 then 0 else p.val
      have := p.isLt
      split
      · omega
      · rfl
    | ⟨1, _⟩ => rfl

/-- A column repeated along the rows, times a matrix, at `(p, q)`: the column's entry `p` times the matrix's entry. -/
theorem gate_mul_apply {M : Nat} (G : FVec Ideal ⟨2, ![A, 1]⟩ .f32) (H : FVec Ideal ⟨2, ![A, M]⟩ .f32)
    (h : (⟨2, ![A, 1]⟩ : Shape).BroadcastsInDim ⟨2, ![A, M]⟩ ![0, 1]) (p : Fin A) (q : Fin M) :
    mulf (broadcastInDim ⟨2, ![A, M]⟩ ![0, 1] h G) H (ix2 p q) = G (ix2 p (0 : Fin 1)) * H (ix2 p q) := by
  show broadcastInDim ⟨2, ![A, M]⟩ ![0, 1] h G (ix2 p q) * H (ix2 p q) = _
  rw [col_rows_apply]

/-- The host's hyperbolic tangent is the exact one. -/
theorem host_tanh {s : Shape} (x : FVec Ideal s .f32) : Host.tanh x = tanh x := rfl

section Edge
variable (Xs Xe : (⟨S600000x128, .f32⟩ : BufTy).Contents (Elt Ideal)) (D : (⟨S600000x1, .f32⟩ : BufTy).Contents (Elt Ideal))
    (a3 : (⟨S257x128, .f32⟩ : BufTy).Contents (Elt Ideal)) (a4 : (⟨S128, .f32⟩ : BufTy).Contents (Elt Ideal))
    (a5 : (⟨S128x128, .f32⟩ : BufTy).Contents (Elt Ideal)) (a6 : (⟨S128, .f32⟩ : BufTy).Contents (Elt Ideal))
    (a7 : (⟨S128x1, .f32⟩ : BufTy).Contents (Elt Ideal)) (a8 : (⟨S1, .f32⟩ : BufTy).Contents (Elt Ideal))
    (h0 : (⟨2, ![257, 128]⟩ : Shape).Slices ![0, 0] ⟨2, ![128, 128]⟩)
    (h1 : (⟨2, ![257, 128]⟩ : Shape).Slices ![128, 0] ⟨2, ![128, 128]⟩)
    (h2 : (⟨2, ![257, 128]⟩ : Shape).Slices ![256, 0] ⟨2, ![1, 128]⟩)

/-- The reference's two hidden layers are the edge stage's second layer. -/
theorem edgeH_eq : RefStages.edgeH (F := Ideal) Xs Xe D a3 a4 a5 a6
      = edgeH2 (A := 600000) (φ := .f32) Xs Xe D (extractStridedSlice ⟨2, ![128, 128]⟩ ![0, 0] a3 h0)
          (extractStridedSlice ⟨2, ![128, 128]⟩ ![128, 0] a3 h1) (extractStridedSlice ⟨2, ![1, 128]⟩ ![256, 0] a3 h2)
          a4 a5 a6 := by
  unfold RefStages.edgeH edgeH2
  simp only [host_tanh,
    lin_host (d := dot_S600000x257_S257x128_S600000x128_1_0_0_1_n_n) rfl,
    lin_host (d := dot_S600000x128_S128x128_S600000x128_1_0_0_1_n_n) rfl,
    lin_cat3 concatenates_S600000x128_S600000x128_S600000x1_S600000x257_d1 Xs Xe D a3 a4 h0 h1 h2]

/-- The reference's gated output, at `(p, q)`: the gate of row `p` times the hidden entry. -/
theorem edgeOut_apply (H : (⟨S600000x128, .f32⟩ : BufTy).Contents (Elt Ideal)) (p : Fin 600000) (q : Fin 128) :
    RefStages.edgeOut (F := Ideal) H a7 a8 (ix2 p q)
      = tanh (lin (A := 600000) (φx := .f32) (φw := .f32) H a7 a8) (ix2 p (0 : Fin 1)) * H (ix2 p q) := by
  unfold RefStages.edgeOut
  rw [lin_host (d := dot_S600000x128_S128x1_S600000x1_1_0_0_1_n_n) rfl, host_tanh]
  exact gate_mul_apply _ _ _ p q

/-- The reference's edge network, from the endpoints' feature rows, the distance column and the six weight arrays, is
    the edge stage at 600000 rows, its first weight matrix cut into its three row ranges. -/
theorem edge_host :
    RefStages.edge (F := Ideal) Xs Xe D a3 a4 a5 a6 a7 a8
      = edgeF (A := 600000) (φ := .f32) Xs Xe D (extractStridedSlice ⟨2, ![128, 128]⟩ ![0, 0] a3 h0)
          (extractStridedSlice ⟨2, ![128, 128]⟩ ![128, 0] a3 h1) (extractStridedSlice ⟨2, ![1, 128]⟩ ![256, 0] a3 h2)
          a4 a5 a6 a7 a8 := by
  funext i
  obtain ⟨p, q, rfl⟩ : ∃ (p : Fin 600000) (q : Fin 128), i = ix2 p q := ⟨i 0, i 1, eq_ix2 i⟩
  unfold RefStages.edge
  rw [edgeF_ix2, edgeOut_apply, edgeH_eq Xs Xe D a3 a4 a5 a6 h0 h1 h2]
  rfl

end Edge

end Cert.ReferenceIdeal.EdgeHost

end
-- ==== Proof.Bridge.lean ====
/-
  The reference's result and the idealized kernel program's result are ONE function of the argument arrays.

  Both programs gather the endpoint features and positions of every edge with the same index arithmetic, build the same
  distance term, sum the messages into their source nodes with the same scatter-add, and differ only in how the two dense
  stages are spelled: the reference's edge stage is the edge network with the first weight matrix cut into its three row
  ranges, its node stage the node stage; rounding the gathered features to bf16 before the gather is the identity on the
  extended reals. So the two results agree as terms once the two stages are named.
-/
import proofs.«155820_j38044820308174_2_alg».proof.Proof.RefStages
import proofs.«155820_j38044820308174_2_alg».proof.Proof.NodeHost
import proofs.«155820_j38044820308174_2_alg».proof.Proof.EdgeHost
import proofs.«155820_j38044820308174_2_alg».proof.Proof.KernelValue

set_option maxRecDepth 16384

noncomputable section

namespace Cert.Bridge

open Idealize.ShloMosaic Idealize.ShloMosaic.ValueIdx Idealize.SL.Sem
open Cert.EGC

/-- Rounding the gathered features' format is the identity on the extended reals: the edge network does not see it. -/
theorem edgeF_fmt {A : Nat} (Xs Xe : FVec Ideal ⟨2, ![A, 128]⟩ .f32) (D : FVec Ideal ⟨2, ![A, 1]⟩ .f32)
    (Wa Wb : FVec Ideal ⟨2, ![128, 128]⟩ .f32) (Wc : FVec Ideal ⟨2, ![1, 128]⟩ .f32) (b1 : FVec Ideal ⟨1, ![128]⟩ .f32)
    (W2 : FVec Ideal ⟨2, ![128, 128]⟩ .f32) (b2 : FVec Ideal ⟨1, ![128]⟩ .f32)
    (Wf : FVec Ideal ⟨2, ![128, 1]⟩ .f32) (bf : FVec Ideal ⟨1, ![1]⟩ .f32) :
    edgeF (φ := .f32) Xs Xe D Wa Wb Wc b1 W2 b2 Wf bf = edgeF (φ := .bf16) Xs Xe D Wa Wb Wc b1 W2 b2 Wf bf := rfl

/-- The reference's result and the kernel program's are one function of the argument arrays. -/
theorem result_eq
    (a0 : (⟨Cert.ReferenceIdeal.S100000x128, .f32⟩ : BufTy).Contents (Elt Ideal)) (a1 : (⟨Cert.ReferenceIdeal.S100000x3, .f32⟩ : BufTy).Contents (Elt Ideal)) (a2 : (⟨Cert.ReferenceIdeal.S2x600000, .i32⟩ : BufTy).Contents (Elt Ideal)) (a3 : (⟨Cert.ReferenceIdeal.S257x128, .f32⟩ : BufTy).Contents (Elt Ideal)) (a4 : (⟨Cert.ReferenceIdeal.S128, .f32⟩ : BufTy).Contents (Elt Ideal)) (a5 : (⟨Cert.ReferenceIdeal.S128x128, .f32⟩ : BufTy).Contents (Elt Ideal)) (a6 : (⟨Cert.ReferenceIdeal.S128, .f32⟩ : BufTy).Contents (Elt Ideal)) (a7 : (⟨Cert.ReferenceIdeal.S128x1, .f32⟩ : BufTy).Contents (Elt Ideal)) (a8 : (⟨Cert.ReferenceIdeal.S1, .f32⟩ : BufTy).Contents (Elt Ideal)) (a9 : (⟨Cert.ReferenceIdeal.S256x128, .f32⟩ : BufTy).Contents (Elt Ideal)) (a10 : (⟨Cert.ReferenceIdeal.S128, .f32⟩ : BufTy).Contents (Elt Ideal)) (a11 : (⟨Cert.ReferenceIdeal.S128x128, .f32⟩ : BufTy).Contents (Elt Ideal)) (a12 : (⟨Cert.ReferenceIdeal.S128, .f32⟩ : BufTy).Contents (Elt Ideal)) (a13 : (⟨Cert.ReferenceIdeal.S128x128, .f32⟩ : BufTy).Contents (Elt Ideal)) (a14 : (⟨Cert.ReferenceIdeal.S128, .f32⟩ : BufTy).Contents (Elt Ideal)) (a15 : (⟨Cert.ReferenceIdeal.S128x128, .f32⟩ : BufTy).Contents (Elt Ideal)) (a16 : (⟨Cert.ReferenceIdeal.S128, .f32⟩ : BufTy).Contents (Elt Ideal)) (a17 : (⟨Cert.ReferenceIdeal.S128x128, .f32⟩ : BufTy).Contents (Elt Ideal)) (a18 : (⟨Cert.ReferenceIdeal.S128, .f32⟩ : BufTy).Contents (Elt Ideal)) (a19 : (⟨Cert.ReferenceIdeal.S128x128, .f32⟩ : BufTy).Contents (Elt Ideal)) (a20 : (⟨Cert.ReferenceIdeal.S128, .f32⟩ : BufTy).Contents (Elt Ideal)) (a21 : (⟨Cert.ReferenceIdeal.S128x3, .f32⟩ : BufTy).Contents (Elt Ideal)) (a22 : (⟨Cert.ReferenceIdeal.S3, .f32⟩ : BufTy).Contents (Elt Ideal)) :
    Cert.ReferenceIdeal.RefStages.result (F := Ideal) a0 a1 a2 a3 a4 a5 a6 a7 a8 a9 a10 a11 a12 a13 a14 a15 a16 a17 a18 a19 a20 a21 a22
      = Cert.KernelIdeal.KValue.kval Cert.ReferenceIdeal.Gen.concatenates_S100000x128_S100000x128_S100000x256_d1 a0 a1 a2 a3 a4 a5 a6 a7 a8 a9 a10 a11 a12 a13 a14 a15 a16 a17 a18 a19 a20 a21 a22 := by
  unfold Cert.ReferenceIdeal.RefStages.result Cert.KernelIdeal.KValue.kval Cert.KernelIdeal.KValue.msgs
  rw [Cert.ReferenceIdeal.NodeHost.node_host, Cert.ReferenceIdeal.EdgeHost.edge_host _ _ _ _ _ _ _ _ _
    Cert.KernelIdeal.Gen.slices_S257x128_S128x128_0_0 Cert.KernelIdeal.Gen.slices_S257x128_S128x128_128_0 Cert.KernelIdeal.Gen.slices_S257x128_S1x128_256_0,
    edgeF_fmt]
  rfl

end Cert.Bridge

end
-- ==== Proof.lean ====
/-
  The certificate of the graph network's two kernels against its reference: frame_Kernel ∧ frame_KernelIdeal ∧
  frame_ReferenceIdeal ∧ preserves_Kernel_KernelIdeal ∧ algebraic_KernelIdeal_ReferenceIdeal.

  The network: for every edge, the features of its two endpoints and the norm of the squared position difference go through
  a two-layer tanh network and a tanh gate; the gated messages are summed into their source nodes; every node's features and
  summed messages go through a residual tanh update and a five-layer head with leaky rectifiers. The kernel program computes
  the edge stage in blocks of 4000 edges with the first weight matrix cut into the rows that meet the source features, the
  target features and the distance (the reference multiplies the 257 concatenated inputs by the whole matrix: a finite sum
  over 257 terms split as 128 + 128 + 1, in the commutative monoid of the extended reals), and the node stage in blocks of
  5000 nodes; its rectifier tests x > 0 where the reference tests x ≥ 0 (the branches agree at 0). Roundings to bf16 are the
  identity on the extended reals. No finiteness of the inputs is used.

  The two kernel frames are the generated ones; the reference's frame is its run with the result dropped; the idealization
  rewrote nothing, so preserves is trivial; for the algebraic claim both runs end at one function of the argument arrays.
-/
import proofs.«155820_j38044820308174_2_alg».proof.Defs
import proofs.«155820_j38044820308174_2_alg».proof.Proof.Gen.Kernel
import proofs.«155820_j38044820308174_2_alg».proof.Proof.Gen.Kernel.Frame
import proofs.«155820_j38044820308174_2_alg».proof.Proof.Gen.KernelIdeal
import proofs.«155820_j38044820308174_2_alg».proof.Proof.Gen.KernelIdeal.Frame
import proofs.«155820_j38044820308174_2_alg».proof.Proof.Gen.ReferenceIdeal
import proofs.«155820_j38044820308174_2_alg».proof.Proof.Gen.Pre_finite_inputs
import Idealize.ShloMosaic.Adequacy
import Idealize.ShloMosaic.Init
import proofs.«155820_j38044820308174_2_alg».proof.Proof.KernelRun
import proofs.«155820_j38044820308174_2_alg».proof.Proof.KernelValue
import proofs.«155820_j38044820308174_2_alg».proof.Proof.RefRun
import proofs.«155820_j38044820308174_2_alg».proof.Proof.Bridge

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- Both programs end, from memories agreeing on the arguments, at one function of the argument arrays. -/
theorem algebraic : Cert.algebraic_KernelIdeal_ReferenceIdeal := by
  intro m ρ m' ρ' _ hagree
  refine ⟨fun c => Cert.KernelIdeal.Gen.W6 m ρ c (Proc.devRef .tc Cert.KernelIdeal.main_v43), Cert.KernelIdeal.KRun.run_all m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10, e11, e12, e13, e14, e15, e16, e17, e18, e19, e20, e21, e22⟩ := hagree c
  rw [e0, e1, e2, e3, e4, e5, e6, e7, e8, e9, e10, e11, e12, e13, e14, e15, e16, e17, e18, e19, e20, e21, e22]
  exact (Cert.Bridge.result_eq _ _ _ _ _ _ _ _ _ _ _ _ _ _ _ _ _ _ _ _ _ _ _).trans
    (Cert.KernelIdeal.KValue.value m ρ Cert.ReferenceIdeal.Gen.concatenates_S100000x128_S100000x128_S100000x256_d1 c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
